-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S128 .f32) (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg11 : FVec F S128 .f32) (main_arg12 : FVec F S128x128 .f32) (main_arg13 : FVec F S128x128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_v48 main_v49 main_v50

def fn_part1 {F : FTy → Type} [FloatOps F] (main_arg8 : FVec F S128 .f32) (main_arg9 : FVec F S128 .f32) (main_arg10 : FVec F S128 .f32) (main_arg11 : FVec F S128 .f32) (main_arg12 : FVec F S128x128 .f32) (main_arg13 : FVec F S128x128 .f32) (main_arg14 : FVec F S128 .f32) (main_arg15 : FVec F S128 .f32) (main_arg16 : FVec F S128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S50000x128 .f32) (main_arg1 : FVec F S50000x128 .f32) (main_arg2 : IVec S640000 32) (main_arg3 : IVec S640000 32) (main_arg4 : IVec S640000 32) (main_arg5 : IVec S640000 32) (main_arg6 : FVec F S128x128 .f32) (main_arg7 : FVec F S128x128 .f32) (main_arg8 : FVec F S128 .f32) (main_arg9 : FVec F S128 .f32) (main_arg10 : FVec F S128 .f32) (main_arg11 : FVec F S128 .f32) (main_arg12 : FVec F S128x128 .f32) (main_arg13 : FVec F S128x128 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_arg13 main_arg14 main_arg15 main_arg16 main_arg17 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 98
  | .vmem => 56
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S640000, .i32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S50000x128, .f32⟩
  | .hbm, ⟨29, _⟩ => ⟨S640000x1, .i32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S50000x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S640000x1, .i32⟩
  | .hbm, ⟨66, _⟩ => ⟨S640000x128, .f32⟩
  | .hbm, ⟨67, _⟩ => ⟨S_, .f32⟩
  | .hbm, ⟨68, _⟩ => ⟨S50000x128, .f32⟩
  | .hbm, ⟨69, _⟩ => ⟨S640000x1, .i32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S1x128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10_0 : Ref sig .tc := ⟨.hbm, 31, rfl⟩
abbrev main_v10_1 : Ref sig .tc := ⟨.hbm, 32, rfl⟩
abbrev main_v10_2 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19_0 : Ref sig .tc := ⟨.hbm, 44, rfl⟩
abbrev main_v19_1 : Ref sig .tc := ⟨.hbm, 45, rfl⟩
abbrev main_v19_2 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39_0 : Ref sig .tc := ⟨.hbm, 71, rfl⟩
abbrev main_v39_1 : Ref sig .tc := ⟨.hbm, 72, rfl⟩
abbrev main_v39_2 : Ref sig .tc := ⟨.hbm, 73, rfl⟩
abbrev main_cst_8 : Ref sig .tc := ⟨.hbm, 74, rfl⟩
abbrev main_v40 : Ref sig .tc := ⟨.hbm, 75, rfl⟩
abbrev main_v41 : Ref sig .tc := ⟨.hbm, 76, rfl⟩
abbrev main_cst_9 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48_0 : Ref sig .tc := ⟨.hbm, 84, rfl⟩
abbrev main_v48_1 : Ref sig .tc := ⟨.hbm, 85, rfl⟩
abbrev main_v48_2 : Ref sig .tc := ⟨.hbm, 86, rfl⟩
abbrev main_cst_10 : Ref sig .tc := ⟨.hbm, 87, rfl⟩
abbrev main_v49 : Ref sig .tc := ⟨.hbm, 88, rfl⟩
abbrev main_v50 : Ref sig .tc := ⟨.hbm, 89, rfl⟩
abbrev main_cst_11 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg5_0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg8_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem8_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem3_1 : DmaSem sig := 34
abbrev cc3_sem4_0 : DmaSem sig := 35
abbrev cc3_sem5_0 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem8_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v19_1) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19_2) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v19_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v39_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v41) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v45) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v48_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v48_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v48_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v48_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v54) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 238
  | .vmem => 0
  | .smem => 0
  | _ => 0

abbrev hbmTy0_0 (i : Nat) : BufTy := match i % 128 with
  | 0 => ⟨S50000x128, .f32⟩
  | 1 => ⟨S50000x128, .f32⟩
  | 2 => ⟨S640000, .i32⟩
  | 3 => ⟨S640000, .i32⟩
  | 4 => ⟨S640000, .i32⟩
  | 5 => ⟨S640000, .i32⟩
  | 6 => ⟨S128x128, .f32⟩
  | 7 => ⟨S128x128, .f32⟩
  | 8 => ⟨S128, .f32⟩
  | 9 => ⟨S128, .f32⟩
  | 10 => ⟨S128, .f32⟩
  | 11 => ⟨S128, .f32⟩
  | 12 => ⟨S128x128, .f32⟩
  | 13 => ⟨S128x128, .f32⟩
  | 14 => ⟨S128, .f32⟩
  | 15 => ⟨S128, .f32⟩
  | 16 => ⟨S128, .f32⟩
  | 17 => ⟨S128, .f32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S_, .f32⟩
  | 28 => ⟨S50000x128, .f32⟩
  | 29 => ⟨S640000x1, .i32⟩
  | 30 => ⟨S50000x128, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S_, .i32⟩
  | 1 => ⟨S640000, .i32⟩
  | 2 => ⟨S640000, .i1⟩
  | 3 => ⟨S_, .i32⟩
  | 4 => ⟨S640000, .i32⟩
  | 5 => ⟨S640000, .i32⟩
  | 6 => ⟨S640000, .i32⟩
  | 7 => ⟨S640000x1, .i32⟩
  | 8 => ⟨S640000x128, .f32⟩
  | 9 => ⟨S_, .f32⟩
  | 10 => ⟨S50000x128, .f32⟩
  | 11 => ⟨S640000x1, .i32⟩
  | 12 => ⟨S50000x128, .f32⟩
  | 13 => ⟨S50000x128, .f32⟩
  | 14 => ⟨S50000x128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_cst_4 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_call1_cst : Ref sig .tc := ⟨.hbm, 77, rfl⟩
abbrev main_call1_v0 : Ref sig .tc := ⟨.hbm, 78, rfl⟩
abbrev main_v31 : Ref sig .tc := ⟨.hbm, 79, rfl⟩
abbrev main_v32 : Ref sig .tc := ⟨.hbm, 80, rfl⟩
abbrev main_cst_5 : Ref sig .tc := ⟨.hbm, 81, rfl⟩
abbrev main_v33 : Ref sig .tc := ⟨.hbm, 82, rfl⟩
abbrev main_cst_6 : Ref sig .tc := ⟨.hbm, 83, rfl⟩
abbrev main_v34 : Ref sig .tc := ⟨.hbm, 84, rfl⟩
abbrev main_v35 : Ref sig .tc := ⟨.hbm, 85, rfl⟩
abbrev main_c_7 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_cst_1 : Ref sig .tc := ⟨.hbm, 97, rfl⟩
abbrev main_call2_v8 : Ref sig .tc := ⟨.hbm, 98, rfl⟩
abbrev main_call2_cst_2 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_cst_3 : Ref sig .tc := ⟨.hbm, 103, rfl⟩
abbrev main_call2_v12 : Ref sig .tc := ⟨.hbm, 104, rfl⟩
abbrev main_call2_cst_4 : Ref sig .tc := ⟨.hbm, 105, rfl⟩
abbrev main_call2_call0_v0 : Ref sig .tc := ⟨.hbm, 106, rfl⟩
abbrev main_call2_call0_v1 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_cst_8 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_call3_cst : Ref sig .tc := ⟨.hbm, 125, rfl⟩
abbrev main_call3_v0 : Ref sig .tc := ⟨.hbm, 126, rfl⟩
abbrev main_v52 : Ref sig .tc := ⟨.hbm, 127, rfl⟩
abbrev main_c_9 : Ref sig .tc := ⟨.hbm, 128, rfl⟩
abbrev main_v53 : Ref sig .tc := ⟨.hbm, 129, rfl⟩
abbrev main_v54 : Ref sig .tc := ⟨.hbm, 130, rfl⟩
abbrev main_c_10 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_cst_11 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_cst_12 : Ref sig .tc := ⟨.hbm, 143, rfl⟩
abbrev main_v65 : Ref sig .tc := ⟨.hbm, 144, rfl⟩
abbrev main_cst_13 : Ref sig .tc := ⟨.hbm, 145, rfl⟩
abbrev main_v66 : Ref sig .tc := ⟨.hbm, 146, rfl⟩
abbrev main_v67 : Ref sig .tc := ⟨.hbm, 147, rfl⟩
abbrev main_c_14 : Ref sig .tc := ⟨.hbm, 148, rfl⟩
abbrev main_call4_cst : Ref sig .tc := ⟨.hbm, 149, rfl⟩
abbrev main_call4_v0 : Ref sig .tc := ⟨.hbm, 150, rfl⟩
abbrev main_call4_v1 : Ref sig .tc := ⟨.hbm, 151, rfl⟩
abbrev main_call4_cst_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_v6 : Ref sig .tc := ⟨.hbm, 157, rfl⟩
abbrev main_call4_v7 : Ref sig .tc := ⟨.hbm, 158, rfl⟩
abbrev main_call4_cst_1 : Ref sig .tc := ⟨.hbm, 159, rfl⟩
abbrev main_call4_v8 : Ref sig .tc := ⟨.hbm, 160, rfl⟩
abbrev main_call4_cst_2 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_cst_3 : Ref sig .tc := ⟨.hbm, 165, rfl⟩
abbrev main_call4_v12 : Ref sig .tc := ⟨.hbm, 166, rfl⟩
abbrev main_call4_cst_4 : Ref sig .tc := ⟨.hbm, 167, rfl⟩
abbrev main_call4_call0_v0 : Ref sig .tc := ⟨.hbm, 168, rfl⟩
abbrev main_call4_call0_v1 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_cst_15 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_call5_cst : Ref sig .tc := ⟨.hbm, 187, rfl⟩
abbrev main_call5_v0 : Ref sig .tc := ⟨.hbm, 188, rfl⟩
abbrev main_v84 : Ref sig .tc := ⟨.hbm, 189, rfl⟩
abbrev main_v85 : Ref sig .tc := ⟨.hbm, 190, rfl⟩
abbrev main_cst_16 : Ref sig .tc := ⟨.hbm, 191, rfl⟩
abbrev main_v86 : Ref sig .tc := ⟨.hbm, 192, rfl⟩
abbrev main_cst_17 : Ref sig .tc := ⟨.hbm, 193, rfl⟩
abbrev main_v87 : Ref sig .tc := ⟨.hbm, 194, rfl⟩
abbrev main_v88 : Ref sig .tc := ⟨.hbm, 195, rfl⟩
abbrev main_c_18 : Ref sig .tc := ⟨.hbm, 196, rfl⟩
abbrev main_call6_cst : Ref sig .tc := ⟨.hbm, 197, rfl⟩
abbrev main_call6_v0 : Ref sig .tc := ⟨.hbm, 198, rfl⟩
abbrev main_call6_v1 : Ref sig .tc := ⟨.hbm, 199, rfl⟩
abbrev main_call6_cst_0 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_v5 : Ref sig .tc := ⟨.hbm, 204, rfl⟩
abbrev main_call6_v6 : Ref sig .tc := ⟨.hbm, 205, rfl⟩
abbrev main_call6_v7 : Ref sig .tc := ⟨.hbm, 206, rfl⟩
abbrev main_call6_cst_1 : Ref sig .tc := ⟨.hbm, 207, rfl⟩
abbrev main_call6_v8 : Ref sig .tc := ⟨.hbm, 208, rfl⟩
abbrev main_call6_cst_2 : Ref sig .tc := ⟨.hbm, 209, rfl⟩
abbrev main_call6_v9 : Ref sig .tc := ⟨.hbm, 210, rfl⟩
abbrev main_call6_v10 : Ref sig .tc := ⟨.hbm, 211, rfl⟩
abbrev main_call6_v11 : Ref sig .tc := ⟨.hbm, 212, rfl⟩
abbrev main_call6_cst_3 : Ref sig .tc := ⟨.hbm, 213, rfl⟩
abbrev main_call6_v12 : Ref sig .tc := ⟨.hbm, 214, rfl⟩
abbrev main_call6_cst_4 : Ref sig .tc := ⟨.hbm, 215, rfl⟩
abbrev main_call6_call0_v0 : Ref sig .tc := ⟨.hbm, 216, rfl⟩
abbrev main_call6_call0_v1 : Ref sig .tc := ⟨.hbm, 217, rfl⟩
abbrev main_v89 : Ref sig .tc := ⟨.hbm, 218, rfl⟩
abbrev main_v90 : Ref sig .tc := ⟨.hbm, 219, rfl⟩
abbrev main_v91 : Ref sig .tc := ⟨.hbm, 220, rfl⟩
abbrev main_v92 : Ref sig .tc := ⟨.hbm, 221, rfl⟩
abbrev main_cst_19 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_v103 : Ref sig .tc := ⟨.hbm, 233, rfl⟩
abbrev main_v104 : Ref sig .tc := ⟨.hbm, 234, rfl⟩
abbrev main_call7_cst : Ref sig .tc := ⟨.hbm, 235, rfl⟩
abbrev main_call7_v0 : Ref sig .tc := ⟨.hbm, 236, rfl⟩
abbrev main_v105 : Ref sig .tc := ⟨.hbm, 237, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run with its two result arrays named: every weakly fair execution terminates without a
  fault, each result array ends at what the last segment boundary holds for it, and the argument arrays end unchanged.
-/
import proofs.«120853_j16423954940358_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ r.2.mem ((c.tc : Thread nD τ).loc main_v28) = W12 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v57 (by decide)),
       h c _ (mem_uc main_v28 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c)⟩)

end Cert.KernelIdeal.Named

end
-- ==== Proof.K1.lean ====
/-
  The second kernel of a relation (normalise, scale, shift, cut at zero, product with the second weight matrix,
  running column statistics), one grid point at a time: what the body leaves in each of its three outputs' buffers, as
  the body's own arithmetic applied to the point's input blocks and, for the two running rows, to what the point before left.
-/
import proofs.«120853_j16423954940358_2_alg».proof.Proof.Gen.KernelIdeal.Frame
import Idealize.ShloMosaic.Lib.Pipeline.Value
import Idealize.ShloMosaic.Lib.StableHlo.Run
import Idealize.ShloMosaic.Lib.Tactic
set_option maxRecDepth 16384
noncomputable section
namespace Cert.KernelIdeal.Stats1
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
variable {F : FTy → Type} [FloatOps F]

theorem hz : (![0, 0] : Fin 2 → Nat) = fun _ => 0 := funext fun a => by fin_cases a <;> rfl

theorem out_A_6 (c : Dev nD) (i : grid1.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond1_0 i) (x0 : Vec F S5000x128 .f32) (x1 : Vec F S128x128 .f32) (x2 : Vec F S1x128 .f32) (x3 : Vec F S1x128 .f32) (x4 : Vec F S1x128 .f32) (x5 : Vec F S1x128 .f32) :
    out1_A_6 c i a1 h1 a2 h2 a3 h3 a4 h4 a5 h5 a6 h6 a7 h7 a8 h8 a9 h9 hc x0 x1 x2 x3 x4 x5 = (k1_pay5 x0 x4 x5 x2 x3 x1) := by
  unfold out1_A_6
  rw [View.read_writes_eq_canon _ _ _ (cover1_A_6 c i a1 h1 a2 h2 a3 h3 a4 h4 a5 h5 a6 h6 a7 h7 a8 h8 a9 h9 hc x0 x1 x2 x3 x4 x5)]
  unfold kernelRun1_A
  dsimp only
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_A_7 (c : Dev nD) (i : grid1.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond1_0 i) (x0 : Vec F S5000x128 .f32) (x1 : Vec F S128x128 .f32) (x2 : Vec F S1x128 .f32) (x3 : Vec F S1x128 .f32) (x4 : Vec F S1x128 .f32) (x5 : Vec F S1x128 .f32) :
    out1_A_7 c i a1 h1 a2 h2 a3 h3 a4 h4 a5 h5 a6 h6 a7 h7 a8 h8 a9 h9 hc x0 x1 x2 x3 x4 x5 = k1_pay1 (k1_pay6 (k1_pay3 (F := F))) (k1_pay7 x0 x4 x5 x2 x3 x1) := by
  unfold out1_A_7
  rw [View.read_writes_eq_canon _ _ _ (cover1_A_7 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_A_8 (c : Dev nD) (i : grid1.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond1_0 i) (x0 : Vec F S5000x128 .f32) (x1 : Vec F S128x128 .f32) (x2 : Vec F S1x128 .f32) (x3 : Vec F S1x128 .f32) (x4 : Vec F S1x128 .f32) (x5 : Vec F S1x128 .f32) :
    out1_A_8 c i a1 h1 a2 h2 a3 h3 a4 h4 a5 h5 a6 h6 a7 h7 a8 h8 a9 h9 hc x0 x1 x2 x3 x4 x5 = k1_pay2 (k1_pay5 x0 x4 x5 x2 x3 x1) (k1_pay4 (F := F)) := by
  unfold out1_A_8
  rw [View.read_writes_eq_canon _ _ _ (cover1_A_8 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_B_6 (c : Dev nD) (i : grid1.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond1_0 i) (x0 : Vec F S5000x128 .f32) (x1 : Vec F S128x128 .f32) (x2 : Vec F S1x128 .f32) (x3 : Vec F S1x128 .f32) (x4 : Vec F S1x128 .f32) (x5 : Vec F S1x128 .f32) (xo7 xo8 : Vec F S1x128 .f32) :
    out1_B_6 c i a1 h1 a2 h2 a3 h3 a4 h4 a5 h5 a6 h6 a7 h7 a8 h8 a9 h9 hc x0 x1 x2 x3 x4 x5 xo7 xo8 = (k1_pay5 x0 x4 x5 x2 x3 x1) := by
  unfold out1_B_6
  rw [View.read_writes_eq_canon _ _ _ (cover1_B_6 c i a1 h1 a2 h2 a3 h3 a4 h4 a5 h5 a6 h6 a7 h7 a8 h8 a9 h9 hc x0 x1 x2 x3 x4 x5 xo7 xo8)]
  unfold kernelRun1_B
  dsimp only
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_B_7 (c : Dev nD) (i : grid1.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond1_0 i) (x0 : Vec F S5000x128 .f32) (x1 : Vec F S128x128 .f32) (x2 : Vec F S1x128 .f32) (x3 : Vec F S1x128 .f32) (x4 : Vec F S1x128 .f32) (x5 : Vec F S1x128 .f32) (xo7 xo8 : Vec F S1x128 .f32) :
    out1_B_7 c i a1 h1 a2 h2 a3 h3 a4 h4 a5 h5 a6 h6 a7 h7 a8 h8 a9 h9 hc x0 x1 x2 x3 x4 x5 xo7 xo8 = k1_pay1 (k1_pay6 xo7) (k1_pay7 x0 x4 x5 x2 x3 x1) := by
  unfold out1_B_7
  rw [View.read_writes_eq_canon _ _ _ (cover1_B_7 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_B_8 (c : Dev nD) (i : grid1.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond1_0 i) (x0 : Vec F S5000x128 .f32) (x1 : Vec F S128x128 .f32) (x2 : Vec F S1x128 .f32) (x3 : Vec F S1x128 .f32) (x4 : Vec F S1x128 .f32) (x5 : Vec F S1x128 .f32) (xo7 xo8 : Vec F S1x128 .f32) :
    out1_B_8 c i a1 h1 a2 h2 a3 h3 a4 h4 a5 h5 a6 h6 a7 h7 a8 h8 a9 h9 hc x0 x1 x2 x3 x4 x5 xo7 xo8 = k1_pay2 (k1_pay5 x0 x4 x5 x2 x3 x1) xo8 := by
  unfold out1_B_8
  rw [View.read_writes_eq_canon _ _ _ (cover1_B_8 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

end Cert.KernelIdeal.Stats1
end
-- ==== Proof.K0.lean ====
/-
  The first kernel of a relation (product with the first weight matrix and running column statistics), one grid
  point at a time: what the body leaves in each of its three outputs' buffers, as the body's own arithmetic applied
  to the point's input blocks and, for the two running sums, to what the point before left.
-/
import proofs.«120853_j16423954940358_2_alg».proof.Proof.Gen.KernelIdeal.Frame
import Idealize.ShloMosaic.Lib.Pipeline.Value
import Idealize.ShloMosaic.Lib.StableHlo.Run
import Idealize.ShloMosaic.Lib.Tactic
set_option maxRecDepth 16384
noncomputable section
namespace Cert.KernelIdeal.Stats0
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
variable {F : FTy → Type} [FloatOps F]

theorem hz : (![0, 0] : Fin 2 → Nat) = fun _ => 0 := funext fun a => by fin_cases a <;> rfl

/-- At the first point the body's product block: the product of the summed input blocks with the weights. -/
theorem out_A_3 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S5000x128 .f32) (x2 : Vec F S128x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

/-- At the first point the running column sums start from the zero row the body has just stored. -/
theorem out_A_4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S5000x128 .f32) (x2 : Vec F S128x128 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S128x128) hz, View.ld_unit_zero (S := S1x128) hz]

/-- At the first point the running column sums of squares start from the zero row. -/
theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S5000x128 .f32) (x2 : Vec F S128x128 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S128x128) hz, View.ld_unit_zero (S := S1x128) hz]

/-- At a later point the product block again. -/
theorem out_B_3 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S5000x128 .f32) (x2 : Vec F S128x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

/-- At a later point the column sums so far plus this block's column sums. -/
theorem out_B_4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S5000x128 .f32) (x2 : Vec F S128x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread, h6.read_unread]

/-- At a later point the column sums of squares so far plus this block's. -/
theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S5000x128 .f32) (x2 : Vec F S128x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread, h6.read_unread]

end Cert.KernelIdeal.Stats0
end
-- ==== Proof.Algebra.lean ====
/-
  Real-number facts behind batch normalisation, stated on the extended reals.

  A column of N = 50000 finite entries h has mean μ = (Σ h)/N.  Its variance can be taken two ways: as the mean of
  the squared deviations, (Σ (h − μ)²)/N, or as the mean of the squares minus the squared mean, (Σ h²)/N − μ².  Over
  the reals the two agree: Σ (h − μ)² = Σ h² − 2 μ Σ h + N μ² = Σ h² − N μ².  On the extended reals the same holds as
  soon as every entry is a real number — with an infinite entry the two differ, which is why finiteness is carried
  along — and the common value is a real ≥ 0, so that adding a positive ε and taking the reciprocal square root
  gives a real again.
-/
import Idealize.ShloMosaic.PureOps.Ideal
import Idealize.ShloMosaic.PureOps.Ideal.Laws

noncomputable section

open scoped BigOperators

namespace Cert.Gin

open Idealize.ShloMosaic

/-- The pattern of +0.0 denotes 0. -/
theorem ofBits_zero : Ideal.ofBits .f32 0x00000000#32 = 0 := by
  simp [Ideal.ofBits, Ideal.ieee]

/-- The pattern of 50000.0 denotes the real 50000. -/
theorem ofBits_N : Ideal.ofBits .f32 0x47435000#32 = ((50000 : ℝ) : EReal) := by
  simp [Ideal.ofBits, Ideal.ieee, -EReal.coe_mul]; norm_num

/-- The ε of the normalisation denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Dividing a real by the real 50000. -/
theorem div_N (a : ℝ) : Ideal.div (a : EReal) ((50000 : ℝ) : EReal) = ((a / 50000 : ℝ) : EReal) := by
  rw [Ideal.div_coe (by norm_num : (50000 : ℝ) ≠ 0), ← EReal.coe_mul]
  congr 1; ring

theorem IsReal.div_N {x : EReal} (hx : IsReal x) : IsReal (Ideal.div x ((50000 : ℝ) : EReal)) := by
  obtain ⟨a, rfl⟩ := hx; exact ⟨_, Cert.Gin.div_N a⟩

/-- The reciprocal square root of a positive real is a real. -/
theorem IsReal.rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- Over the reals: the mean of the squared deviations is the mean of the squares less the squared mean. -/
theorem real_var {ι : Type*} [Fintype ι] (r : ι → ℝ) (N : ℝ) (hN : N ≠ 0) (hc : (Fintype.card ι : ℝ) = N) :
    (∑ i, (r i - (∑ i, r i) / N) * (r i - (∑ i, r i) / N)) / N = (∑ i, r i * r i) / N - (∑ i, r i) / N * ((∑ i, r i) / N) := by
  have e : ∀ i, (r i - (∑ i, r i) / N) * (r i - (∑ i, r i) / N)
      = r i * r i - 2 * ((∑ i, r i) / N) * r i + (∑ i, r i) / N * ((∑ i, r i) / N) := fun i => by ring
  simp only [e, Finset.sum_add_distrib, Finset.sum_sub_distrib, ← Finset.mul_sum, Finset.sum_const, Finset.card_univ, nsmul_eq_mul, hc]
  field_simp
  ring

/-- Over the reals the mean of squared deviations is nonnegative. -/
theorem real_var_nonneg {ι : Type*} [Fintype ι] (r : ι → ℝ) (N : ℝ) (hN : 0 < N) :
    0 ≤ (∑ i, (r i - (∑ i, r i) / N) * (r i - (∑ i, r i) / N)) / N :=
  div_nonneg (Finset.sum_nonneg fun i _ => mul_self_nonneg _) hN.le

/-- On the extended reals, for a column of 50000 real entries: the two variances agree, and their value is a
    nonnegative real. -/
theorem var_eq (h : Fin 50000 → EReal) (hh : ∀ i, IsReal (h i)) :
    Ideal.div (∑ i, (h i - Ideal.div (∑ i, h i) ((50000 : ℝ) : EReal)) * (h i - Ideal.div (∑ i, h i) ((50000 : ℝ) : EReal))) ((50000 : ℝ) : EReal)
      = Ideal.div (∑ i, h i * h i) ((50000 : ℝ) : EReal)
          - Ideal.div (∑ i, h i) ((50000 : ℝ) : EReal) * Ideal.div (∑ i, h i) ((50000 : ℝ) : EReal)
    ∧ ∃ v : ℝ, 0 ≤ v ∧ Ideal.div (∑ i, (h i - Ideal.div (∑ i, h i) ((50000 : ℝ) : EReal)) * (h i - Ideal.div (∑ i, h i) ((50000 : ℝ) : EReal))) ((50000 : ℝ) : EReal) = (v : EReal) := by
  choose r hr using hh
  have hfun : h = fun i => ((r i : ℝ) : EReal) := funext hr
  subst hfun
  have hc : (Fintype.card (Fin 50000) : ℝ) = 50000 := by simp
  simp only [coe_sum, div_N, ← EReal.coe_sub, ← EReal.coe_mul]
  refine ⟨?_, _, real_var_nonneg r 50000 (by norm_num), rfl⟩
  rw [real_var r 50000 (by norm_num) hc]

end Cert.Gin

end
-- ==== Proof.Spec.lean ====
/-
  The two-layer network one relation computes, as a function on the extended reals, in the two forms the programs use.

  From a matrix x of 50000 rows and 128 columns: h1 = x · W1; each column of h1 is normalised by its mean and
  variance, scaled by g1, shifted by b1 and cut below at 0; the result times W2 is h2, which is normalised, scaled,
  shifted and cut the same way with g2, b2.  One program takes a column's variance as the mean of the squared
  deviations from the mean, the other as the mean of the squares less the square of the mean.  When x, the weights,
  scales and shifts are all real numbers so is every intermediate value, the two variances agree (Algebra), and the
  two forms of the network are one function.
-/
import Idealize.ShloMosaic.Lib.ValueIdx
import proofs.«120853_j16423954940358_2_alg».proof.Proof.Algebra

noncomputable section

open scoped BigOperators

namespace Cert.Gin

open Idealize.ShloMosaic Idealize.ShloMosaic.ValueIdx

abbrev SB : Shape := ⟨2, ![50000, 128]⟩
abbrev SW : Shape := ⟨2, ![128, 128]⟩

/-- The ε added to a variance. -/
def eps : EReal := Ideal.ofBits .f32 0x3727C5AC#32

/-- The real 50000 as an extended real. -/
abbrev nN : EReal := ((50000 : ℝ) : EReal)

/-- Column c's mean. -/
def mean (h : SB.Idx → EReal) (c : Fin 128) : EReal := Ideal.div (∑ r : Fin 50000, h (ix2 r c)) nN

/-- Column c's variance as the mean of the squared deviations. -/
def varD (h : SB.Idx → EReal) (c : Fin 128) : EReal :=
  Ideal.div (∑ r : Fin 50000, (h (ix2 r c) - mean h c) * (h (ix2 r c) - mean h c)) nN

/-- Column c's variance as the mean of the squares less the squared mean. -/
def varS (h : SB.Idx → EReal) (c : Fin 128) : EReal :=
  Ideal.div (∑ r : Fin 50000, h (ix2 r c) * h (ix2 r c)) nN - mean h c * mean h c

/-- Normalise each column with the variances v, scale, shift, cut below at 0. -/
def norm (v : Fin 128 → EReal) (h : SB.Idx → EReal) (g b : Fin 128 → EReal) : SB.Idx → EReal :=
  fun i => max ((h i - mean h (i 1)) * Ideal.rsqrt (v (i 1) + eps) * g (i 1) + b (i 1)) 0

/-- The product with a 128 × 128 matrix. -/
def lin (x : SB.Idx → EReal) (W : SW.Idx → EReal) : SB.Idx → EReal :=
  fun i => ∑ k : Fin 128, x (ix2 (i 0) k) * W (ix2 k (i 1))

/-- The network with variances by squared deviations. -/
def netD (x : SB.Idx → EReal) (W1 : SW.Idx → EReal) (g1 b1 : Fin 128 → EReal) (W2 : SW.Idx → EReal) (g2 b2 : Fin 128 → EReal) :
    SB.Idx → EReal :=
  norm (varD (lin (norm (varD (lin x W1)) (lin x W1) g1 b1) W2)) (lin (norm (varD (lin x W1)) (lin x W1) g1 b1) W2) g2 b2

/-- The network with variances by squares. -/
def netS (x : SB.Idx → EReal) (W1 : SW.Idx → EReal) (g1 b1 : Fin 128 → EReal) (W2 : SW.Idx → EReal) (g2 b2 : Fin 128 → EReal) :
    SB.Idx → EReal :=
  norm (varS (lin (norm (varS (lin x W1)) (lin x W1) g1 b1) W2)) (lin (norm (varS (lin x W1)) (lin x W1) g1 b1) W2) g2 b2

theorem lin_real {x : SB.Idx → EReal} {W : SW.Idx → EReal} (hx : ∀ i, IsReal (x i)) (hW : ∀ i, IsReal (W i)) (i : SB.Idx) :
    IsReal (lin x W i) :=
  IsReal.sum _ _ fun k _ => (hx _).mul (hW _)

/-- For a matrix of reals the two variances of a column agree, and are a real ≥ 0. -/
theorem var_agree {h : SB.Idx → EReal} (hh : ∀ i, IsReal (h i)) (c : Fin 128) :
    varS h c = varD h c ∧ ∃ v : ℝ, 0 ≤ v ∧ varD h c = (v : EReal) := by
  obtain ⟨e, v, hv, hv'⟩ := var_eq (fun r => h (ix2 r c)) (fun r => hh _)
  exact ⟨e.symm, v, hv, hv'⟩

theorem varS_eq_varD {h : SB.Idx → EReal} (hh : ∀ i, IsReal (h i)) : varS h = varD h :=
  funext fun c => (var_agree hh c).1

theorem mean_real {h : SB.Idx → EReal} (hh : ∀ i, IsReal (h i)) (c : Fin 128) : IsReal (mean h c) :=
  (IsReal.sum _ _ fun r _ => hh _).div_N

theorem norm_real {h : SB.Idx → EReal} {g b : Fin 128 → EReal} (hh : ∀ i, IsReal (h i)) (hg : ∀ c, IsReal (g c))
    (hb : ∀ c, IsReal (b c)) (i : SB.Idx) : IsReal (norm (varD h) h g b i) := by
  obtain ⟨v, hv, hv'⟩ := (var_agree hh (i 1)).2
  obtain ⟨e, he, he'⟩ := ofBits_eps
  have hr : IsReal (Ideal.rsqrt (varD h (i 1) + eps)) := by
    rw [hv', eps, he', ← EReal.coe_add]
    exact IsReal.rsqrt_pos (by linarith)
  exact ((((hh i).sub (mean_real hh _)).mul hr).mul (hg _)).add (hb _) |>.max IsReal.zero

/-- With real inputs the two forms of the network are one function. -/
theorem netS_eq_netD {x : SB.Idx → EReal} {W1 W2 : SW.Idx → EReal} {g1 b1 g2 b2 : Fin 128 → EReal}
    (hx : ∀ i, IsReal (x i)) (hW1 : ∀ i, IsReal (W1 i)) (hW2 : ∀ i, IsReal (W2 i))
    (hg1 : ∀ c, IsReal (g1 c)) (hb1 : ∀ c, IsReal (b1 c)) :
    netS x W1 g1 b1 W2 g2 b2 = netD x W1 g1 b1 W2 g2 b2 := by
  have h1 : ∀ i, IsReal (lin x W1 i) := lin_real hx hW1
  have e1 : varS (lin x W1) = varD (lin x W1) := varS_eq_varD h1
  have ha : ∀ i, IsReal (norm (varD (lin x W1)) (lin x W1) g1 b1 i) := norm_real h1 hg1 hb1
  have h2 : ∀ i, IsReal (lin (norm (varD (lin x W1)) (lin x W1) g1 b1) W2 i) := lin_real ha hW2
  unfold netS netD
  rw [e1, varS_eq_varD h2]

end Cert.Gin

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.K0v.lean ====
/-
  The first kernel of a relation, read as values on the extended reals.

  Its grid has ten points; point t takes rows 5000 t … 5000 t + 4999 of two 50000 × 128 arrays, adds them, multiplies
  the sum by a 128 × 128 matrix and writes the 5000 × 128 product block back; two 1 × 128 rows, zeroed at the first point,
  accumulate the blocks' column sums and column sums of squares and are written back after the last point.
  So after the run the product array is the whole product (first array + second array) · matrix, and the two rows hold,
  column by column, the sum and the sum of squares of that product's 50000 rows: the ten partial sums of 5000 rows,
  added in order, are the sum over all rows.
-/
import proofs.«120853_j16423954940358_2_alg».proof.Proof.Gen.KernelIdeal.Frame
import proofs.«120853_j16423954940358_2_alg».proof.Proof.K0
import proofs.«120853_j16423954940358_2_alg».proof.Proof.Algebra
import proofs.«120853_j16423954940358_2_alg».proof.Proof.Spec
import proofs.«120853_j16423954940358_2_alg».proof.Proof.LibPlainDot
import Idealize.ShloMosaic.Lib.ValueIdx
import Idealize.ShloMosaic.Lib.ValueLayout
import Idealize.ShloMosaic.PureOps.Ideal.Laws
import Idealize.ShloMosaic.Lib.Pipeline.Value
import Idealize.ShloMosaic.Lib.StableHlo.Run
import Idealize.ShloMosaic.Lib.Tactic
set_option maxRecDepth 16384
noncomputable section
namespace Cert.KernelIdeal.Stats0
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx
open scoped BigOperators
variable {F : FTy → Type} [FloatOps F]

section AnyFloat
variable (V : (c : Dev nD) → (b : Ref sig .tc) → Buf (Elt F) ((c : Thread nD τ).loc b))

/-- The two running rows after point n: the column sums and the column sums of squares of the product blocks
    of points 0 … n, added in that order onto the zero row. -/
def chain (c : Dev nD) : (n : ℕ) → n < cfg0.N → Vec F S1x128 .f32 × Vec F S1x128 .f32
  | 0, h => (k0_pay4 (iblk0 V c 0 ⟨0, h⟩) (iblk0 V c 1 ⟨0, h⟩) (iblk0 V c 2 ⟨0, h⟩) (k0_pay1 (F := F)), k0_pay5 (iblk0 V c 0 ⟨0, h⟩) (iblk0 V c 1 ⟨0, h⟩) (iblk0 V c 2 ⟨0, h⟩) (k0_pay2 (F := F)))
  | n + 1, h => (k0_pay4 (iblk0 V c 0 ⟨n + 1, h⟩) (iblk0 V c 1 ⟨n + 1, h⟩) (iblk0 V c 2 ⟨n + 1, h⟩) (chain c n (Nat.lt_of_succ_lt h)).1,
                 k0_pay5 (iblk0 V c 0 ⟨n + 1, h⟩) (iblk0 V c 1 ⟨n + 1, h⟩) (iblk0 V c 2 ⟨n + 1, h⟩) (chain c n (Nat.lt_of_succ_lt h)).2)

/-- What the three output buffers hold after point n: that point's product block and the two running rows. -/
theorem outsAt_eq (c : Dev nD) : ∀ (n : ℕ) (h : n < cfg0.N),
    outsAt0 V c n h = (k0_pay3 (iblk0 V c 0 ⟨n, h⟩) (iblk0 V c 1 ⟨n, h⟩) (iblk0 V c 2 ⟨n, h⟩), (chain V c n h).1, (chain V c n h).2)
  | 0, h => by
    rw [outsAt0_A V c ⟨0, h⟩ rfl, out_A_3, out_A_4, out_A_5]
    rfl
  | n + 1, h => by
    have hN : cfg0.N = 10 := N_0
    have hB : ¬(⟨n + 1, h⟩ : Fin cfg0.N).val % 10 = 0 := by dsimp only; omega
    rw [outsAt0_B V c ⟨n + 1, h⟩ hB, out_B_3, out_B_4, out_B_5]
    show (_, k0_pay4 _ _ _ (outsAt0 V c n _).2.1, k0_pay5 _ _ _ (outsAt0 V c n _).2.2) = _
    rw [outsAt_eq c n]
    rfl

end AnyFloat

/-! ## The body's arithmetic at an index, on the extended reals -/

/-- The product block at (r, c): the sum over k of (x0 + x1)(r, k) · x2(k, c). -/
theorem pay3_apply (x0 x1 : FVec Ideal S5000x128 .f32) (x2 : FVec Ideal S128x128 .f32) (r : Fin 5000) (cc : Fin 128) :
    k0_pay3 (F := Ideal) x0 x1 x2 (ix2 r cc) = ∑ k : Fin 128, (x0 (ix2 r k) + x1 (ix2 r k)) * x2 (ix2 k cc) := by
  unfold k0_pay3
  refine (congrFun (Cert.Lib.PlainDot.matmul_truncf_zero_eq_dotGeneral _ none _ _ _ _) (ix2 r cc)).trans ?_
  refine (Cert.Lib.PlainDot.dotGeneral_apply_ix2 dot_S5000x128_S128x128_S5000x128_1_0_0_1_n_n rfl rfl (fun _ _ => rfl) (fun _ _ => rfl) (fun _ _ => rfl) (fun _ _ => rfl) none _ _ r cc).trans ?_
  refine Finset.sum_congr rfl fun k _ => ?_
  exact congrArg (fun z => (x0 (ix2 r k) + z) * x2 (ix2 k cc)) (congrFun (shapeCast_self x1 _) (ix2 r k))

/-- A row made of a vector of 128 entries, at column c. -/
theorem row_of_vec_apply (v : FVec Ideal S128 .f32) (h : S128.ShapeCasts S1x128) (cc : Fin 128) :
    shapeCast S1x128 v h (ix2 0 cc) = v (ix1 cc) :=
  (shapeCast_addUnit_apply ![128] v h (ix2 0 cc)).trans (congrArg v (funext fun a => by match a with | ⟨0, _⟩ => rfl))

/-- The column sums of a 5000 × 128 block, at column c. -/
theorem colsum_apply (p : FVec Ideal S5000x128 .f32) (hr : S5000x128.Reduces [0] S128) (hφ : FKind.Formats FTy.f32)
    (hacc : (0x00000000#32 : BitVec 32) = FKind.add.neutral .f32 hφ) (cc : Fin 128) :
    multiReduction .add [0] S128 p 0x00000000#32 hr hφ hacc (ix1 cc) = ∑ r : Fin 5000, p (ix2 r cc) := by
  refine (Ideal.multiReduction_add_single p 0x00000000#32 hr hφ hacc (ix1 cc)).trans ?_
  refine Finset.sum_congr rfl fun r _ => congrArg p ?_
  funext a
  match a with
  | ⟨0, _⟩ => rfl
  | ⟨1, _⟩ => rfl

/-- The running column sums: what was there plus this block's column sums. -/
theorem pay4_apply (x0 x1 : FVec Ideal S5000x128 .f32) (x2 : FVec Ideal S128x128 .f32) (acc : FVec Ideal S1x128 .f32) (cc : Fin 128) :
    k0_pay4 (F := Ideal) x0 x1 x2 acc (ix2 0 cc) = acc (ix2 0 cc) + ∑ r : Fin 5000, k0_pay3 (F := Ideal) x0 x1 x2 (ix2 r cc) := by
  unfold k0_pay4
  refine (addf_apply _ _ _).trans ?_
  refine congrArg₂ (· + ·) (congrFun (shapeCast_self acc _) _) ?_
  refine (row_of_vec_apply _ _ cc).trans ?_
  exact colsum_apply _ _ _ _ cc

/-- The running column sums of squares. -/
theorem pay5_apply (x0 x1 : FVec Ideal S5000x128 .f32) (x2 : FVec Ideal S128x128 .f32) (acc : FVec Ideal S1x128 .f32) (cc : Fin 128) :
    k0_pay5 (F := Ideal) x0 x1 x2 acc (ix2 0 cc)
      = acc (ix2 0 cc) + ∑ r : Fin 5000, k0_pay3 (F := Ideal) x0 x1 x2 (ix2 r cc) * k0_pay3 (F := Ideal) x0 x1 x2 (ix2 r cc) := by
  unfold k0_pay5
  refine (addf_apply _ _ _).trans ?_
  refine congrArg₂ (· + ·) (congrFun (shapeCast_self acc _) _) ?_
  refine (row_of_vec_apply _ _ cc).trans ?_
  exact colsum_apply _ _ _ _ cc

/-- The zero row. -/
theorem pay1_apply (j : S1x128.Idx) : k0_pay1 (F := Ideal) j = 0 := Cert.Gin.ofBits_zero
theorem pay2_apply (j : S1x128.Idx) : k0_pay2 (F := Ideal) j = 0 := Cert.Gin.ofBits_zero

/-! ## The region's three output arrays after its run -/

section Arrays
variable (V : (c : Dev nD) → (b : Ref sig .tc) → Buf (Elt Ideal) ((c : Thread nD τ).loc b))

/-- The block indices of the six windows at each point: the row-blocked ones move with the point, the others stay. -/
theorem idx_facts : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = 0 ∧ win0_2.index t (1 : Fin 2) = 0 ∧
    win0_3.index t (0 : Fin 2) = t.val ∧ win0_3.index t (1 : Fin 2) = 0 ∧
    win0_4.index t (0 : Fin 2) = 0 ∧ win0_4.index t (1 : Fin 2) = 0 ∧
    win0_5.index t (0 : Fin 2) = 0 ∧ win0_5.index t (1 : Fin 2) = 0 :=
  (by decide +kernel : ∀ t : Fin grid0.N, _)

abbrev A0 (c : Dev nD) : S50000x128.Idx → EReal := V c main_arg1
abbrev A1 (c : Dev nD) : S50000x128.Idx → EReal := V c main_v9
abbrev A2 (c : Dev nD) : S128x128.Idx → EReal := V c main_arg6

/-- Row r of the first input's block at point t is row 5000 t + r of its array. -/
theorem iblk_0_apply (c : Dev nD) (t : Fin cfg0.N) (r : Fin 5000) (k : Fin 128) (R : Fin 50000) (hR : R.val = 5000 * t.val + r.val) :
    (iblk0 V c 0 t : Vec Ideal S5000x128 .f32) (ix2 r k) = A0 V c (ix2 R k) := by
  unfold iblk0
  rw [View.read_apply]
  show V c main_arg1 _ = V c main_arg1 _
  congr 1
  funext a
  apply Fin.ext
  match a with
  | ⟨0, _⟩ => show win0_0.index t 0 * 5000 + 1 * r.val = R.val; rw [(idx_facts t).1, hR]; omega
  | ⟨1, _⟩ => show win0_0.index t 1 * 128 + 1 * k.val = k.val; rw [(idx_facts t).2.1]; omega

theorem iblk_1_apply (c : Dev nD) (t : Fin cfg0.N) (r : Fin 5000) (k : Fin 128) (R : Fin 50000) (hR : R.val = 5000 * t.val + r.val) :
    (iblk0 V c 1 t : Vec Ideal S5000x128 .f32) (ix2 r k) = A1 V c (ix2 R k) := by
  unfold iblk0
  rw [View.read_apply]
  show V c main_v9 _ = V c main_v9 _
  congr 1
  funext a
  apply Fin.ext
  match a with
  | ⟨0, _⟩ => show win0_1.index t 0 * 5000 + 1 * r.val = R.val; rw [(idx_facts t).2.2.1, hR]; omega
  | ⟨1, _⟩ => show win0_1.index t 1 * 128 + 1 * k.val = k.val; rw [(idx_facts t).2.2.2.1]; omega

theorem iblk_2_apply (c : Dev nD) (t : Fin cfg0.N) (k : Fin 128) (cc : Fin 128) :
    (iblk0 V c 2 t : Vec Ideal S128x128 .f32) (ix2 k cc) = A2 V c (ix2 k cc) := by
  unfold iblk0
  rw [View.read_apply]
  show V c main_arg6 _ = V c main_arg6 _
  congr 1
  funext a
  apply Fin.ext
  match a with
  | ⟨0, _⟩ => show win0_2.index t 0 * 128 + 1 * k.val = k.val; rw [(idx_facts t).2.2.2.2.1]; omega
  | ⟨1, _⟩ => show win0_2.index t 1 * 128 + 1 * cc.val = cc.val; rw [(idx_facts t).2.2.2.2.2.1]; omega

/-- The whole product: (first array + second array) times the third. -/
def prodAll (c : Dev nD) : S50000x128.Idx → EReal :=
  Cert.Gin.lin (fun i => A0 V c i + A1 V c i) (A2 V c)

/-- The product block of point t at (r, c) is the whole product at (5000 t + r, c). -/
theorem prod_apply (c : Dev nD) (t : Fin cfg0.N) (r : Fin 5000) (cc : Fin 128) (R : Fin 50000) (hR : R.val = 5000 * t.val + r.val) :
    k0_pay3 (F := Ideal) (iblk0 V c 0 t) (iblk0 V c 1 t) (iblk0 V c 2 t) (ix2 r cc) = prodAll V c (ix2 R cc) := by
  refine (pay3_apply _ _ _ r cc).trans ?_
  show _ = ∑ k : Fin 128, (A0 V c (ix2 R k) + A1 V c (ix2 R k)) * A2 V c (ix2 k cc)
  refine Finset.sum_congr rfl fun k _ => ?_
  rw [iblk_0_apply V c t r k R hR, iblk_1_apply V c t r k R hR, iblk_2_apply V c t k cc]

end Arrays

section Finals
variable (V : (c : Dev nD) → (b : Ref sig .tc) → Buf (Elt Ideal) ((c : Thread nD τ).loc b))

/-- What point t writes back of the product is block t of the whole product. -/
theorem flushed3_eq (c : Dev nD) (t : Fin cfg0.N) :
    (dat0 V c).flushed 3 t = ((cfg0.win 3).blk t).view.read (Elt Ideal) (prodAll V c) := by
  show (cfg0.win 3).cut (grid0.coords t) ((dat0 V c).after 3 t) = _
  rw [after0_3, outsAt_eq]
  funext j
  obtain ⟨r, cc, rfl⟩ : ∃ (r : Fin 5000) (cc : Fin 128), j = ix2 r cc := ⟨j 0, j 1, eq_ix2 j⟩
  have hN : t.val < 10 := lt_of_lt_of_eq t.isLt (show cfg0.N = 10 from N_0)
  have hR : 5000 * t.val + r.val < 50000 := by have := r.isLt; omega
  show k0_pay3 (F := Ideal) (iblk0 V c 0 t) (iblk0 V c 1 t) (iblk0 V c 2 t) (ix2 r cc) = prodAll V c (((cfg0.win 3).blk t).view.emb (ix2 r cc))
  rw [prod_apply V c t r cc ⟨5000 * t.val + r.val, hR⟩ rfl]
  congr 1
  funext a
  apply Fin.ext
  match a with
  | ⟨0, _⟩ => show 5000 * t.val + r.val = win0_3.index t 0 * 5000 + 1 * r.val; rw [(idx_facts t).2.2.2.2.2.2.1]; omega
  | ⟨1, _⟩ => show cc.val = win0_3.index t 1 * 128 + 1 * cc.val; rw [(idx_facts t).2.2.2.2.2.2.2.1]; omega

/-- An index is in point t's block of the product array iff each coordinate is in the block's range. -/
theorem mem_blk3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v10_0).slice (win0_3.rect t)).set ↔ _
  rw [View.set_slice_whole, Rect.mem_set_unit]
  exact Iff.rfl

/-- The product array after the run is the whole product: row R is written by point R / 5000. -/
theorem final3 (c : Dev nD) : (dat0 V c).arrAt 3 cfg0.N = prodAll V c :=
  (dat0 V c).arrAt_eq_of_cover 3 (prodAll V c) (fun t _ => flushed3_eq V c t) fun i => by
    have hi0 : (i 0).val < 50000 := (i 0).isLt
    have hi1 : (i 1).val < 128 := (i 1).isLt
    have hN : cfg0.N = 10 := N_0
    refine ⟨⟨(i 0).val / 5000, by rw [hN]; omega⟩, flush0_3 _, ?_⟩
    rw [mem_blk3]
    intro a
    match a with
    | ⟨0, _⟩ =>
      show win0_3.index _ 0 * 5000 ≤ (i 0).val ∧ (i 0).val < win0_3.index _ 0 * 5000 + 5000
      rw [(idx_facts _).2.2.2.2.2.2.1]; dsimp only; omega
    | ⟨1, _⟩ =>
      show win0_3.index _ 1 * 128 ≤ (i 1).val ∧ (i 1).val < win0_3.index _ 1 * 128 + 128
      rw [(idx_facts _).2.2.2.2.2.2.2.1]; omega

/-- Column c of the whole product as a sequence, 0 past its 50000 rows. -/
def colAt (c : Dev nD) (cc : Fin 128) (n : ℕ) : EReal := if h : n < 50000 then prodAll V c (ix2 ⟨n, h⟩ cc) else 0

/-- The column sum of point t's product block is the sum of rows 5000 t … 5000 t + 4999 of the column. -/
theorem block_sum (c : Dev nD) (t : Fin cfg0.N) (cc : Fin 128) (f : EReal → EReal) :
    ∑ r : Fin 5000, f (k0_pay3 (F := Ideal) (iblk0 V c 0 t) (iblk0 V c 1 t) (iblk0 V c 2 t) (ix2 r cc)) = ∑ r ∈ Finset.range 5000, f (colAt V c cc (5000 * t.val + r)) := by
  rw [← Fin.sum_univ_eq_sum_range (fun r => f (colAt V c cc (5000 * t.val + r))) 5000]
  refine Finset.sum_congr rfl fun r _ => ?_
  have hN : t.val < 10 := lt_of_lt_of_eq t.isLt (show cfg0.N = 10 from N_0)
  have hR : 5000 * t.val + r.val < 50000 := by have := r.isLt; omega
  rw [prod_apply V c t r cc ⟨5000 * t.val + r.val, hR⟩ rfl]
  unfold colAt
  rw [dif_pos hR]

/-- The running column sums after point n: the sum of the column's first 5000 (n + 1) rows. -/
theorem chain1_apply (c : Dev nD) (cc : Fin 128) : ∀ (n : ℕ) (h : n < cfg0.N),
    (chain V c n h).1 (ix2 0 cc) = ∑ R ∈ Finset.range (5000 * (n + 1)), colAt V c cc R
  | 0, h => by
    show k0_pay4 (F := Ideal) (iblk0 V c 0 ⟨0, h⟩) (iblk0 V c 1 ⟨0, h⟩) (iblk0 V c 2 ⟨0, h⟩) (k0_pay1 (F := Ideal)) (ix2 0 cc) = _
    rw [pay4_apply, pay1_apply, zero_add, block_sum V c ⟨0, h⟩ cc (fun z => z)]
    simp
  | n + 1, h => by
    show k0_pay4 (F := Ideal) (iblk0 V c 0 ⟨n + 1, h⟩) (iblk0 V c 1 ⟨n + 1, h⟩) (iblk0 V c 2 ⟨n + 1, h⟩) (chain V c n _).1 (ix2 0 cc) = _
    rw [pay4_apply, chain1_apply c cc n, block_sum V c ⟨n + 1, h⟩ cc (fun z => z),
      show 5000 * (n + 1 + 1) = 5000 * (n + 1) + 5000 by ring, Finset.sum_range_add]

/-- The running column sums of squares after point n. -/
theorem chain2_apply (c : Dev nD) (cc : Fin 128) : ∀ (n : ℕ) (h : n < cfg0.N),
    (chain V c n h).2 (ix2 0 cc) = ∑ R ∈ Finset.range (5000 * (n + 1)), colAt V c cc R * colAt V c cc R
  | 0, h => by
    show k0_pay5 (F := Ideal) (iblk0 V c 0 ⟨0, h⟩) (iblk0 V c 1 ⟨0, h⟩) (iblk0 V c 2 ⟨0, h⟩) (k0_pay2 (F := Ideal)) (ix2 0 cc) = _
    rw [pay5_apply, pay2_apply, zero_add, block_sum V c ⟨0, h⟩ cc (fun z => z * z)]
    simp
  | n + 1, h => by
    show k0_pay5 (F := Ideal) (iblk0 V c 0 ⟨n + 1, h⟩) (iblk0 V c 1 ⟨n + 1, h⟩) (iblk0 V c 2 ⟨n + 1, h⟩) (chain V c n _).2 (ix2 0 cc) = _
    rw [pay5_apply, chain2_apply c cc n, block_sum V c ⟨n + 1, h⟩ cc (fun z => z * z),
      show 5000 * (n + 1 + 1) = 5000 * (n + 1) + 5000 by ring, Finset.sum_range_add]

/-- The sum of a column's first 50000 terms is the sum over its rows. -/
theorem colAt_sum (c : Dev nD) (cc : Fin 128) (f : EReal → EReal) :
    ∑ R ∈ Finset.range 50000, f (colAt V c cc R) = ∑ R : Fin 50000, f (prodAll V c (ix2 R cc)) := by
  rw [← Fin.sum_univ_eq_sum_range (fun R => f (colAt V c cc R)) 50000]
  refine Finset.sum_congr rfl fun R _ => ?_
  unfold colAt
  rw [dif_pos R.isLt]

theorem nine_lt : 9 < cfg0.N := by rw [show cfg0.N = 10 from N_0]; decide

/-- The two statistics rows after the last point. -/
abbrev res4 (c : Dev nD) : Buf (Elt Ideal) ((c : Thread nD τ).loc main_v10_1) := (chain V c 9 nine_lt).1
abbrev res5 (c : Dev nD) : Buf (Elt Ideal) ((c : Thread nD τ).loc main_v10_2) := (chain V c 9 nine_lt).2

theorem flushed4_eq (c : Dev nD) (t : Fin cfg0.N) (hf : (cfg0.win 4).flush t = true) :
    (dat0 V c).flushed 4 t = ((cfg0.win 4).blk t).view.read (Elt Ideal) (res4 V c) := by
  have hN : cfg0.N = 10 := N_0
  have h9 : t.val = 9 := by have := (flush0_4 t).mp hf; have := t.isLt; omega
  obtain rfl : t = t0_9 := Fin.ext h9
  show (cfg0.win 4).cut (grid0.coords t0_9) ((dat0 V c).after 4 t0_9) = _
  rw [after0_4, outsAt_eq]
  have hz' : (fun a => win0_4.index t0_9 a * main_v10_1.ty.shape.size a) = fun _ => 0 := funext fun a => by fin_cases a <;> decide
  exact (Memref.read_access_unit_zero (Elt Ideal) main_v10_1 hz' (fun a => by rw [congrFun hz' a]; simp) (res4 V c)).symm

theorem flushed5_eq (c : Dev nD) (t : Fin cfg0.N) (hf : (cfg0.win 5).flush t = true) :
    (dat0 V c).flushed 5 t = ((cfg0.win 5).blk t).view.read (Elt Ideal) (res5 V c) := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5, outsAt_eq]
  have hz' : (fun a => win0_5.index t0_9 a * main_v10_2.ty.shape.size a) = fun _ => 0 := funext fun a => by fin_cases a <;> decide
  exact (Memref.read_access_unit_zero (Elt Ideal) main_v10_2 hz' (fun a => by rw [congrFun hz' a]; simp) (res5 V c)).symm

theorem final4 (c : Dev nD) : (dat0 V c).arrAt 4 cfg0.N = res4 V c :=
  (dat0 V c).arrAt_eq_of_cover 4 (res4 V c) (flushed4_eq V c) fun i =>
    ⟨t0_9, (flush0_4 t0_9).mpr rfl, by
      show i ∈ ((View.whole main_v10_1).slice (win0_4.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_4.index t0_9 0 * win0_4.size 0 ≤ (i 0 : Nat) ∧ (i 0 : Nat) < win0_4.index t0_9 0 * win0_4.size 0 + win0_4.xsize (grid0.coords t0_9) 0
                  rw [show win0_4.index t0_9 0 * win0_4.size 0 = 0 from by decide +kernel, show win0_4.xsize (grid0.coords t0_9) 0 = 1 from by decide +kernel]; omega
      | ⟨1, _⟩ => show win0_4.index t0_9 1 * win0_4.size 1 ≤ (i 1 : Nat) ∧ (i 1 : Nat) < win0_4.index t0_9 1 * win0_4.size 1 + win0_4.xsize (grid0.coords t0_9) 1
                  rw [show win0_4.index t0_9 1 * win0_4.size 1 = 0 from by decide +kernel, show win0_4.xsize (grid0.coords t0_9) 1 = 128 from by decide +kernel]; omega⟩

theorem final5 (c : Dev nD) : (dat0 V c).arrAt 5 cfg0.N = res5 V c :=
  (dat0 V c).arrAt_eq_of_cover 5 (res5 V c) (flushed5_eq V c) fun i =>
    ⟨t0_9, (flush0_5 t0_9).mpr rfl, by
      show i ∈ ((View.whole main_v10_2).slice (win0_5.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_5.index t0_9 0 * win0_5.size 0 ≤ (i 0 : Nat) ∧ (i 0 : Nat) < win0_5.index t0_9 0 * win0_5.size 0 + win0_5.xsize (grid0.coords t0_9) 0
                  rw [show win0_5.index t0_9 0 * win0_5.size 0 = 0 from by decide +kernel, show win0_5.xsize (grid0.coords t0_9) 0 = 1 from by decide +kernel]; omega
      | ⟨1, _⟩ => show win0_5.index t0_9 1 * win0_5.size 1 ≤ (i 1 : Nat) ∧ (i 1 : Nat) < win0_5.index t0_9 1 * win0_5.size 1 + win0_5.xsize (grid0.coords t0_9) 1
                  rw [show win0_5.index t0_9 1 * win0_5.size 1 = 0 from by decide +kernel, show win0_5.xsize (grid0.coords t0_9) 1 = 128 from by decide +kernel]; omega⟩

/-- The column-sums row after the run, at column c: the sum of the whole product's column c. -/
theorem final4_apply (c : Dev nD) (cc : Fin 128) :
    ((dat0 V c).arrAt 4 cfg0.N : S1x128.Idx → EReal) (ix2 0 cc) = ∑ R : Fin 50000, prodAll V c (ix2 R cc) := by
  rw [final4]
  exact (chain1_apply V c cc 9 nine_lt).trans (colAt_sum V c cc id)

/-- The column-sums-of-squares row after the run. -/
theorem final5_apply (c : Dev nD) (cc : Fin 128) :
    ((dat0 V c).arrAt 5 cfg0.N : S1x128.Idx → EReal) (ix2 0 cc) = ∑ R : Fin 50000, prodAll V c (ix2 R cc) * prodAll V c (ix2 R cc) := by
  rw [final5]
  exact (chain2_apply V c cc 9 nine_lt).trans (colAt_sum V c cc (fun z => z * z))

end Finals

end Cert.KernelIdeal.Stats0
end
-- ==== Proof.K1v.lean ====
/-
  The second kernel of a relation, read as values on the extended reals.

  Point t of its ten takes rows 5000 t … 5000 t + 4999 of the first product, normalises every entry with its column's
  mean and variance (two 1 × 128 rows), scales and shifts it by two more rows, cuts it below at zero, multiplies the block
  by a 128 × 128 matrix and writes the product block back; two 1 × 128 rows, zeroed at the first point, accumulate the
  blocks' column sums and column sums of squares and are written back after the last point.  After the run the product
  array is the whole activated matrix times the weights, and the two rows hold the sums and sums of squares of that
  product's columns.
-/
import proofs.«120853_j16423954940358_2_alg».proof.Proof.Gen.KernelIdeal.Frame
import proofs.«120853_j16423954940358_2_alg».proof.Proof.K1
import proofs.«120853_j16423954940358_2_alg».proof.Proof.K0v
import proofs.«120853_j16423954940358_2_alg».proof.Proof.Algebra
import proofs.«120853_j16423954940358_2_alg».proof.Proof.Spec
import proofs.«120853_j16423954940358_2_alg».proof.Proof.LibPlainDot
import Idealize.ShloMosaic.Lib.ValueIdx
import Idealize.ShloMosaic.Lib.ValueLayout
import Idealize.ShloMosaic.PureOps.Ideal.Laws
import Idealize.ShloMosaic.Lib.Pipeline.Value
import Idealize.ShloMosaic.Lib.StableHlo.Run
import Idealize.ShloMosaic.Lib.Tactic
set_option maxRecDepth 16384
noncomputable section
namespace Cert.KernelIdeal.Stats1
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx
open scoped BigOperators
variable {F : FTy → Type} [FloatOps F]

section AnyFloat
variable (V : (c : Dev nD) → (b : Ref sig .tc) → Buf (Elt F) ((c : Thread nD τ).loc b))

/-- The two running rows after point n: column sums and column sums of squares of the product blocks of points 0 … n. -/
def chain (c : Dev nD) : (n : ℕ) → n < cfg1.N → Vec F S1x128 .f32 × Vec F S1x128 .f32
  | 0, h => (k1_pay1 (k1_pay6 (k1_pay3 (F := F))) (k1_pay7 (iblk1 V c 0 ⟨0, h⟩) (iblk1 V c 4 ⟨0, h⟩) (iblk1 V c 5 ⟨0, h⟩) (iblk1 V c 2 ⟨0, h⟩) (iblk1 V c 3 ⟨0, h⟩) (iblk1 V c 1 ⟨0, h⟩)), k1_pay2 (k1_pay5 (iblk1 V c 0 ⟨0, h⟩) (iblk1 V c 4 ⟨0, h⟩) (iblk1 V c 5 ⟨0, h⟩) (iblk1 V c 2 ⟨0, h⟩) (iblk1 V c 3 ⟨0, h⟩) (iblk1 V c 1 ⟨0, h⟩)) (k1_pay4 (F := F)))
  | n + 1, h => (k1_pay1 (k1_pay6 (chain c n (Nat.lt_of_succ_lt h)).1) (k1_pay7 (iblk1 V c 0 ⟨n + 1, h⟩) (iblk1 V c 4 ⟨n + 1, h⟩) (iblk1 V c 5 ⟨n + 1, h⟩) (iblk1 V c 2 ⟨n + 1, h⟩) (iblk1 V c 3 ⟨n + 1, h⟩) (iblk1 V c 1 ⟨n + 1, h⟩)),
                 k1_pay2 (k1_pay5 (iblk1 V c 0 ⟨n + 1, h⟩) (iblk1 V c 4 ⟨n + 1, h⟩) (iblk1 V c 5 ⟨n + 1, h⟩) (iblk1 V c 2 ⟨n + 1, h⟩) (iblk1 V c 3 ⟨n + 1, h⟩) (iblk1 V c 1 ⟨n + 1, h⟩)) (chain c n (Nat.lt_of_succ_lt h)).2)

/-- What the three output buffers hold after point n. -/
theorem outsAt_eq (c : Dev nD) : ∀ (n : ℕ) (h : n < cfg1.N),
    outsAt1 V c n h = (k1_pay5 (iblk1 V c 0 ⟨n, h⟩) (iblk1 V c 4 ⟨n, h⟩) (iblk1 V c 5 ⟨n, h⟩) (iblk1 V c 2 ⟨n, h⟩) (iblk1 V c 3 ⟨n, h⟩) (iblk1 V c 1 ⟨n, h⟩), (chain V c n h).1, (chain V c n h).2)
  | 0, h => by
    rw [outsAt1_A V c ⟨0, h⟩ rfl, out_A_6, out_A_7, out_A_8]
    rfl
  | n + 1, h => by
    have hN : cfg1.N = 10 := N_1
    have hB : ¬(⟨n + 1, h⟩ : Fin cfg1.N).val % 10 = 0 := by dsimp only; omega
    rw [outsAt1_B V c ⟨n + 1, h⟩ hB, out_B_6, out_B_7, out_B_8]
    show (_, k1_pay1 (k1_pay6 (outsAt1 V c n _).2.1) _, k1_pay2 _ (outsAt1 V c n _).2.2) = _
    rw [outsAt_eq c n]
    rfl

end AnyFloat

/-! ## The body's arithmetic at an index, on the extended reals -/

/-- A 1 × 128 row repeated along the 5000 rows of a block, at (r, k). -/
theorem bcastRow_apply (v : FVec Ideal S1x128 .f32) (hb : S1x128.Broadcasts S5000x128) (r : Fin 5000) (k : Fin 128) :
    broadcastTo S5000x128 v hb (ix2 r k) = v (ix2 0 k) :=
  broadcastTo_apply v hb (ix2 r k) (ix2 0 k) (fun a => by
    match a with
    | ⟨0, _⟩ => exact (if_pos rfl).symm
    | ⟨1, _⟩ => show k.val = if (128 : ℕ) = 1 then 0 else k.val; simp)

/-- An entry normalised with its column's mean m and variance v, scaled by g, shifted by b, cut below at 0. -/
def actAt (x m v g b : EReal) : EReal := max ((x - m) * Ideal.rsqrt (v + Ideal.ofBits .f32 0x3727C5AC#32) * g + b) 0

/-- The product block at (r, c): the sum over k of the activated entry (r, k) times w(k, c). -/
theorem pay5_apply (x : FVec Ideal S5000x128 .f32) (m v g b : FVec Ideal S1x128 .f32) (w : FVec Ideal S128x128 .f32) (r : Fin 5000) (cc : Fin 128) :
    k1_pay5 (F := Ideal) x m v g b w (ix2 r cc)
      = ∑ k : Fin 128, actAt (x (ix2 r k)) (m (ix2 0 k)) (v (ix2 0 k)) (g (ix2 0 k)) (b (ix2 0 k)) * w (ix2 k cc) := by
  unfold k1_pay5
  refine (congrFun (Cert.Lib.PlainDot.matmul_truncf_zero_eq_dotGeneral _ none _ _ _ _) (ix2 r cc)).trans ?_
  refine (Cert.Lib.PlainDot.dotGeneral_apply_ix2 dot_S5000x128_S128x128_S5000x128_1_0_0_1_n_n rfl rfl (fun _ _ => rfl) (fun _ _ => rfl) (fun _ _ => rfl) (fun _ _ => rfl) none _ _ r cc).trans ?_
  refine Finset.sum_congr rfl fun k _ => congrArg (· * w (ix2 k cc)) ?_
  unfold actAt
  simp only [maximumf_apply, addf_apply, mulf_apply, subf_apply, bcastRow_apply, shapeCast_self, broadcast_apply]
  rw [show FloatOps.ofBits (F := Ideal) .f32 0x00000000#32 = (0 : EReal) from Cert.Gin.ofBits_zero]
  rfl

/-- The running column sums: what was there plus this block's column sums. -/
theorem pay1_apply (p : FVec Ideal S5000x128 .f32) (acc : FVec Ideal S1x128 .f32) (cc : Fin 128)
    (x : FVec Ideal S5000x128 .f32) (m v g b : FVec Ideal S1x128 .f32) (w : FVec Ideal S128x128 .f32) :
    k1_pay1 (F := Ideal) (k1_pay6 acc) (k1_pay7 x m v g b w) (ix2 0 cc)
      = acc (ix2 0 cc) + ∑ r : Fin 5000, k1_pay5 (F := Ideal) x m v g b w (ix2 r cc) := by
  unfold k1_pay1 k1_pay6 k1_pay7
  refine (addf_apply _ _ _).trans ?_
  refine congrArg₂ (· + ·) (congrFun (shapeCast_self acc _) _) ?_
  refine (Cert.KernelIdeal.Stats0.row_of_vec_apply _ _ cc).trans ?_
  exact Cert.KernelIdeal.Stats0.colsum_apply _ _ _ _ cc

/-- The running column sums of squares. -/
theorem pay2_apply (p : FVec Ideal S5000x128 .f32) (acc : FVec Ideal S1x128 .f32) (cc : Fin 128) :
    k1_pay2 (F := Ideal) p acc (ix2 0 cc) = acc (ix2 0 cc) + ∑ r : Fin 5000, p (ix2 r cc) * p (ix2 r cc) := by
  unfold k1_pay2
  refine (addf_apply _ _ _).trans ?_
  refine congrArg₂ (· + ·) (congrFun (shapeCast_self acc _) _) ?_
  refine (Cert.KernelIdeal.Stats0.row_of_vec_apply _ _ cc).trans ?_
  exact Cert.KernelIdeal.Stats0.colsum_apply _ _ _ _ cc

theorem pay3_apply (j : S1x128.Idx) : k1_pay3 (F := Ideal) j = 0 := Cert.Gin.ofBits_zero
theorem pay4_apply (j : S1x128.Idx) : k1_pay4 (F := Ideal) j = 0 := Cert.Gin.ofBits_zero

/-! ## The region's three output arrays after its run -/

section Arrays
variable (V : (c : Dev nD) → (b : Ref sig .tc) → Buf (Elt Ideal) ((c : Thread nD τ).loc b))

/-- The block indices of the nine windows at each point: the two row-blocked ones move with the point, the others stay. -/
theorem idx_facts : ∀ t : Fin cfg1.N,
    win1_0.index t (0 : Fin 2) = t.val ∧
    win1_0.index t (1 : Fin 2) = 0 ∧
    win1_1.index t (0 : Fin 2) = 0 ∧
    win1_1.index t (1 : Fin 2) = 0 ∧
    win1_2.index t (0 : Fin 2) = 0 ∧
    win1_2.index t (1 : Fin 2) = 0 ∧
    win1_3.index t (0 : Fin 2) = 0 ∧
    win1_3.index t (1 : Fin 2) = 0 ∧
    win1_4.index t (0 : Fin 2) = 0 ∧
    win1_4.index t (1 : Fin 2) = 0 ∧
    win1_5.index t (0 : Fin 2) = 0 ∧
    win1_5.index t (1 : Fin 2) = 0 ∧
    win1_6.index t (0 : Fin 2) = t.val ∧
    win1_6.index t (1 : Fin 2) = 0 ∧
    win1_7.index t (0 : Fin 2) = 0 ∧
    win1_7.index t (1 : Fin 2) = 0 ∧
    win1_8.index t (0 : Fin 2) = 0 ∧
    win1_8.index t (1 : Fin 2) = 0 :=
  (by decide +kernel : ∀ t : Fin grid1.N, _)

theorem iblk_0_apply (c : Dev nD) (t : Fin cfg1.N) (r : Fin 5000) (k : Fin 128) (R : Fin 50000) (hR : R.val = 5000 * t.val + r.val) :
    (iblk1 V c 0 t : Vec Ideal S5000x128 .f32) (ix2 r k) = (V c main_v10_0 : S50000x128.Idx → EReal) (ix2 R k) := by
  unfold iblk1
  rw [View.read_apply]
  show V c main_v10_0 _ = V c main_v10_0 _
  congr 1
  funext a
  apply Fin.ext
  match a with
  | ⟨0, _⟩ => show win1_0.index t 0 * 5000 + 1 * r.val = R.val; rw [(idx_facts t).1, hR]; omega
  | ⟨1, _⟩ => show win1_0.index t 1 * 128 + 1 * k.val = k.val; rw [(idx_facts t).2.1]; omega

theorem iblk_1_apply (c : Dev nD) (t : Fin cfg1.N) (r : Fin 128) (k : Fin 128) :
    (iblk1 V c 1 t : Vec Ideal S128x128 .f32) (ix2 r k) = (V c main_arg7 : S128x128.Idx → EReal) (ix2 r k) := by
  unfold iblk1
  rw [View.read_apply]
  show V c main_arg7 _ = V c main_arg7 _
  congr 1
  funext a
  apply Fin.ext
  match a with
  | ⟨0, _⟩ => show win1_1.index t 0 * 128 + 1 * r.val = r.val; rw [(idx_facts t).2.2.1]; omega
  | ⟨1, _⟩ => show win1_1.index t 1 * 128 + 1 * k.val = k.val; rw [(idx_facts t).2.2.2.1]; omega

theorem iblk_2_apply (c : Dev nD) (t : Fin cfg1.N) (r : Fin 1) (k : Fin 128) :
    (iblk1 V c 2 t : Vec Ideal S1x128 .f32) (ix2 r k) = (V c main_v17 : S1x128.Idx → EReal) (ix2 r k) := by
  unfold iblk1
  rw [View.read_apply]
  show V c main_v17 _ = V c main_v17 _
  congr 1
  funext a
  apply Fin.ext
  match a with
  | ⟨0, _⟩ => show win1_2.index t 0 * 1 + 1 * r.val = r.val; rw [(idx_facts t).2.2.2.2.1]; omega
  | ⟨1, _⟩ => show win1_2.index t 1 * 128 + 1 * k.val = k.val; rw [(idx_facts t).2.2.2.2.2.1]; omega

theorem iblk_3_apply (c : Dev nD) (t : Fin cfg1.N) (r : Fin 1) (k : Fin 128) :
    (iblk1 V c 3 t : Vec Ideal S1x128 .f32) (ix2 r k) = (V c main_v18 : S1x128.Idx → EReal) (ix2 r k) := by
  unfold iblk1
  rw [View.read_apply]
  show V c main_v18 _ = V c main_v18 _
  congr 1
  funext a
  apply Fin.ext
  match a with
  | ⟨0, _⟩ => show win1_3.index t 0 * 1 + 1 * r.val = r.val; rw [(idx_facts t).2.2.2.2.2.2.1]; omega
  | ⟨1, _⟩ => show win1_3.index t 1 * 128 + 1 * k.val = k.val; rw [(idx_facts t).2.2.2.2.2.2.2.1]; omega

theorem iblk_4_apply (c : Dev nD) (t : Fin cfg1.N) (r : Fin 1) (k : Fin 128) :
    (iblk1 V c 4 t : Vec Ideal S1x128 .f32) (ix2 r k) = (V c main_v12 : S1x128.Idx → EReal) (ix2 r k) := by
  unfold iblk1
  rw [View.read_apply]
  show V c main_v12 _ = V c main_v12 _
  congr 1
  funext a
  apply Fin.ext
  match a with
  | ⟨0, _⟩ => show win1_4.index t 0 * 1 + 1 * r.val = r.val; rw [(idx_facts t).2.2.2.2.2.2.2.2.1]; omega
  | ⟨1, _⟩ => show win1_4.index t 1 * 128 + 1 * k.val = k.val; rw [(idx_facts t).2.2.2.2.2.2.2.2.2.1]; omega

theorem iblk_5_apply (c : Dev nD) (t : Fin cfg1.N) (r : Fin 1) (k : Fin 128) :
    (iblk1 V c 5 t : Vec Ideal S1x128 .f32) (ix2 r k) = (V c main_v16 : S1x128.Idx → EReal) (ix2 r k) := by
  unfold iblk1
  rw [View.read_apply]
  show V c main_v16 _ = V c main_v16 _
  congr 1
  funext a
  apply Fin.ext
  match a with
  | ⟨0, _⟩ => show win1_5.index t 0 * 1 + 1 * r.val = r.val; rw [(idx_facts t).2.2.2.2.2.2.2.2.2.2.1]; omega
  | ⟨1, _⟩ => show win1_5.index t 1 * 128 + 1 * k.val = k.val; rw [(idx_facts t).2.2.2.2.2.2.2.2.2.2.2.1]; omega

/-- The activated matrix: every entry of the first array normalised with its column's mean and variance rows,
    scaled, shifted, cut below at zero. -/
def actAll (c : Dev nD) : S50000x128.Idx → EReal := fun i =>
  actAt ((V c main_v10_0 : S50000x128.Idx → EReal) i) ((V c main_v12 : S1x128.Idx → EReal) (ix2 0 (i 1)))
    ((V c main_v16 : S1x128.Idx → EReal) (ix2 0 (i 1))) ((V c main_v17 : S1x128.Idx → EReal) (ix2 0 (i 1)))
    ((V c main_v18 : S1x128.Idx → EReal) (ix2 0 (i 1)))

/-- The whole product: the activated matrix times the weights. -/
def prodAll (c : Dev nD) : S50000x128.Idx → EReal := Cert.Gin.lin (actAll V c) (V c main_arg7 : S128x128.Idx → EReal)

/-- The product block of point t at (r, c) is the whole product at (5000 t + r, c). -/
theorem prod_apply (c : Dev nD) (t : Fin cfg1.N) (r : Fin 5000) (cc : Fin 128) (R : Fin 50000) (hR : R.val = 5000 * t.val + r.val) :
    k1_pay5 (F := Ideal) (iblk1 V c 0 t) (iblk1 V c 4 t) (iblk1 V c 5 t) (iblk1 V c 2 t) (iblk1 V c 3 t) (iblk1 V c 1 t) (ix2 r cc) = prodAll V c (ix2 R cc) := by
  refine (pay5_apply _ _ _ _ _ _ r cc).trans ?_
  show _ = ∑ k : Fin 128, actAll V c (ix2 R k) * (V c main_arg7 : S128x128.Idx → EReal) (ix2 k cc)
  refine Finset.sum_congr rfl fun k _ => ?_
  rw [iblk_0_apply V c t r k R hR, iblk_4_apply V c t 0 k, iblk_5_apply V c t 0 k, iblk_2_apply V c t 0 k, iblk_3_apply V c t 0 k,
    iblk_1_apply V c t k cc]
  rfl

end Arrays

section Finals
variable (V : (c : Dev nD) → (b : Ref sig .tc) → Buf (Elt Ideal) ((c : Thread nD τ).loc b))

/-- What point t writes back of the product is block t of the whole product. -/
theorem flushed6_eq (c : Dev nD) (t : Fin cfg1.N) :
    (dat1 V c).flushed 6 t = ((cfg1.win 6).blk t).view.read (Elt Ideal) (prodAll V c) := by
  show (cfg1.win 6).cut (grid1.coords t) ((dat1 V c).after 6 t) = _
  rw [after1_6, outsAt_eq]
  funext j
  obtain ⟨r, cc, rfl⟩ : ∃ (r : Fin 5000) (cc : Fin 128), j = ix2 r cc := ⟨j 0, j 1, eq_ix2 j⟩
  have hN : t.val < 10 := lt_of_lt_of_eq t.isLt (show cfg1.N = 10 from N_1)
  have hR : 5000 * t.val + r.val < 50000 := by have := r.isLt; omega
  show k1_pay5 (F := Ideal) (iblk1 V c 0 t) (iblk1 V c 4 t) (iblk1 V c 5 t) (iblk1 V c 2 t) (iblk1 V c 3 t) (iblk1 V c 1 t) (ix2 r cc) = prodAll V c (((cfg1.win 6).blk t).view.emb (ix2 r cc))
  rw [prod_apply V c t r cc ⟨5000 * t.val + r.val, hR⟩ rfl]
  congr 1
  funext a
  apply Fin.ext
  match a with
  | ⟨0, _⟩ => show 5000 * t.val + r.val = win1_6.index t 0 * 5000 + 1 * r.val; rw [(idx_facts t).2.2.2.2.2.2.2.2.2.2.2.2.1]; omega
  | ⟨1, _⟩ => show cc.val = win1_6.index t 1 * 128 + 1 * cc.val; rw [(idx_facts t).2.2.2.2.2.2.2.2.2.2.2.2.2.1]; omega

theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v19_0).slice (win1_6.rect t)).set ↔ _
  rw [View.set_slice_whole, Rect.mem_set_unit]
  exact Iff.rfl

/-- The product array after the run is the whole product: row R is written by point R / 5000. -/
theorem final6 (c : Dev nD) : (dat1 V c).arrAt 6 cfg1.N = prodAll V c :=
  (dat1 V c).arrAt_eq_of_cover 6 (prodAll V c) (fun t _ => flushed6_eq V c t) fun i => by
    have hi0 : (i 0).val < 50000 := (i 0).isLt
    have hi1 : (i 1).val < 128 := (i 1).isLt
    have hN : cfg1.N = 10 := N_1
    refine ⟨⟨(i 0).val / 5000, by rw [hN]; omega⟩, flush1_6 _, ?_⟩
    rw [mem_blk6]
    intro a
    match a with
    | ⟨0, _⟩ =>
      show win1_6.index _ 0 * 5000 ≤ (i 0).val ∧ (i 0).val < win1_6.index _ 0 * 5000 + 5000
      rw [(idx_facts _).2.2.2.2.2.2.2.2.2.2.2.2.1]; dsimp only; omega
    | ⟨1, _⟩ =>
      show win1_6.index _ 1 * 128 ≤ (i 1).val ∧ (i 1).val < win1_6.index _ 1 * 128 + 128
      rw [(idx_facts _).2.2.2.2.2.2.2.2.2.2.2.2.2.1]; omega

/-- Column c of the whole product as a sequence, 0 past its 50000 rows. -/
def colAt (c : Dev nD) (cc : Fin 128) (n : ℕ) : EReal := if h : n < 50000 then prodAll V c (ix2 ⟨n, h⟩ cc) else 0

theorem block_sum (c : Dev nD) (t : Fin cfg1.N) (cc : Fin 128) (f : EReal → EReal) :
    ∑ r : Fin 5000, f (k1_pay5 (F := Ideal) (iblk1 V c 0 t) (iblk1 V c 4 t) (iblk1 V c 5 t) (iblk1 V c 2 t) (iblk1 V c 3 t) (iblk1 V c 1 t) (ix2 r cc)) = ∑ r ∈ Finset.range 5000, f (colAt V c cc (5000 * t.val + r)) := by
  rw [← Fin.sum_univ_eq_sum_range (fun r => f (colAt V c cc (5000 * t.val + r))) 5000]
  refine Finset.sum_congr rfl fun r _ => ?_
  have hN : t.val < 10 := lt_of_lt_of_eq t.isLt (show cfg1.N = 10 from N_1)
  have hR : 5000 * t.val + r.val < 50000 := by have := r.isLt; omega
  rw [prod_apply V c t r cc ⟨5000 * t.val + r.val, hR⟩ rfl]
  unfold colAt
  rw [dif_pos hR]

theorem chain1_apply (c : Dev nD) (cc : Fin 128) : ∀ (n : ℕ) (h : n < cfg1.N),
    (chain V c n h).1 (ix2 0 cc) = ∑ R ∈ Finset.range (5000 * (n + 1)), colAt V c cc R
  | 0, h => by
    show k1_pay1 (F := Ideal) (k1_pay6 (k1_pay3 (F := Ideal))) (k1_pay7 (iblk1 V c 0 ⟨0, h⟩) (iblk1 V c 4 ⟨0, h⟩) (iblk1 V c 5 ⟨0, h⟩) (iblk1 V c 2 ⟨0, h⟩) (iblk1 V c 3 ⟨0, h⟩) (iblk1 V c 1 ⟨0, h⟩)) (ix2 0 cc) = _
    rw [pay1_apply (k1_pay5 (iblk1 V c 0 ⟨0, h⟩) (iblk1 V c 4 ⟨0, h⟩) (iblk1 V c 5 ⟨0, h⟩) (iblk1 V c 2 ⟨0, h⟩) (iblk1 V c 3 ⟨0, h⟩) (iblk1 V c 1 ⟨0, h⟩)), pay3_apply, zero_add, block_sum V c ⟨0, h⟩ cc (fun z => z)]
    simp
  | n + 1, h => by
    show k1_pay1 (F := Ideal) (k1_pay6 (chain V c n _).1) (k1_pay7 (iblk1 V c 0 ⟨n + 1, h⟩) (iblk1 V c 4 ⟨n + 1, h⟩) (iblk1 V c 5 ⟨n + 1, h⟩) (iblk1 V c 2 ⟨n + 1, h⟩) (iblk1 V c 3 ⟨n + 1, h⟩) (iblk1 V c 1 ⟨n + 1, h⟩)) (ix2 0 cc) = _
    rw [pay1_apply (k1_pay5 (iblk1 V c 0 ⟨n + 1, h⟩) (iblk1 V c 4 ⟨n + 1, h⟩) (iblk1 V c 5 ⟨n + 1, h⟩) (iblk1 V c 2 ⟨n + 1, h⟩) (iblk1 V c 3 ⟨n + 1, h⟩) (iblk1 V c 1 ⟨n + 1, h⟩)), chain1_apply c cc n, block_sum V c ⟨n + 1, h⟩ cc (fun z => z),
      show 5000 * (n + 1 + 1) = 5000 * (n + 1) + 5000 by ring, Finset.sum_range_add]

theorem chain2_apply (c : Dev nD) (cc : Fin 128) : ∀ (n : ℕ) (h : n < cfg1.N),
    (chain V c n h).2 (ix2 0 cc) = ∑ R ∈ Finset.range (5000 * (n + 1)), colAt V c cc R * colAt V c cc R
  | 0, h => by
    show k1_pay2 (F := Ideal) (k1_pay5 (iblk1 V c 0 ⟨0, h⟩) (iblk1 V c 4 ⟨0, h⟩) (iblk1 V c 5 ⟨0, h⟩) (iblk1 V c 2 ⟨0, h⟩) (iblk1 V c 3 ⟨0, h⟩) (iblk1 V c 1 ⟨0, h⟩)) (k1_pay4 (F := Ideal)) (ix2 0 cc) = _
    rw [pay2_apply, pay4_apply, zero_add, block_sum V c ⟨0, h⟩ cc (fun z => z * z)]
    simp
  | n + 1, h => by
    show k1_pay2 (F := Ideal) (k1_pay5 (iblk1 V c 0 ⟨n + 1, h⟩) (iblk1 V c 4 ⟨n + 1, h⟩) (iblk1 V c 5 ⟨n + 1, h⟩) (iblk1 V c 2 ⟨n + 1, h⟩) (iblk1 V c 3 ⟨n + 1, h⟩) (iblk1 V c 1 ⟨n + 1, h⟩)) (chain V c n _).2 (ix2 0 cc) = _
    rw [pay2_apply, chain2_apply c cc n, block_sum V c ⟨n + 1, h⟩ cc (fun z => z * z),
      show 5000 * (n + 1 + 1) = 5000 * (n + 1) + 5000 by ring, Finset.sum_range_add]

theorem colAt_sum (c : Dev nD) (cc : Fin 128) (f : EReal → EReal) :
    ∑ R ∈ Finset.range 50000, f (colAt V c cc R) = ∑ R : Fin 50000, f (prodAll V c (ix2 R cc)) := by
  rw [← Fin.sum_univ_eq_sum_range (fun R => f (colAt V c cc R)) 50000]
  refine Finset.sum_congr rfl fun R _ => ?_
  unfold colAt
  rw [dif_pos R.isLt]

theorem nine_lt : 9 < cfg1.N := by rw [show cfg1.N = 10 from N_1]; decide

abbrev res7 (c : Dev nD) : Buf (Elt Ideal) ((c : Thread nD τ).loc main_v19_1) := (chain V c 9 nine_lt).1
abbrev res8 (c : Dev nD) : Buf (Elt Ideal) ((c : Thread nD τ).loc main_v19_2) := (chain V c 9 nine_lt).2

theorem flushed7_eq (c : Dev nD) (t : Fin cfg1.N) (hf : (cfg1.win 7).flush t = true) :
    (dat1 V c).flushed 7 t = ((cfg1.win 7).blk t).view.read (Elt Ideal) (res7 V c) := by
  have hN : cfg1.N = 10 := N_1
  have h9 : t.val = 9 := by have := (flush1_7 t).mp hf; have := t.isLt; omega
  obtain rfl : t = t1_9 := Fin.ext h9
  show (cfg1.win 7).cut (grid1.coords t1_9) ((dat1 V c).after 7 t1_9) = _
  rw [after1_7, outsAt_eq]
  have hz' : (fun a => win1_7.index t1_9 a * main_v19_1.ty.shape.size a) = fun _ => 0 := funext fun a => by fin_cases a <;> decide
  exact (Memref.read_access_unit_zero (Elt Ideal) main_v19_1 hz' (fun a => by rw [congrFun hz' a]; simp) (res7 V c)).symm

theorem final7 (c : Dev nD) : (dat1 V c).arrAt 7 cfg1.N = res7 V c :=
  (dat1 V c).arrAt_eq_of_cover 7 (res7 V c) (flushed7_eq V c) fun i =>
    ⟨t1_9, (flush1_7 t1_9).mpr rfl, by
      show i ∈ ((View.whole main_v19_1).slice (win1_7.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_7.index t1_9 0 * win1_7.size 0 ≤ (i 0 : Nat) ∧ (i 0 : Nat) < win1_7.index t1_9 0 * win1_7.size 0 + win1_7.xsize (grid1.coords t1_9) 0
                  rw [show win1_7.index t1_9 0 * win1_7.size 0 = 0 from by decide +kernel, show win1_7.xsize (grid1.coords t1_9) 0 = 1 from by decide +kernel]; omega
      | ⟨1, _⟩ => show win1_7.index t1_9 1 * win1_7.size 1 ≤ (i 1 : Nat) ∧ (i 1 : Nat) < win1_7.index t1_9 1 * win1_7.size 1 + win1_7.xsize (grid1.coords t1_9) 1
                  rw [show win1_7.index t1_9 1 * win1_7.size 1 = 0 from by decide +kernel, show win1_7.xsize (grid1.coords t1_9) 1 = 128 from by decide +kernel]; omega⟩

theorem flushed8_eq (c : Dev nD) (t : Fin cfg1.N) (hf : (cfg1.win 8).flush t = true) :
    (dat1 V c).flushed 8 t = ((cfg1.win 8).blk t).view.read (Elt Ideal) (res8 V c) := by
  have hN : cfg1.N = 10 := N_1
  have h9 : t.val = 9 := by have := (flush1_8 t).mp hf; have := t.isLt; omega
  obtain rfl : t = t1_9 := Fin.ext h9
  show (cfg1.win 8).cut (grid1.coords t1_9) ((dat1 V c).after 8 t1_9) = _
  rw [after1_8, outsAt_eq]
  have hz' : (fun a => win1_8.index t1_9 a * main_v19_2.ty.shape.size a) = fun _ => 0 := funext fun a => by fin_cases a <;> decide
  exact (Memref.read_access_unit_zero (Elt Ideal) main_v19_2 hz' (fun a => by rw [congrFun hz' a]; simp) (res8 V c)).symm

theorem final8 (c : Dev nD) : (dat1 V c).arrAt 8 cfg1.N = res8 V c :=
  (dat1 V c).arrAt_eq_of_cover 8 (res8 V c) (flushed8_eq V c) fun i =>
    ⟨t1_9, (flush1_8 t1_9).mpr rfl, by
      show i ∈ ((View.whole main_v19_2).slice (win1_8.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_8.index t1_9 0 * win1_8.size 0 ≤ (i 0 : Nat) ∧ (i 0 : Nat) < win1_8.index t1_9 0 * win1_8.size 0 + win1_8.xsize (grid1.coords t1_9) 0
                  rw [show win1_8.index t1_9 0 * win1_8.size 0 = 0 from by decide +kernel, show win1_8.xsize (grid1.coords t1_9) 0 = 1 from by decide +kernel]; omega
      | ⟨1, _⟩ => show win1_8.index t1_9 1 * win1_8.size 1 ≤ (i 1 : Nat) ∧ (i 1 : Nat) < win1_8.index t1_9 1 * win1_8.size 1 + win1_8.xsize (grid1.coords t1_9) 1
                  rw [show win1_8.index t1_9 1 * win1_8.size 1 = 0 from by decide +kernel, show win1_8.xsize (grid1.coords t1_9) 1 = 128 from by decide +kernel]; omega⟩

/-- The column-sums row after the run, at column c: the sum of the whole product's column c. -/
theorem final7_apply (c : Dev nD) (cc : Fin 128) :
    ((dat1 V c).arrAt 7 cfg1.N : S1x128.Idx → EReal) (ix2 0 cc) = ∑ R : Fin 50000, prodAll V c (ix2 R cc) := by
  rw [final7]
  exact (chain1_apply V c cc 9 nine_lt).trans (colAt_sum V c cc id)

/-- The column-sums-of-squares row after the run. -/
theorem final8_apply (c : Dev nD) (cc : Fin 128) :
    ((dat1 V c).arrAt 8 cfg1.N : S1x128.Idx → EReal) (ix2 0 cc) = ∑ R : Fin 50000, prodAll V c (ix2 R cc) * prodAll V c (ix2 R cc) := by
  rw [final8]
  exact (chain2_apply V c cc 9 nine_lt).trans (colAt_sum V c cc (fun z => z * z))

end Finals

end Cert.KernelIdeal.Stats1
end
-- ==== Proof.K2v.lean ====
/-
  The third kernel of a relation, read as values on the extended reals: point t of its ten takes rows
  5000 t … 5000 t + 4999 of the second product, normalises every entry with its column's mean and variance rows, scales
  and shifts it by two more rows, cuts it below at zero and writes the block back; after the run the result array is the
  whole activated matrix.
-/
import proofs.«120853_j16423954940358_2_alg».proof.Proof.Gen.KernelIdeal.Frame
import proofs.«120853_j16423954940358_2_alg».proof.Proof.K1v
import proofs.«120853_j16423954940358_2_alg».proof.Proof.Algebra
import proofs.«120853_j16423954940358_2_alg».proof.Proof.Spec
import Idealize.ShloMosaic.Lib.ValueIdx
import Idealize.ShloMosaic.Lib.ValueLayout
import Idealize.ShloMosaic.PureOps.Ideal.Laws
import Idealize.ShloMosaic.Lib.Pipeline.Value
import Idealize.ShloMosaic.Lib.StableHlo.Run
import Idealize.ShloMosaic.Lib.Tactic
set_option maxRecDepth 16384
noncomputable section
namespace Cert.KernelIdeal.Norm2
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx Cert.KernelIdeal.Stats1
open scoped BigOperators
variable {F : FTy → Type} [FloatOps F]

theorem hz : (![0, 0] : Fin 2 → Nat) = fun _ => 0 := funext fun a => by fin_cases a <;> rfl

/-- The body's arithmetic at (r, k): the entry normalised, scaled, shifted, cut. -/
theorem pay1_apply (x : FVec Ideal S5000x128 .f32) (m v g b : FVec Ideal S1x128 .f32) (r : Fin 5000) (k : Fin 128) :
    k2_pay1 (F := Ideal) x m v g b (ix2 r k) = actAt (x (ix2 r k)) (m (ix2 0 k)) (v (ix2 0 k)) (g (ix2 0 k)) (b (ix2 0 k)) := by
  unfold k2_pay1 actAt
  simp only [maximumf_apply, addf_apply, mulf_apply, subf_apply, bcastRow_apply, shapeCast_self, broadcast_apply]
  rw [show FloatOps.ofBits (F := Ideal) .f32 0x00000000#32 = (0 : EReal) from Cert.Gin.ofBits_zero]
  rfl

section Arrays
variable (V : (c : Dev nD) → (b : Ref sig .tc) → Buf (Elt Ideal) ((c : Thread nD τ).loc b))

theorem idx_facts : ∀ t : Fin cfg2.N,
    win2_0.index t (0 : Fin 2) = t.val ∧
    win2_0.index t (1 : Fin 2) = 0 ∧
    win2_1.index t (0 : Fin 2) = 0 ∧
    win2_1.index t (1 : Fin 2) = 0 ∧
    win2_2.index t (0 : Fin 2) = 0 ∧
    win2_2.index t (1 : Fin 2) = 0 ∧
    win2_3.index t (0 : Fin 2) = 0 ∧
    win2_3.index t (1 : Fin 2) = 0 ∧
    win2_4.index t (0 : Fin 2) = 0 ∧
    win2_4.index t (1 : Fin 2) = 0 ∧
    win2_5.index t (0 : Fin 2) = t.val ∧
    win2_5.index t (1 : Fin 2) = 0 :=
  (by decide +kernel : ∀ t : Fin grid2.N, _)

theorem iblk_0_apply (c : Dev nD) (t : Fin cfg2.N) (r : Fin 5000) (k : Fin 128) (R : Fin 50000) (hR : R.val = 5000 * t.val + r.val) :
    (iblk2 V c 0 t : Vec Ideal S5000x128 .f32) (ix2 r k) = (V c main_v19_0 : S50000x128.Idx → EReal) (ix2 R k) := by
  unfold iblk2
  rw [View.read_apply]
  show V c main_v19_0 _ = V c main_v19_0 _
  congr 1
  funext a
  apply Fin.ext
  match a with
  | ⟨0, _⟩ => show win2_0.index t 0 * 5000 + 1 * r.val = R.val; rw [(idx_facts t).1, hR]; omega
  | ⟨1, _⟩ => show win2_0.index t 1 * 128 + 1 * k.val = k.val; rw [(idx_facts t).2.1]; omega

theorem iblk_1_apply (c : Dev nD) (t : Fin cfg2.N) (r : Fin 1) (k : Fin 128) :
    (iblk2 V c 1 t : Vec Ideal S1x128 .f32) (ix2 r k) = (V c main_v26 : S1x128.Idx → EReal) (ix2 r k) := by
  unfold iblk2
  rw [View.read_apply]
  show V c main_v26 _ = V c main_v26 _
  congr 1
  funext a
  apply Fin.ext
  match a with
  | ⟨0, _⟩ => show win2_1.index t 0 * 1 + 1 * r.val = r.val; rw [(idx_facts t).2.2.1]; omega
  | ⟨1, _⟩ => show win2_1.index t 1 * 128 + 1 * k.val = k.val; rw [(idx_facts t).2.2.2.1]; omega

theorem iblk_2_apply (c : Dev nD) (t : Fin cfg2.N) (r : Fin 1) (k : Fin 128) :
    (iblk2 V c 2 t : Vec Ideal S1x128 .f32) (ix2 r k) = (V c main_v27 : S1x128.Idx → EReal) (ix2 r k) := by
  unfold iblk2
  rw [View.read_apply]
  show V c main_v27 _ = V c main_v27 _
  congr 1
  funext a
  apply Fin.ext
  match a with
  | ⟨0, _⟩ => show win2_2.index t 0 * 1 + 1 * r.val = r.val; rw [(idx_facts t).2.2.2.2.1]; omega
  | ⟨1, _⟩ => show win2_2.index t 1 * 128 + 1 * k.val = k.val; rw [(idx_facts t).2.2.2.2.2.1]; omega

theorem iblk_3_apply (c : Dev nD) (t : Fin cfg2.N) (r : Fin 1) (k : Fin 128) :
    (iblk2 V c 3 t : Vec Ideal S1x128 .f32) (ix2 r k) = (V c main_v21 : S1x128.Idx → EReal) (ix2 r k) := by
  unfold iblk2
  rw [View.read_apply]
  show V c main_v21 _ = V c main_v21 _
  congr 1
  funext a
  apply Fin.ext
  match a with
  | ⟨0, _⟩ => show win2_3.index t 0 * 1 + 1 * r.val = r.val; rw [(idx_facts t).2.2.2.2.2.2.1]; omega
  | ⟨1, _⟩ => show win2_3.index t 1 * 128 + 1 * k.val = k.val; rw [(idx_facts t).2.2.2.2.2.2.2.1]; omega

theorem iblk_4_apply (c : Dev nD) (t : Fin cfg2.N) (r : Fin 1) (k : Fin 128) :
    (iblk2 V c 4 t : Vec Ideal S1x128 .f32) (ix2 r k) = (V c main_v25 : S1x128.Idx → EReal) (ix2 r k) := by
  unfold iblk2
  rw [View.read_apply]
  show V c main_v25 _ = V c main_v25 _
  congr 1
  funext a
  apply Fin.ext
  match a with
  | ⟨0, _⟩ => show win2_4.index t 0 * 1 + 1 * r.val = r.val; rw [(idx_facts t).2.2.2.2.2.2.2.2.1]; omega
  | ⟨1, _⟩ => show win2_4.index t 1 * 128 + 1 * k.val = k.val; rw [(idx_facts t).2.2.2.2.2.2.2.2.2.1]; omega

/-- The whole result: every entry of the first array normalised, scaled, shifted, cut. -/
def outAll (c : Dev nD) : S50000x128.Idx → EReal := fun i =>
  actAt ((V c main_v19_0 : S50000x128.Idx → EReal) i) ((V c main_v21 : S1x128.Idx → EReal) (ix2 0 (i 1)))
    ((V c main_v25 : S1x128.Idx → EReal) (ix2 0 (i 1))) ((V c main_v26 : S1x128.Idx → EReal) (ix2 0 (i 1)))
    ((V c main_v27 : S1x128.Idx → EReal) (ix2 0 (i 1)))

/-- What point t writes back is block t of the whole result. -/
theorem flushed5_eq (c : Dev nD) (t : Fin cfg2.N) :
    (dat2 V c).flushed 5 t = ((cfg2.win 5).blk t).view.read (Elt Ideal) (outAll V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  funext j
  obtain ⟨r, k, rfl⟩ : ∃ (r : Fin 5000) (k : Fin 128), j = ix2 r k := ⟨j 0, j 1, eq_ix2 j⟩
  have hN : t.val < 10 := lt_of_lt_of_eq t.isLt (show cfg2.N = 10 from N_2)
  have hR : 5000 * t.val + r.val < 50000 := by have := r.isLt; omega
  show k2_pay1 (F := Ideal) (iblk2 V c 0 t) (iblk2 V c 3 t) (iblk2 V c 4 t) (iblk2 V c 1 t) (iblk2 V c 2 t) (ix2 r k) = outAll V c (((cfg2.win 5).blk t).view.emb (ix2 r k))
  have he : ((cfg2.win 5).blk t).view.emb (ix2 r k) = (ix2 (⟨5000 * t.val + r.val, hR⟩ : Fin 50000) k : S50000x128.Idx) := by
    funext a
    apply Fin.ext
    match a with
    | ⟨0, _⟩ => show win2_5.index t 0 * 5000 + 1 * r.val = 5000 * t.val + r.val; rw [(idx_facts t).2.2.2.2.2.2.2.2.2.2.1]; omega
    | ⟨1, _⟩ => show win2_5.index t 1 * 128 + 1 * k.val = k.val; rw [(idx_facts t).2.2.2.2.2.2.2.2.2.2.2]; omega
  rw [he, pay1_apply, iblk_0_apply V c t r k ⟨5000 * t.val + r.val, hR⟩ rfl, iblk_3_apply V c t 0 k, iblk_4_apply V c t 0 k,
    iblk_1_apply V c t 0 k, iblk_2_apply V c t 0 k]
  rfl

theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v28).slice (win2_5.rect t)).set ↔ _
  rw [View.set_slice_whole, Rect.mem_set_unit]
  exact Iff.rfl

/-- The result array after the run is the whole result: row R is written by point R / 5000. -/
theorem final5 (c : Dev nD) : (dat2 V c).arrAt 5 cfg2.N = outAll V c :=
  (dat2 V c).arrAt_eq_of_cover 5 (outAll V c) (fun t _ => flushed5_eq V c t) fun i => by
    have hi0 : (i 0).val < 50000 := (i 0).isLt
    have hi1 : (i 1).val < 128 := (i 1).isLt
    have hN : cfg2.N = 10 := N_2
    refine ⟨⟨(i 0).val / 5000, by rw [hN]; omega⟩, flush2_5 _, ?_⟩
    rw [mem_blk5]
    intro a
    match a with
    | ⟨0, _⟩ =>
      show win2_5.index _ 0 * 5000 ≤ (i 0).val ∧ (i 0).val < win2_5.index _ 0 * 5000 + 5000
      rw [(idx_facts _).2.2.2.2.2.2.2.2.2.2.1]; dsimp only; omega
    | ⟨1, _⟩ =>
      show win2_5.index _ 1 * 128 ≤ (i 1).val ∧ (i 1).val < win2_5.index _ 1 * 128 + 128
      rw [(idx_facts _).2.2.2.2.2.2.2.2.2.2.2]; omega

end Arrays

end Cert.KernelIdeal.Norm2
end
-- ==== Proof.KFoldBase.lean ====
/-
  What the two relations' walks through the kernel program share: the argument arrays at launch, the aggregation
  of neighbour rows as one term, and a scalar spread along a row read at an entry.
-/
import proofs.«120853_j16423954940358_2_alg».proof.Proof.Gen.KernelIdeal.Frame
import proofs.«120853_j16423954940358_2_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Fold

open Idealize.ShloMosaic Idealize.ShloMosaic.TcCoe Idealize.ShloMosaic.Tactic Idealize.ShloMosaic.StableHlo
open Idealize.SL Idealize.SL.Sem
open Idealize.ShloMosaic.Pipeline (Dat Cfg Window)
open Cert.KernelIdeal Cert.KernelIdeal.Gen Idealize.ShloMosaic.ValueIdx Cert.Gin

variable (m : (ℓ : Loc nD τ sig) → Buf (Elt Ideal) ℓ) (ρ : Dev nD → PrngReg)

/-- The one index of a scalar. -/
abbrev k0 : S_.Idx := fun a => a.elim0

/-- A scalar repeated along a 1 × 128 row. -/
theorem splatRow_apply (x : FVec Ideal S_ .f32) (c : Fin 128) (k : S_.Idx) :
    broadcastInDim S1x128 ![] bcast_S_S1x128 x (ix2 0 c) = x k :=
  broadcastInDim_apply ![] bcast_S_S1x128 x (ix2 0 c) k (fun a => a.elim0)

/-- The source rows gathered along the edges (a negative index counted from the end) and summed into the
    destination rows, from the zero matrix. -/
def aggOf (hsrc : FVec Ideal S50000x128 .f32) (src dst : IVec S640000 32) : FVec Ideal S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (Host.gather gather_S50000x128_S640000x1_S640000x128_1_0_n_n_0_1_1128 hsrc
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 50000#32))) src)))

/-! The argument arrays at launch. -/
abbrev a0 (c : Dev nD) : S50000x128.Idx → EReal := m ((c : Thread nD τ).loc main_arg0)
abbrev a1 (c : Dev nD) : S50000x128.Idx → EReal := m ((c : Thread nD τ).loc main_arg1)
abbrev a2 (c : Dev nD) : IVec S640000 32 := m ((c : Thread nD τ).loc main_arg2)
abbrev a3 (c : Dev nD) : IVec S640000 32 := m ((c : Thread nD τ).loc main_arg3)
abbrev a4 (c : Dev nD) : IVec S640000 32 := m ((c : Thread nD τ).loc main_arg4)
abbrev a5 (c : Dev nD) : IVec S640000 32 := m ((c : Thread nD τ).loc main_arg5)
abbrev a6 (c : Dev nD) : S128x128.Idx → EReal := m ((c : Thread nD τ).loc main_arg6)
abbrev a7 (c : Dev nD) : S128x128.Idx → EReal := m ((c : Thread nD τ).loc main_arg7)
abbrev a8 (c : Dev nD) : S128.Idx → EReal := m ((c : Thread nD τ).loc main_arg8)
abbrev a9 (c : Dev nD) : S128.Idx → EReal := m ((c : Thread nD τ).loc main_arg9)
abbrev a10 (c : Dev nD) : S128.Idx → EReal := m ((c : Thread nD τ).loc main_arg10)
abbrev a11 (c : Dev nD) : S128.Idx → EReal := m ((c : Thread nD τ).loc main_arg11)
abbrev a12 (c : Dev nD) : S128x128.Idx → EReal := m ((c : Thread nD τ).loc main_arg12)
abbrev a13 (c : Dev nD) : S128x128.Idx → EReal := m ((c : Thread nD τ).loc main_arg13)
abbrev a14 (c : Dev nD) : S128.Idx → EReal := m ((c : Thread nD τ).loc main_arg14)
abbrev a15 (c : Dev nD) : S128.Idx → EReal := m ((c : Thread nD τ).loc main_arg15)
abbrev a16 (c : Dev nD) : S128.Idx → EReal := m ((c : Thread nD τ).loc main_arg16)
abbrev a17 (c : Dev nD) : S128.Idx → EReal := m ((c : Thread nD τ).loc main_arg17)

end Cert.KernelIdeal.Fold
end
-- ==== Proof.KFold1.lean ====
/-
  The kernel program's result for relation 1, from the launch memory: the buffer contents are followed from the
  launch through the host operations and the three kernels of the relation — the aggregated rows, the first product
  and its column statistics, the mean and variance rows the host derives from them, the second product and its
  statistics, the final normalisation — and the result array is the two-layer network, with column variances taken as
  the mean of squares less the squared mean, of the launch arguments.
-/
import proofs.«120853_j16423954940358_2_alg».proof.Proof.Gen.KernelIdeal.Frame
import proofs.«120853_j16423954940358_2_alg».proof.Proof.K2v
import proofs.«120853_j16423954940358_2_alg».proof.Proof.KFoldBase
import proofs.«120853_j16423954940358_2_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Fold

open Idealize.ShloMosaic Idealize.ShloMosaic.TcCoe Idealize.ShloMosaic.Tactic Idealize.ShloMosaic.StableHlo
open Idealize.SL Idealize.SL.Sem
open Idealize.ShloMosaic.Pipeline (Dat Cfg Window)
open Cert.KernelIdeal Cert.KernelIdeal.Gen Idealize.ShloMosaic.ValueIdx Cert.Gin

variable (m : (ℓ : Loc nD τ sig) → Buf (Elt Ideal) ℓ) (ρ : Dev nD → PrngReg)

/-! ## Relation 1: from the launch memory to its result array -/

theorem W0_arg0 (c : Dev nD) : W0 m ρ c (Proc.devRef .tc main_arg0) = m ((c : Thread nD τ).loc main_arg0) := rfl

theorem W0_arg2 (c : Dev nD) : W0 m ρ c (Proc.devRef .tc main_arg2) = m ((c : Thread nD τ).loc main_arg2) := rfl

theorem W0_arg3 (c : Dev nD) : W0 m ρ c (Proc.devRef .tc main_arg3) = m ((c : Thread nD τ).loc main_arg3) := rfl

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- The aggregated neighbour rows at the first kernel's entry. -/
theorem W1_agg (c : Dev nD) :
    W1 m ρ c (Proc.devRef .tc main_v9) = aggOf (a0 m c) (a2 m c) (a3 m c) := by
  have e : W1 m ρ c (Proc.devRef .tc main_v9) = aggOf (W0 m ρ c (Proc.devRef .tc main_arg0)) (W0 m ρ c (Proc.devRef .tc main_arg2)) (W0 m ρ c (Proc.devRef .tc main_arg3)) := by
    show StableHlo.after hostOps0 (W0 m ρ c) (Proc.devRef .tc main_v9) = _
    after_results
    all_goals rfl
  rw [e, W0_arg0, W0_arg2, W0_arg3]

/-- The features plus the aggregated neighbour rows. -/
def x1 (c : Dev nD) : SB.Idx → EReal := fun i =>
  (a1 m c) i + aggOf (a0 m c) (a2 m c) (a3 m c) i

/-- The first product. -/
def H1_1 (c : Dev nD) : SB.Idx → EReal := lin (x1 m c) (a6 m c)

/-- The first activated matrix. -/
def A1_1 (c : Dev nD) : SB.Idx → EReal :=
  Cert.Gin.norm (varS (H1_1 m c)) (H1_1 m c) (fun k => (a8 m c) (ix1 k)) (fun k => (a9 m c) (ix1 k))

/-- The second product. -/
def H2_1 (c : Dev nD) : SB.Idx → EReal := lin (A1_1 m c) (a7 m c)

/-- The relation's result. -/
def Out_1 (c : Dev nD) : SB.Idx → EReal :=
  Cert.Gin.norm (varS (H2_1 m c)) (H2_1 m c) (fun k => (a10 m c) (ix1 k)) (fun k => (a11 m c) (ix1 k))

/-- The first kernel's whole product is the first product of the launch arguments. -/
theorem prod0_1 (c : Dev nD) : Cert.KernelIdeal.Stats0.prodAll (V1 m ρ) c = H1_1 m c := by
  have e0 : Cert.KernelIdeal.Stats0.A0 (V1 m ρ) c = a1 m c := W1_arg1 m ρ c
  have e1 : Cert.KernelIdeal.Stats0.A1 (V1 m ρ) c = aggOf (a0 m c) (a2 m c) (a3 m c) := W1_agg m ρ c
  have e2 : Cert.KernelIdeal.Stats0.A2 (V1 m ρ) c = a6 m c := W1_arg6 m ρ c
  unfold Cert.KernelIdeal.Stats0.prodAll
  rw [e0, e1, e2]
  rfl

theorem W2_h1 (c : Dev nD) : (W2 m ρ c (Proc.devRef .tc main_v10_0) : S50000x128.Idx → EReal) = H1_1 m c :=
  (W2_arr m ρ c 3).trans ((Cert.KernelIdeal.Stats0.final3 (V1 m ρ) c).trans (prod0_1 m ρ c))

theorem W2_s1 (c : Dev nD) (k : Fin 128) :
    (W2 m ρ c (Proc.devRef .tc main_v10_1) : S1x128.Idx → EReal) (ix2 0 k) = ∑ R : Fin 50000, H1_1 m c (ix2 R k) := by
  rw [show (W2 m ρ c (Proc.devRef .tc main_v10_1) : S1x128.Idx → EReal) = (dat0 (V1 m ρ) c).arrAt 4 cfg0.N from W2_arr m ρ c 4,
    Cert.KernelIdeal.Stats0.final4_apply, prod0_1]

theorem W2_ss1 (c : Dev nD) (k : Fin 128) :
    (W2 m ρ c (Proc.devRef .tc main_v10_2) : S1x128.Idx → EReal) (ix2 0 k) = ∑ R : Fin 50000, H1_1 m c (ix2 R k) * H1_1 m c (ix2 R k) := by
  rw [show (W2 m ρ c (Proc.devRef .tc main_v10_2) : S1x128.Idx → EReal) = (dat0 (V1 m ρ) c).arrAt 5 cfg0.N from W2_arr m ρ c 5,
    Cert.KernelIdeal.Stats0.final5_apply, prod0_1]

/-- The mean row the host computes from the column sums of product 1. -/
theorem W3_mean1 (c : Dev nD) (k : Fin 128) :
    (W3 m ρ c (Proc.devRef .tc main_v12) : S1x128.Idx → EReal) (ix2 0 k) = mean (H1_1 m c) k := by
  have e : (W3 m ρ c (Proc.devRef .tc main_v12) : S1x128.Idx → EReal)
      = Host.divf (F := Ideal) (W2 m ρ c (Proc.devRef .tc main_v10_1)) (broadcastInDim S1x128 ![] bcast_S_S1x128 (constant (F := Ideal) S_ .f32 0x47435000#32)) := by
    show StableHlo.after hostOps1 (W2 m ρ c) (Proc.devRef .tc main_v12) = _
    after_results
    all_goals rfl
  rw [e]
  show Ideal.div ((W2 m ρ c (Proc.devRef .tc main_v10_1) : S1x128.Idx → EReal) (ix2 0 k)) (broadcastInDim S1x128 ![] bcast_S_S1x128 (constant (F := Ideal) S_ .f32 0x47435000#32) (ix2 0 k)) = _
  rw [W2_s1, splatRow_apply _ k k0]
  show Ideal.div _ (Ideal.ofBits .f32 0x47435000#32) = _
  rw [Cert.Gin.ofBits_N]
  rfl

/-- The variance row the host computes from the column sums and sums of squares of product 1. -/
theorem W3_var1 (c : Dev nD) (k : Fin 128) :
    (W3 m ρ c (Proc.devRef .tc main_v16) : S1x128.Idx → EReal) (ix2 0 k) = varS (H1_1 m c) k := by
  have e : (W3 m ρ c (Proc.devRef .tc main_v16) : S1x128.Idx → EReal)
      = subf (F := Ideal) (Host.divf (F := Ideal) (W2 m ρ c (Proc.devRef .tc main_v10_2)) (broadcastInDim S1x128 ![] bcast_S_S1x128 (constant (F := Ideal) S_ .f32 0x47435000#32)))
          (mulf (F := Ideal) (Host.divf (F := Ideal) (W2 m ρ c (Proc.devRef .tc main_v10_1)) (broadcastInDim S1x128 ![] bcast_S_S1x128 (constant (F := Ideal) S_ .f32 0x47435000#32)))
            (Host.divf (F := Ideal) (W2 m ρ c (Proc.devRef .tc main_v10_1)) (broadcastInDim S1x128 ![] bcast_S_S1x128 (constant (F := Ideal) S_ .f32 0x47435000#32)))) := by
    show StableHlo.after hostOps1 (W2 m ρ c) (Proc.devRef .tc main_v16) = _
    after_results
    all_goals rfl
  rw [e]
  show Ideal.div ((W2 m ρ c (Proc.devRef .tc main_v10_2) : S1x128.Idx → EReal) (ix2 0 k)) (broadcastInDim S1x128 ![] bcast_S_S1x128 (constant (F := Ideal) S_ .f32 0x47435000#32) (ix2 0 k))
      - Ideal.div ((W2 m ρ c (Proc.devRef .tc main_v10_1) : S1x128.Idx → EReal) (ix2 0 k)) (broadcastInDim S1x128 ![] bcast_S_S1x128 (constant (F := Ideal) S_ .f32 0x47435000#32) (ix2 0 k))
        * Ideal.div ((W2 m ρ c (Proc.devRef .tc main_v10_1) : S1x128.Idx → EReal) (ix2 0 k)) (broadcastInDim S1x128 ![] bcast_S_S1x128 (constant (F := Ideal) S_ .f32 0x47435000#32) (ix2 0 k)) = _
  rw [W2_s1, W2_ss1, splatRow_apply _ k k0]
  show Ideal.div _ (Ideal.ofBits .f32 0x47435000#32) - Ideal.div _ (Ideal.ofBits .f32 0x47435000#32) * Ideal.div _ (Ideal.ofBits .f32 0x47435000#32) = _
  rw [Cert.Gin.ofBits_N]
  rfl

/-- The scale row is the scale vector. -/
theorem W3_g1 (c : Dev nD) (k : Fin 128) :
    (W3 m ρ c (Proc.devRef .tc main_v17) : S1x128.Idx → EReal) (ix2 0 k) = (a8 m c) (ix1 k) := by
  have e : (W3 m ρ c (Proc.devRef .tc main_v17) : S1x128.Idx → EReal) = shapeCast S1x128 (W2 m ρ c (Proc.devRef .tc main_arg8) : S128.Idx → EReal) shapeCasts_S128_S1x128 := by
    show StableHlo.after hostOps1 (W2 m ρ c) (Proc.devRef .tc main_v17) = _
    after_results
    all_goals rfl
  rw [e, Cert.KernelIdeal.Stats0.row_of_vec_apply, W2_arg8]

/-- The shift row is the shift vector. -/
theorem W3_b1 (c : Dev nD) (k : Fin 128) :
    (W3 m ρ c (Proc.devRef .tc main_v18) : S1x128.Idx → EReal) (ix2 0 k) = (a9 m c) (ix1 k) := by
  have e : (W3 m ρ c (Proc.devRef .tc main_v18) : S1x128.Idx → EReal) = shapeCast S1x128 (W2 m ρ c (Proc.devRef .tc main_arg9) : S128.Idx → EReal) shapeCasts_S128_S1x128 := by
    show StableHlo.after hostOps1 (W2 m ρ c) (Proc.devRef .tc main_v18) = _
    after_results
    all_goals rfl
  rw [e, Cert.KernelIdeal.Stats0.row_of_vec_apply, W2_arg9]

theorem W3_h1_keep (c : Dev nD) : W3 m ρ c (Proc.devRef .tc main_v10_0) = W2 m ρ c (Proc.devRef .tc main_v10_0) :=
  calc W3 m ρ c (Proc.devRef .tc main_v10_0)
    _ = W2 m ρ c (Proc.devRef .tc main_v10_0) := StableHlo.after_of_forall_not_mem (b := Proc.devRef .tc main_v10_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second kernel's activated matrix is the first activated matrix of the launch arguments. -/
theorem act1_1 (c : Dev nD) : Cert.KernelIdeal.Stats1.actAll (V3 m ρ) c = A1_1 m c := by
  funext i
  obtain ⟨r, k, rfl⟩ : ∃ (r : Fin 50000) (k : Fin 128), i = ix2 r k := ⟨i 0, i 1, eq_ix2 i⟩
  have eh : (V3 m ρ c main_v10_0 : S50000x128.Idx → EReal) = H1_1 m c := (W3_h1_keep m ρ c).trans (W2_h1 m ρ c)
  show Cert.KernelIdeal.Stats1.actAt ((V3 m ρ c main_v10_0 : S50000x128.Idx → EReal) (ix2 r k)) ((W3 m ρ c (Proc.devRef .tc main_v12) : S1x128.Idx → EReal) (ix2 0 k))
      ((W3 m ρ c (Proc.devRef .tc main_v16) : S1x128.Idx → EReal) (ix2 0 k)) ((W3 m ρ c (Proc.devRef .tc main_v17) : S1x128.Idx → EReal) (ix2 0 k))
      ((W3 m ρ c (Proc.devRef .tc main_v18) : S1x128.Idx → EReal) (ix2 0 k)) = _
  rw [eh, W3_mean1, W3_var1, W3_g1, W3_b1]
  rfl

theorem prod1_1 (c : Dev nD) : Cert.KernelIdeal.Stats1.prodAll (V3 m ρ) c = H2_1 m c := by
  have e2 : (V3 m ρ c main_arg7 : S128x128.Idx → EReal) = (a7 m c) := W3_arg7 m ρ c
  show lin (Cert.KernelIdeal.Stats1.actAll (V3 m ρ) c) (V3 m ρ c main_arg7 : S128x128.Idx → EReal) = _
  rw [act1_1, e2]
  rfl

theorem W4_h2 (c : Dev nD) : (W4 m ρ c (Proc.devRef .tc main_v19_0) : S50000x128.Idx → EReal) = H2_1 m c :=
  (W4_arr m ρ c 6).trans ((Cert.KernelIdeal.Stats1.final6 (V3 m ρ) c).trans (prod1_1 m ρ c))

theorem W4_s2 (c : Dev nD) (k : Fin 128) :
    (W4 m ρ c (Proc.devRef .tc main_v19_1) : S1x128.Idx → EReal) (ix2 0 k) = ∑ R : Fin 50000, H2_1 m c (ix2 R k) := by
  rw [show (W4 m ρ c (Proc.devRef .tc main_v19_1) : S1x128.Idx → EReal) = (dat1 (V3 m ρ) c).arrAt 7 cfg1.N from W4_arr m ρ c 7,
    Cert.KernelIdeal.Stats1.final7_apply, prod1_1]

theorem W4_ss2 (c : Dev nD) (k : Fin 128) :
    (W4 m ρ c (Proc.devRef .tc main_v19_2) : S1x128.Idx → EReal) (ix2 0 k) = ∑ R : Fin 50000, H2_1 m c (ix2 R k) * H2_1 m c (ix2 R k) := by
  rw [show (W4 m ρ c (Proc.devRef .tc main_v19_2) : S1x128.Idx → EReal) = (dat1 (V3 m ρ) c).arrAt 8 cfg1.N from W4_arr m ρ c 8,
    Cert.KernelIdeal.Stats1.final8_apply, prod1_1]

/-- The mean row the host computes from the column sums of product 2. -/
theorem W5_mean2 (c : Dev nD) (k : Fin 128) :
    (W5 m ρ c (Proc.devRef .tc main_v21) : S1x128.Idx → EReal) (ix2 0 k) = mean (H2_1 m c) k := by
  have e : (W5 m ρ c (Proc.devRef .tc main_v21) : S1x128.Idx → EReal)
      = Host.divf (F := Ideal) (W4 m ρ c (Proc.devRef .tc main_v19_1)) (broadcastInDim S1x128 ![] bcast_S_S1x128 (constant (F := Ideal) S_ .f32 0x47435000#32)) := by
    show StableHlo.after hostOps2 (W4 m ρ c) (Proc.devRef .tc main_v21) = _
    after_results
    all_goals rfl
  rw [e]
  show Ideal.div ((W4 m ρ c (Proc.devRef .tc main_v19_1) : S1x128.Idx → EReal) (ix2 0 k)) (broadcastInDim S1x128 ![] bcast_S_S1x128 (constant (F := Ideal) S_ .f32 0x47435000#32) (ix2 0 k)) = _
  rw [W4_s2, splatRow_apply _ k k0]
  show Ideal.div _ (Ideal.ofBits .f32 0x47435000#32) = _
  rw [Cert.Gin.ofBits_N]
  rfl

/-- The variance row the host computes from the column sums and sums of squares of product 2. -/
theorem W5_var2 (c : Dev nD) (k : Fin 128) :
    (W5 m ρ c (Proc.devRef .tc main_v25) : S1x128.Idx → EReal) (ix2 0 k) = varS (H2_1 m c) k := by
  have e : (W5 m ρ c (Proc.devRef .tc main_v25) : S1x128.Idx → EReal)
      = subf (F := Ideal) (Host.divf (F := Ideal) (W4 m ρ c (Proc.devRef .tc main_v19_2)) (broadcastInDim S1x128 ![] bcast_S_S1x128 (constant (F := Ideal) S_ .f32 0x47435000#32)))
          (mulf (F := Ideal) (Host.divf (F := Ideal) (W4 m ρ c (Proc.devRef .tc main_v19_1)) (broadcastInDim S1x128 ![] bcast_S_S1x128 (constant (F := Ideal) S_ .f32 0x47435000#32)))
            (Host.divf (F := Ideal) (W4 m ρ c (Proc.devRef .tc main_v19_1)) (broadcastInDim S1x128 ![] bcast_S_S1x128 (constant (F := Ideal) S_ .f32 0x47435000#32)))) := by
    show StableHlo.after hostOps2 (W4 m ρ c) (Proc.devRef .tc main_v25) = _
    after_results
    all_goals rfl
  rw [e]
  show Ideal.div ((W4 m ρ c (Proc.devRef .tc main_v19_2) : S1x128.Idx → EReal) (ix2 0 k)) (broadcastInDim S1x128 ![] bcast_S_S1x128 (constant (F := Ideal) S_ .f32 0x47435000#32) (ix2 0 k))
      - Ideal.div ((W4 m ρ c (Proc.devRef .tc main_v19_1) : S1x128.Idx → EReal) (ix2 0 k)) (broadcastInDim S1x128 ![] bcast_S_S1x128 (constant (F := Ideal) S_ .f32 0x47435000#32) (ix2 0 k))
        * Ideal.div ((W4 m ρ c (Proc.devRef .tc main_v19_1) : S1x128.Idx → EReal) (ix2 0 k)) (broadcastInDim S1x128 ![] bcast_S_S1x128 (constant (F := Ideal) S_ .f32 0x47435000#32) (ix2 0 k)) = _
  rw [W4_s2, W4_ss2, splatRow_apply _ k k0]
  show Ideal.div _ (Ideal.ofBits .f32 0x47435000#32) - Ideal.div _ (Ideal.ofBits .f32 0x47435000#32) * Ideal.div _ (Ideal.ofBits .f32 0x47435000#32) = _
  rw [Cert.Gin.ofBits_N]
  rfl

/-- The scale row is the scale vector. -/
theorem W5_g2 (c : Dev nD) (k : Fin 128) :
    (W5 m ρ c (Proc.devRef .tc main_v26) : S1x128.Idx → EReal) (ix2 0 k) = (a10 m c) (ix1 k) := by
  have e : (W5 m ρ c (Proc.devRef .tc main_v26) : S1x128.Idx → EReal) = shapeCast S1x128 (W4 m ρ c (Proc.devRef .tc main_arg10) : S128.Idx → EReal) shapeCasts_S128_S1x128 := by
    show StableHlo.after hostOps2 (W4 m ρ c) (Proc.devRef .tc main_v26) = _
    after_results
    all_goals rfl
  rw [e, Cert.KernelIdeal.Stats0.row_of_vec_apply, W4_arg10]

/-- The shift row is the shift vector. -/
theorem W5_b2 (c : Dev nD) (k : Fin 128) :
    (W5 m ρ c (Proc.devRef .tc main_v27) : S1x128.Idx → EReal) (ix2 0 k) = (a11 m c) (ix1 k) := by
  have e : (W5 m ρ c (Proc.devRef .tc main_v27) : S1x128.Idx → EReal) = shapeCast S1x128 (W4 m ρ c (Proc.devRef .tc main_arg11) : S128.Idx → EReal) shapeCasts_S128_S1x128 := by
    show StableHlo.after hostOps2 (W4 m ρ c) (Proc.devRef .tc main_v27) = _
    after_results
    all_goals rfl
  rw [e, Cert.KernelIdeal.Stats0.row_of_vec_apply, W4_arg11]

theorem W5_h2_keep (c : Dev nD) : W5 m ρ c (Proc.devRef .tc main_v19_0) = W4 m ρ c (Proc.devRef .tc main_v19_0) :=
  calc W5 m ρ c (Proc.devRef .tc main_v19_0)
    _ = W4 m ρ c (Proc.devRef .tc main_v19_0) := StableHlo.after_of_forall_not_mem (b := Proc.devRef .tc main_v19_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The third kernel's whole result is the relation's result of the launch arguments. -/
theorem out2_1 (c : Dev nD) : Cert.KernelIdeal.Norm2.outAll (V5 m ρ) c = Out_1 m c := by
  funext i
  obtain ⟨r, k, rfl⟩ : ∃ (r : Fin 50000) (k : Fin 128), i = ix2 r k := ⟨i 0, i 1, eq_ix2 i⟩
  have eh : (V5 m ρ c main_v19_0 : S50000x128.Idx → EReal) = H2_1 m c := (W5_h2_keep m ρ c).trans (W4_h2 m ρ c)
  show Cert.KernelIdeal.Stats1.actAt ((V5 m ρ c main_v19_0 : S50000x128.Idx → EReal) (ix2 r k)) ((W5 m ρ c (Proc.devRef .tc main_v21) : S1x128.Idx → EReal) (ix2 0 k))
      ((W5 m ρ c (Proc.devRef .tc main_v25) : S1x128.Idx → EReal) (ix2 0 k)) ((W5 m ρ c (Proc.devRef .tc main_v26) : S1x128.Idx → EReal) (ix2 0 k))
      ((W5 m ρ c (Proc.devRef .tc main_v27) : S1x128.Idx → EReal) (ix2 0 k)) = _
  rw [eh, W5_mean2, W5_var2, W5_g2, W5_b2]
  rfl

theorem W6_out (c : Dev nD) : (W6 m ρ c (Proc.devRef .tc main_v28) : S50000x128.Idx → EReal) = Out_1 m c :=
  (W6_arr m ρ c 5).trans ((Cert.KernelIdeal.Norm2.final5 (V5 m ρ) c).trans (out2_1 m ρ c))

theorem W12_out1_keep (c : Dev nD) : W12 m ρ c (Proc.devRef .tc main_v28) = W6 m ρ c (Proc.devRef .tc main_v28) :=
  calc W12 m ρ c (Proc.devRef .tc main_v28)
    _ = W11 m ρ c (Proc.devRef .tc main_v28) := W12_of_ne m ρ c main_v28 (by decide)
    _ = W10 m ρ c (Proc.devRef .tc main_v28) := StableHlo.after_of_forall_not_mem (b := Proc.devRef .tc main_v28) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v28) := W10_of_ne m ρ c main_v28 (by decide)
    _ = W8 m ρ c (Proc.devRef .tc main_v28) := StableHlo.after_of_forall_not_mem (b := Proc.devRef .tc main_v28) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v28) := W8_of_ne m ρ c main_v28 (by decide)
    _ = W6 m ρ c (Proc.devRef .tc main_v28) := StableHlo.after_of_forall_not_mem (b := Proc.devRef .tc main_v28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- At the end of the program the first relation's result array holds the relation's result. -/
theorem W12_out1 (c : Dev nD) : (W12 m ρ c (Proc.devRef .tc main_v28) : S50000x128.Idx → EReal) = Out_1 m c :=
  (W12_out1_keep m ρ c).trans (W6_out m ρ c)

end Cert.KernelIdeal.Fold
end
-- ==== Proof.K4.lean ====
/-
  The second kernel of the second relation (normalise, scale, shift, cut at zero, product with the second weight matrix,
  running column statistics), one grid point at a time: what the body leaves in each of its three outputs' buffers, as
  the body's own arithmetic applied to the point's input blocks and, for the two running rows, to what the point before left.
-/
import proofs.«120853_j16423954940358_2_alg».proof.Proof.Gen.KernelIdeal.Frame
import Idealize.ShloMosaic.Lib.Pipeline.Value
import Idealize.ShloMosaic.Lib.StableHlo.Run
import Idealize.ShloMosaic.Lib.Tactic
set_option maxRecDepth 16384
noncomputable section
namespace Cert.KernelIdeal.Stats4
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
variable {F : FTy → Type} [FloatOps F]

theorem hz : (![0, 0] : Fin 2 → Nat) = fun _ => 0 := funext fun a => by fin_cases a <;> rfl

theorem out_A_6 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 : Vec F S5000x128 .f32) (x1 : Vec F S128x128 .f32) (x2 : Vec F S1x128 .f32) (x3 : Vec F S1x128 .f32) (x4 : Vec F S1x128 .f32) (x5 : Vec F S1x128 .f32) :
    out4_A_6 c i a1 h1 a2 h2 a3 h3 a4 h4 a5 h5 a6 h6 a7 h7 a8 h8 a9 h9 hc x0 x1 x2 x3 x4 x5 = (k4_pay5 x0 x4 x5 x2 x3 x1) := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_A_7 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 : Vec F S5000x128 .f32) (x1 : Vec F S128x128 .f32) (x2 : Vec F S1x128 .f32) (x3 : Vec F S1x128 .f32) (x4 : Vec F S1x128 .f32) (x5 : Vec F S1x128 .f32) :
    out4_A_7 c i a1 h1 a2 h2 a3 h3 a4 h4 a5 h5 a6 h6 a7 h7 a8 h8 a9 h9 hc x0 x1 x2 x3 x4 x5 = k4_pay1 (k4_pay6 (k4_pay3 (F := F))) (k4_pay7 x0 x4 x5 x2 x3 x1) := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_A_8 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 : Vec F S5000x128 .f32) (x1 : Vec F S128x128 .f32) (x2 : Vec F S1x128 .f32) (x3 : Vec F S1x128 .f32) (x4 : Vec F S1x128 .f32) (x5 : Vec F S1x128 .f32) :
    out4_A_8 c i a1 h1 a2 h2 a3 h3 a4 h4 a5 h5 a6 h6 a7 h7 a8 h8 a9 h9 hc x0 x1 x2 x3 x4 x5 = k4_pay2 (k4_pay5 x0 x4 x5 x2 x3 x1) (k4_pay4 (F := F)) := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_B_6 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 : Vec F S5000x128 .f32) (x1 : Vec F S128x128 .f32) (x2 : Vec F S1x128 .f32) (x3 : Vec F S1x128 .f32) (x4 : Vec F S1x128 .f32) (x5 : Vec F S1x128 .f32) (xo7 xo8 : Vec F S1x128 .f32) :
    out4_B_6 c i a1 h1 a2 h2 a3 h3 a4 h4 a5 h5 a6 h6 a7 h7 a8 h8 a9 h9 hc x0 x1 x2 x3 x4 x5 xo7 xo8 = (k4_pay5 x0 x4 x5 x2 x3 x1) := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_B_7 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 : Vec F S5000x128 .f32) (x1 : Vec F S128x128 .f32) (x2 : Vec F S1x128 .f32) (x3 : Vec F S1x128 .f32) (x4 : Vec F S1x128 .f32) (x5 : Vec F S1x128 .f32) (xo7 xo8 : Vec F S1x128 .f32) :
    out4_B_7 c i a1 h1 a2 h2 a3 h3 a4 h4 a5 h5 a6 h6 a7 h7 a8 h8 a9 h9 hc x0 x1 x2 x3 x4 x5 xo7 xo8 = k4_pay1 (k4_pay6 xo7) (k4_pay7 x0 x4 x5 x2 x3 x1) := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem out_B_8 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 : Vec F S5000x128 .f32) (x1 : Vec F S128x128 .f32) (x2 : Vec F S1x128 .f32) (x3 : Vec F S1x128 .f32) (x4 : Vec F S1x128 .f32) (x5 : Vec F S1x128 .f32) (xo7 xo8 : Vec F S1x128 .f32) :
    out4_B_8 c i a1 h1 a2 h2 a3 h3 a4 h4 a5 h5 a6 h6 a7 h7 a8 h8 a9 h9 hc x0 x1 x2 x3 x4 x5 xo7 xo8 = k4_pay2 (k4_pay5 x0 x4 x5 x2 x3 x1) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

end Cert.KernelIdeal.Stats4
end
-- ==== Proof.K3.lean ====
/-
  The first kernel of the second relation (product with the first weight matrix and running column statistics), one grid
  point at a time: what the body leaves in each of its three outputs' buffers, as the body's own arithmetic applied
  to the point's input blocks and, for the two running sums, to what the point before left.
-/
import proofs.«120853_j16423954940358_2_alg».proof.Proof.Gen.KernelIdeal.Frame
import Idealize.ShloMosaic.Lib.Pipeline.Value
import Idealize.ShloMosaic.Lib.StableHlo.Run
import Idealize.ShloMosaic.Lib.Tactic
set_option maxRecDepth 16384
noncomputable section
namespace Cert.KernelIdeal.Stats3
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
variable {F : FTy → Type} [FloatOps F]

theorem hz : (![0, 0] : Fin 2 → Nat) = fun _ => 0 := funext fun a => by fin_cases a <;> rfl

/-- At the first point the body's product block: the product of the summed input blocks with the weights. -/
theorem out_A_3 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S5000x128 .f32) (x2 : Vec F S128x128 .f32) :
    out3_A_3 c i a1 h1 a2 h2 a3 h3 a4 h4 a5 h5 a6 h6 hc x0 x1 x2 = k3_pay3 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

/-- At the first point the running column sums start from the zero row the body has just stored. -/
theorem out_A_4 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S5000x128 .f32) (x2 : Vec F S128x128 .f32) :
    out3_A_4 c i a1 h1 a2 h2 a3 h3 a4 h4 a5 h5 a6 h6 hc x0 x1 x2 = k3_pay4 x0 x1 x2 (k3_pay1 (F := F)) := by
  unfold out3_A_4
  rw [View.read_writes_eq_canon _ _ _ (cover3_A_4 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S128x128) hz, View.ld_unit_zero (S := S1x128) hz]

/-- At the first point the running column sums of squares start from the zero row. -/
theorem out_A_5 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S5000x128 .f32) (x2 : Vec F S128x128 .f32) :
    out3_A_5 c i a1 h1 a2 h2 a3 h3 a4 h4 a5 h5 a6 h6 hc x0 x1 x2 = k3_pay5 x0 x1 x2 (k3_pay2 (F := F)) := by
  unfold out3_A_5
  rw [View.read_writes_eq_canon _ _ _ (cover3_A_5 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S128x128) hz, View.ld_unit_zero (S := S1x128) hz]

/-- At a later point the product block again. -/
theorem out_B_3 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S5000x128 .f32) (x2 : Vec F S128x128 .f32) (xo4 xo5 : Vec F S1x128 .f32) :
    out3_B_3 c i a1 h1 a2 h2 a3 h3 a4 h4 a5 h5 a6 h6 hc x0 x1 x2 xo4 xo5 = k3_pay3 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

/-- At a later point the column sums so far plus this block's column sums. -/
theorem out_B_4 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S5000x128 .f32) (x2 : Vec F S128x128 .f32) (xo4 xo5 : Vec F S1x128 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread, h6.read_unread]

/-- At a later point the column sums of squares so far plus this block's. -/
theorem out_B_5 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S5000x128 .f32) (x2 : Vec F S128x128 .f32) (xo4 xo5 : Vec F S1x128 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread, h6.read_unread]

end Cert.KernelIdeal.Stats3
end
-- ==== Proof.K3v.lean ====
/-
  The first kernel of the second relation, read as values on the extended reals.

  Its grid has ten points; point t takes rows 5000 t … 5000 t + 4999 of two 50000 × 128 arrays, adds them, multiplies
  the sum by a 128 × 128 matrix and writes the 5000 × 128 product block back; two 1 × 128 rows, zeroed at the first point,
  accumulate the blocks' column sums and column sums of squares and are written back after the last point.
  So after the run the product array is the whole product (first array + second array) · matrix, and the two rows hold,
  column by column, the sum and the sum of squares of that product's 50000 rows: the ten partial sums of 5000 rows,
  added in order, are the sum over all rows.
-/
import proofs.«120853_j16423954940358_2_alg».proof.Proof.Gen.KernelIdeal.Frame
import proofs.«120853_j16423954940358_2_alg».proof.Proof.K3
import proofs.«120853_j16423954940358_2_alg».proof.Proof.Algebra
import proofs.«120853_j16423954940358_2_alg».proof.Proof.Spec
import proofs.«120853_j16423954940358_2_alg».proof.Proof.LibPlainDot
import Idealize.ShloMosaic.Lib.ValueIdx
import Idealize.ShloMosaic.Lib.ValueLayout
import Idealize.ShloMosaic.PureOps.Ideal.Laws
import Idealize.ShloMosaic.Lib.Pipeline.Value
import Idealize.ShloMosaic.Lib.StableHlo.Run
import Idealize.ShloMosaic.Lib.Tactic
set_option maxRecDepth 16384
noncomputable section
namespace Cert.KernelIdeal.Stats3
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx
open scoped BigOperators
variable {F : FTy → Type} [FloatOps F]

section AnyFloat
variable (V : (c : Dev nD) → (b : Ref sig .tc) → Buf (Elt F) ((c : Thread nD τ).loc b))

/-- The two running rows after point n: the column sums and the column sums of squares of the product blocks
    of points 0 … n, added in that order onto the zero row. -/
def chain (c : Dev nD) : (n : ℕ) → n < cfg3.N → Vec F S1x128 .f32 × Vec F S1x128 .f32
  | 0, h => (k3_pay4 (iblk3 V c 0 ⟨0, h⟩) (iblk3 V c 1 ⟨0, h⟩) (iblk3 V c 2 ⟨0, h⟩) (k3_pay1 (F := F)), k3_pay5 (iblk3 V c 0 ⟨0, h⟩) (iblk3 V c 1 ⟨0, h⟩) (iblk3 V c 2 ⟨0, h⟩) (k3_pay2 (F := F)))
  | n + 1, h => (k3_pay4 (iblk3 V c 0 ⟨n + 1, h⟩) (iblk3 V c 1 ⟨n + 1, h⟩) (iblk3 V c 2 ⟨n + 1, h⟩) (chain c n (Nat.lt_of_succ_lt h)).1,
                 k3_pay5 (iblk3 V c 0 ⟨n + 1, h⟩) (iblk3 V c 1 ⟨n + 1, h⟩) (iblk3 V c 2 ⟨n + 1, h⟩) (chain c n (Nat.lt_of_succ_lt h)).2)

/-- What the three output buffers hold after point n: that point's product block and the two running rows. -/
theorem outsAt_eq (c : Dev nD) : ∀ (n : ℕ) (h : n < cfg3.N),
    outsAt3 V c n h = (k3_pay3 (iblk3 V c 0 ⟨n, h⟩) (iblk3 V c 1 ⟨n, h⟩) (iblk3 V c 2 ⟨n, h⟩), (chain V c n h).1, (chain V c n h).2)
  | 0, h => by
    rw [outsAt3_A V c ⟨0, h⟩ rfl, out_A_3, out_A_4, out_A_5]
    rfl
  | n + 1, h => by
    have hN : cfg3.N = 10 := N_3
    have hB : ¬(⟨n + 1, h⟩ : Fin cfg3.N).val % 10 = 0 := by dsimp only; omega
    rw [outsAt3_B V c ⟨n + 1, h⟩ hB, out_B_3, out_B_4, out_B_5]
    show (_, k3_pay4 _ _ _ (outsAt3 V c n _).2.1, k3_pay5 _ _ _ (outsAt3 V c n _).2.2) = _
    rw [outsAt_eq c n]
    rfl

end AnyFloat

/-! ## The body's arithmetic at an index, on the extended reals -/

/-- The product block at (r, c): the sum over k of (x0 + x1)(r, k) · x2(k, c). -/
theorem pay3_apply (x0 x1 : FVec Ideal S5000x128 .f32) (x2 : FVec Ideal S128x128 .f32) (r : Fin 5000) (cc : Fin 128) :
    k3_pay3 (F := Ideal) x0 x1 x2 (ix2 r cc) = ∑ k : Fin 128, (x0 (ix2 r k) + x1 (ix2 r k)) * x2 (ix2 k cc) := by
  unfold k3_pay3
  refine (congrFun (Cert.Lib.PlainDot.matmul_truncf_zero_eq_dotGeneral _ none _ _ _ _) (ix2 r cc)).trans ?_
  refine (Cert.Lib.PlainDot.dotGeneral_apply_ix2 dot_S5000x128_S128x128_S5000x128_1_0_0_1_n_n rfl rfl (fun _ _ => rfl) (fun _ _ => rfl) (fun _ _ => rfl) (fun _ _ => rfl) none _ _ r cc).trans ?_
  refine Finset.sum_congr rfl fun k _ => ?_
  exact congrArg (fun z => (x0 (ix2 r k) + z) * x2 (ix2 k cc)) (congrFun (shapeCast_self x1 _) (ix2 r k))

/-- A row made of a vector of 128 entries, at column c. -/
theorem row_of_vec_apply (v : FVec Ideal S128 .f32) (h : S128.ShapeCasts S1x128) (cc : Fin 128) :
    shapeCast S1x128 v h (ix2 0 cc) = v (ix1 cc) :=
  (shapeCast_addUnit_apply ![128] v h (ix2 0 cc)).trans (congrArg v (funext fun a => by match a with | ⟨0, _⟩ => rfl))

/-- The column sums of a 5000 × 128 block, at column c. -/
theorem colsum_apply (p : FVec Ideal S5000x128 .f32) (hr : S5000x128.Reduces [0] S128) (hφ : FKind.Formats FTy.f32)
    (hacc : (0x00000000#32 : BitVec 32) = FKind.add.neutral .f32 hφ) (cc : Fin 128) :
    multiReduction .add [0] S128 p 0x00000000#32 hr hφ hacc (ix1 cc) = ∑ r : Fin 5000, p (ix2 r cc) := by
  refine (Ideal.multiReduction_add_single p 0x00000000#32 hr hφ hacc (ix1 cc)).trans ?_
  refine Finset.sum_congr rfl fun r _ => congrArg p ?_
  funext a
  match a with
  | ⟨0, _⟩ => rfl
  | ⟨1, _⟩ => rfl

/-- The running column sums: what was there plus this block's column sums. -/
theorem pay4_apply (x0 x1 : FVec Ideal S5000x128 .f32) (x2 : FVec Ideal S128x128 .f32) (acc : FVec Ideal S1x128 .f32) (cc : Fin 128) :
    k3_pay4 (F := Ideal) x0 x1 x2 acc (ix2 0 cc) = acc (ix2 0 cc) + ∑ r : Fin 5000, k3_pay3 (F := Ideal) x0 x1 x2 (ix2 r cc) := by
  unfold k3_pay4
  refine (addf_apply _ _ _).trans ?_
  refine congrArg₂ (· + ·) (congrFun (shapeCast_self acc _) _) ?_
  refine (row_of_vec_apply _ _ cc).trans ?_
  exact colsum_apply _ _ _ _ cc

/-- The running column sums of squares. -/
theorem pay5_apply (x0 x1 : FVec Ideal S5000x128 .f32) (x2 : FVec Ideal S128x128 .f32) (acc : FVec Ideal S1x128 .f32) (cc : Fin 128) :
    k3_pay5 (F := Ideal) x0 x1 x2 acc (ix2 0 cc)
      = acc (ix2 0 cc) + ∑ r : Fin 5000, k3_pay3 (F := Ideal) x0 x1 x2 (ix2 r cc) * k3_pay3 (F := Ideal) x0 x1 x2 (ix2 r cc) := by
  unfold k3_pay5
  refine (addf_apply _ _ _).trans ?_
  refine congrArg₂ (· + ·) (congrFun (shapeCast_self acc _) _) ?_
  refine (row_of_vec_apply _ _ cc).trans ?_
  exact colsum_apply _ _ _ _ cc

/-- The zero row. -/
theorem pay1_apply (j : S1x128.Idx) : k3_pay1 (F := Ideal) j = 0 := Cert.Gin.ofBits_zero
theorem pay2_apply (j : S1x128.Idx) : k3_pay2 (F := Ideal) j = 0 := Cert.Gin.ofBits_zero

/-! ## The region's three output arrays after its run -/

section Arrays
variable (V : (c : Dev nD) → (b : Ref sig .tc) → Buf (Elt Ideal) ((c : Thread nD τ).loc b))

/-- The block indices of the six windows at each point: the row-blocked ones move with the point, the others stay. -/
theorem idx_facts : ∀ t : Fin cfg3.N,
    win3_0.index t (0 : Fin 2) = t.val ∧ win3_0.index t (1 : Fin 2) = 0 ∧
    win3_1.index t (0 : Fin 2) = t.val ∧ win3_1.index t (1 : Fin 2) = 0 ∧
    win3_2.index t (0 : Fin 2) = 0 ∧ win3_2.index t (1 : Fin 2) = 0 ∧
    win3_3.index t (0 : Fin 2) = t.val ∧ win3_3.index t (1 : Fin 2) = 0 ∧
    win3_4.index t (0 : Fin 2) = 0 ∧ win3_4.index t (1 : Fin 2) = 0 ∧
    win3_5.index t (0 : Fin 2) = 0 ∧ win3_5.index t (1 : Fin 2) = 0 :=
  (by decide +kernel : ∀ t : Fin grid3.N, _)

abbrev A0 (c : Dev nD) : S50000x128.Idx → EReal := V c main_arg0
abbrev A1 (c : Dev nD) : S50000x128.Idx → EReal := V c main_v38
abbrev A2 (c : Dev nD) : S128x128.Idx → EReal := V c main_arg12

/-- Row r of the first input's block at point t is row 5000 t + r of its array. -/
theorem iblk_0_apply (c : Dev nD) (t : Fin cfg3.N) (r : Fin 5000) (k : Fin 128) (R : Fin 50000) (hR : R.val = 5000 * t.val + r.val) :
    (iblk3 V c 0 t : Vec Ideal S5000x128 .f32) (ix2 r k) = A0 V c (ix2 R k) := by
  unfold iblk3
  rw [View.read_apply]
  show V c main_arg0 _ = V c main_arg0 _
  congr 1
  funext a
  apply Fin.ext
  match a with
  | ⟨0, _⟩ => show win3_0.index t 0 * 5000 + 1 * r.val = R.val; rw [(idx_facts t).1, hR]; omega
  | ⟨1, _⟩ => show win3_0.index t 1 * 128 + 1 * k.val = k.val; rw [(idx_facts t).2.1]; omega

theorem iblk_1_apply (c : Dev nD) (t : Fin cfg3.N) (r : Fin 5000) (k : Fin 128) (R : Fin 50000) (hR : R.val = 5000 * t.val + r.val) :
    (iblk3 V c 1 t : Vec Ideal S5000x128 .f32) (ix2 r k) = A1 V c (ix2 R k) := by
  unfold iblk3
  rw [View.read_apply]
  show V c main_v38 _ = V c main_v38 _
  congr 1
  funext a
  apply Fin.ext
  match a with
  | ⟨0, _⟩ => show win3_1.index t 0 * 5000 + 1 * r.val = R.val; rw [(idx_facts t).2.2.1, hR]; omega
  | ⟨1, _⟩ => show win3_1.index t 1 * 128 + 1 * k.val = k.val; rw [(idx_facts t).2.2.2.1]; omega

theorem iblk_2_apply (c : Dev nD) (t : Fin cfg3.N) (k : Fin 128) (cc : Fin 128) :
    (iblk3 V c 2 t : Vec Ideal S128x128 .f32) (ix2 k cc) = A2 V c (ix2 k cc) := by
  unfold iblk3
  rw [View.read_apply]
  show V c main_arg12 _ = V c main_arg12 _
  congr 1
  funext a
  apply Fin.ext
  match a with
  | ⟨0, _⟩ => show win3_2.index t 0 * 128 + 1 * k.val = k.val; rw [(idx_facts t).2.2.2.2.1]; omega
  | ⟨1, _⟩ => show win3_2.index t 1 * 128 + 1 * cc.val = cc.val; rw [(idx_facts t).2.2.2.2.2.1]; omega

/-- The whole product: (first array + second array) times the third. -/
def prodAll (c : Dev nD) : S50000x128.Idx → EReal :=
  Cert.Gin.lin (fun i => A0 V c i + A1 V c i) (A2 V c)

/-- The product block of point t at (r, c) is the whole product at (5000 t + r, c). -/
theorem prod_apply (c : Dev nD) (t : Fin cfg3.N) (r : Fin 5000) (cc : Fin 128) (R : Fin 50000) (hR : R.val = 5000 * t.val + r.val) :
    k3_pay3 (F := Ideal) (iblk3 V c 0 t) (iblk3 V c 1 t) (iblk3 V c 2 t) (ix2 r cc) = prodAll V c (ix2 R cc) := by
  refine (pay3_apply _ _ _ r cc).trans ?_
  show _ = ∑ k : Fin 128, (A0 V c (ix2 R k) + A1 V c (ix2 R k)) * A2 V c (ix2 k cc)
  refine Finset.sum_congr rfl fun k _ => ?_
  rw [iblk_0_apply V c t r k R hR, iblk_1_apply V c t r k R hR, iblk_2_apply V c t k cc]

end Arrays

section Finals
variable (V : (c : Dev nD) → (b : Ref sig .tc) → Buf (Elt Ideal) ((c : Thread nD τ).loc b))

/-- What point t writes back of the product is block t of the whole product. -/
theorem flushed3_eq (c : Dev nD) (t : Fin cfg3.N) :
    (dat3 V c).flushed 3 t = ((cfg3.win 3).blk t).view.read (Elt Ideal) (prodAll V c) := by
  show (cfg3.win 3).cut (grid3.coords t) ((dat3 V c).after 3 t) = _
  rw [after3_3, outsAt_eq]
  funext j
  obtain ⟨r, cc, rfl⟩ : ∃ (r : Fin 5000) (cc : Fin 128), j = ix2 r cc := ⟨j 0, j 1, eq_ix2 j⟩
  have hN : t.val < 10 := lt_of_lt_of_eq t.isLt (show cfg3.N = 10 from N_3)
  have hR : 5000 * t.val + r.val < 50000 := by have := r.isLt; omega
  show k3_pay3 (F := Ideal) (iblk3 V c 0 t) (iblk3 V c 1 t) (iblk3 V c 2 t) (ix2 r cc) = prodAll V c (((cfg3.win 3).blk t).view.emb (ix2 r cc))
  rw [prod_apply V c t r cc ⟨5000 * t.val + r.val, hR⟩ rfl]
  congr 1
  funext a
  apply Fin.ext
  match a with
  | ⟨0, _⟩ => show 5000 * t.val + r.val = win3_3.index t 0 * 5000 + 1 * r.val; rw [(idx_facts t).2.2.2.2.2.2.1]; omega
  | ⟨1, _⟩ => show cc.val = win3_3.index t 1 * 128 + 1 * cc.val; rw [(idx_facts t).2.2.2.2.2.2.2.1]; omega

/-- An index is in point t's block of the product array iff each coordinate is in the block's range. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v39_0).slice (win3_3.rect t)).set ↔ _
  rw [View.set_slice_whole, Rect.mem_set_unit]
  exact Iff.rfl

/-- The product array after the run is the whole product: row R is written by point R / 5000. -/
theorem final3 (c : Dev nD) : (dat3 V c).arrAt 3 cfg3.N = prodAll V c :=
  (dat3 V c).arrAt_eq_of_cover 3 (prodAll V c) (fun t _ => flushed3_eq V c t) fun i => by
    have hi0 : (i 0).val < 50000 := (i 0).isLt
    have hi1 : (i 1).val < 128 := (i 1).isLt
    have hN : cfg3.N = 10 := N_3
    refine ⟨⟨(i 0).val / 5000, by rw [hN]; omega⟩, flush3_3 _, ?_⟩
    rw [mem_blk3]
    intro a
    match a with
    | ⟨0, _⟩ =>
      show win3_3.index _ 0 * 5000 ≤ (i 0).val ∧ (i 0).val < win3_3.index _ 0 * 5000 + 5000
      rw [(idx_facts _).2.2.2.2.2.2.1]; dsimp only; omega
    | ⟨1, _⟩ =>
      show win3_3.index _ 1 * 128 ≤ (i 1).val ∧ (i 1).val < win3_3.index _ 1 * 128 + 128
      rw [(idx_facts _).2.2.2.2.2.2.2.1]; omega

/-- Column c of the whole product as a sequence, 0 past its 50000 rows. -/
def colAt (c : Dev nD) (cc : Fin 128) (n : ℕ) : EReal := if h : n < 50000 then prodAll V c (ix2 ⟨n, h⟩ cc) else 0

/-- The column sum of point t's product block is the sum of rows 5000 t … 5000 t + 4999 of the column. -/
theorem block_sum (c : Dev nD) (t : Fin cfg3.N) (cc : Fin 128) (f : EReal → EReal) :
    ∑ r : Fin 5000, f (k3_pay3 (F := Ideal) (iblk3 V c 0 t) (iblk3 V c 1 t) (iblk3 V c 2 t) (ix2 r cc)) = ∑ r ∈ Finset.range 5000, f (colAt V c cc (5000 * t.val + r)) := by
  rw [← Fin.sum_univ_eq_sum_range (fun r => f (colAt V c cc (5000 * t.val + r))) 5000]
  refine Finset.sum_congr rfl fun r _ => ?_
  have hN : t.val < 10 := lt_of_lt_of_eq t.isLt (show cfg3.N = 10 from N_3)
  have hR : 5000 * t.val + r.val < 50000 := by have := r.isLt; omega
  rw [prod_apply V c t r cc ⟨5000 * t.val + r.val, hR⟩ rfl]
  unfold colAt
  rw [dif_pos hR]

/-- The running column sums after point n: the sum of the column's first 5000 (n + 1) rows. -/
theorem chain1_apply (c : Dev nD) (cc : Fin 128) : ∀ (n : ℕ) (h : n < cfg3.N),
    (chain V c n h).1 (ix2 0 cc) = ∑ R ∈ Finset.range (5000 * (n + 1)), colAt V c cc R
  | 0, h => by
    show k3_pay4 (F := Ideal) (iblk3 V c 0 ⟨0, h⟩) (iblk3 V c 1 ⟨0, h⟩) (iblk3 V c 2 ⟨0, h⟩) (k3_pay1 (F := Ideal)) (ix2 0 cc) = _
    rw [pay4_apply, pay1_apply, zero_add, block_sum V c ⟨0, h⟩ cc (fun z => z)]
    simp
  | n + 1, h => by
    show k3_pay4 (F := Ideal) (iblk3 V c 0 ⟨n + 1, h⟩) (iblk3 V c 1 ⟨n + 1, h⟩) (iblk3 V c 2 ⟨n + 1, h⟩) (chain V c n _).1 (ix2 0 cc) = _
    rw [pay4_apply, chain1_apply c cc n, block_sum V c ⟨n + 1, h⟩ cc (fun z => z),
      show 5000 * (n + 1 + 1) = 5000 * (n + 1) + 5000 by ring, Finset.sum_range_add]

/-- The running column sums of squares after point n. -/
theorem chain2_apply (c : Dev nD) (cc : Fin 128) : ∀ (n : ℕ) (h : n < cfg3.N),
    (chain V c n h).2 (ix2 0 cc) = ∑ R ∈ Finset.range (5000 * (n + 1)), colAt V c cc R * colAt V c cc R
  | 0, h => by
    show k3_pay5 (F := Ideal) (iblk3 V c 0 ⟨0, h⟩) (iblk3 V c 1 ⟨0, h⟩) (iblk3 V c 2 ⟨0, h⟩) (k3_pay2 (F := Ideal)) (ix2 0 cc) = _
    rw [pay5_apply, pay2_apply, zero_add, block_sum V c ⟨0, h⟩ cc (fun z => z * z)]
    simp
  | n + 1, h => by
    show k3_pay5 (F := Ideal) (iblk3 V c 0 ⟨n + 1, h⟩) (iblk3 V c 1 ⟨n + 1, h⟩) (iblk3 V c 2 ⟨n + 1, h⟩) (chain V c n _).2 (ix2 0 cc) = _
    rw [pay5_apply, chain2_apply c cc n, block_sum V c ⟨n + 1, h⟩ cc (fun z => z * z),
      show 5000 * (n + 1 + 1) = 5000 * (n + 1) + 5000 by ring, Finset.sum_range_add]

/-- The sum of a column's first 50000 terms is the sum over its rows. -/
theorem colAt_sum (c : Dev nD) (cc : Fin 128) (f : EReal → EReal) :
    ∑ R ∈ Finset.range 50000, f (colAt V c cc R) = ∑ R : Fin 50000, f (prodAll V c (ix2 R cc)) := by
  rw [← Fin.sum_univ_eq_sum_range (fun R => f (colAt V c cc R)) 50000]
  refine Finset.sum_congr rfl fun R _ => ?_
  unfold colAt
  rw [dif_pos R.isLt]

theorem nine_lt : 9 < cfg3.N := by rw [show cfg3.N = 10 from N_3]; decide

/-- The two statistics rows after the last point. -/
abbrev res4 (c : Dev nD) : Buf (Elt Ideal) ((c : Thread nD τ).loc main_v39_1) := (chain V c 9 nine_lt).1
abbrev res5 (c : Dev nD) : Buf (Elt Ideal) ((c : Thread nD τ).loc main_v39_2) := (chain V c 9 nine_lt).2

theorem flushed4_eq (c : Dev nD) (t : Fin cfg3.N) (hf : (cfg3.win 4).flush t = true) :
    (dat3 V c).flushed 4 t = ((cfg3.win 4).blk t).view.read (Elt Ideal) (res4 V c) := by
  have hN : cfg3.N = 10 := N_3
  have h9 : t.val = 9 := by have := (flush3_4 t).mp hf; have := t.isLt; omega
  obtain rfl : t = t3_9 := Fin.ext h9
  show (cfg3.win 4).cut (grid3.coords t3_9) ((dat3 V c).after 4 t3_9) = _
  rw [after3_4, outsAt_eq]
  have hz' : (fun a => win3_4.index t3_9 a * main_v39_1.ty.shape.size a) = fun _ => 0 := funext fun a => by fin_cases a <;> decide
  exact (Memref.read_access_unit_zero (Elt Ideal) main_v39_1 hz' (fun a => by rw [congrFun hz' a]; simp) (res4 V c)).symm

theorem flushed5_eq (c : Dev nD) (t : Fin cfg3.N) (hf : (cfg3.win 5).flush t = true) :
    (dat3 V c).flushed 5 t = ((cfg3.win 5).blk t).view.read (Elt Ideal) (res5 V c) := by
  have hN : cfg3.N = 10 := N_3
  have h9 : t.val = 9 := by have := (flush3_5 t).mp hf; have := t.isLt; omega
  obtain rfl : t = t3_9 := Fin.ext h9
  show (cfg3.win 5).cut (grid3.coords t3_9) ((dat3 V c).after 5 t3_9) = _
  rw [after3_5, outsAt_eq]
  have hz' : (fun a => win3_5.index t3_9 a * main_v39_2.ty.shape.size a) = fun _ => 0 := funext fun a => by fin_cases a <;> decide
  exact (Memref.read_access_unit_zero (Elt Ideal) main_v39_2 hz' (fun a => by rw [congrFun hz' a]; simp) (res5 V c)).symm

theorem final4 (c : Dev nD) : (dat3 V c).arrAt 4 cfg3.N = res4 V c :=
  (dat3 V c).arrAt_eq_of_cover 4 (res4 V c) (flushed4_eq V c) fun i =>
    ⟨t3_9, (flush3_4 t3_9).mpr rfl, by
      show i ∈ ((View.whole main_v39_1).slice (win3_4.rect t3_9)).set
      rw [View.set_slice_whole, Rect.mem_set_unit]
      intro a
      have h0 : (i 0 : Nat) < 1 := (i 0).isLt
      have h1 : (i 1 : Nat) < 128 := (i 1).isLt
      match a with
      | ⟨0, _⟩ => show win3_4.index t3_9 0 * win3_4.size 0 ≤ (i 0 : Nat) ∧ (i 0 : Nat) < win3_4.index t3_9 0 * win3_4.size 0 + win3_4.xsize (grid3.coords t3_9) 0
                  rw [show win3_4.index t3_9 0 * win3_4.size 0 = 0 from by decide +kernel, show win3_4.xsize (grid3.coords t3_9) 0 = 1 from by decide +kernel]; omega
      | ⟨1, _⟩ => show win3_4.index t3_9 1 * win3_4.size 1 ≤ (i 1 : Nat) ∧ (i 1 : Nat) < win3_4.index t3_9 1 * win3_4.size 1 + win3_4.xsize (grid3.coords t3_9) 1
                  rw [show win3_4.index t3_9 1 * win3_4.size 1 = 0 from by decide +kernel, show win3_4.xsize (grid3.coords t3_9) 1 = 128 from by decide +kernel]; omega⟩

theorem final5 (c : Dev nD) : (dat3 V c).arrAt 5 cfg3.N = res5 V c :=
  (dat3 V c).arrAt_eq_of_cover 5 (res5 V c) (flushed5_eq V c) fun i =>
    ⟨t3_9, (flush3_5 t3_9).mpr rfl, by
      show i ∈ ((View.whole main_v39_2).slice (win3_5.rect t3_9)).set
      rw [View.set_slice_whole, Rect.mem_set_unit]
      intro a
      have h0 : (i 0 : Nat) < 1 := (i 0).isLt
      have h1 : (i 1 : Nat) < 128 := (i 1).isLt
      match a with
      | ⟨0, _⟩ => show win3_5.index t3_9 0 * win3_5.size 0 ≤ (i 0 : Nat) ∧ (i 0 : Nat) < win3_5.index t3_9 0 * win3_5.size 0 + win3_5.xsize (grid3.coords t3_9) 0
                  rw [show win3_5.index t3_9 0 * win3_5.size 0 = 0 from by decide +kernel, show win3_5.xsize (grid3.coords t3_9) 0 = 1 from by decide +kernel]; omega
      | ⟨1, _⟩ => show win3_5.index t3_9 1 * win3_5.size 1 ≤ (i 1 : Nat) ∧ (i 1 : Nat) < win3_5.index t3_9 1 * win3_5.size 1 + win3_5.xsize (grid3.coords t3_9) 1
                  rw [show win3_5.index t3_9 1 * win3_5.size 1 = 0 from by decide +kernel, show win3_5.xsize (grid3.coords t3_9) 1 = 128 from by decide +kernel]; omega⟩

/-- The column-sums row after the run, at column c: the sum of the whole product's column c. -/
theorem final4_apply (c : Dev nD) (cc : Fin 128) :
    ((dat3 V c).arrAt 4 cfg3.N : S1x128.Idx → EReal) (ix2 0 cc) = ∑ R : Fin 50000, prodAll V c (ix2 R cc) := by
  rw [final4]
  exact (chain1_apply V c cc 9 nine_lt).trans (colAt_sum V c cc id)

/-- The column-sums-of-squares row after the run. -/
theorem final5_apply (c : Dev nD) (cc : Fin 128) :
    ((dat3 V c).arrAt 5 cfg3.N : S1x128.Idx → EReal) (ix2 0 cc) = ∑ R : Fin 50000, prodAll V c (ix2 R cc) * prodAll V c (ix2 R cc) := by
  rw [final5]
  exact (chain2_apply V c cc 9 nine_lt).trans (colAt_sum V c cc (fun z => z * z))

end Finals

end Cert.KernelIdeal.Stats3
end
-- ==== Proof.K4v.lean ====
/-
  The second kernel of the second relation, read as values on the extended reals.

  Point t of its ten takes rows 5000 t … 5000 t + 4999 of the first product, normalises every entry with its column's
  mean and variance (two 1 × 128 rows), scales and shifts it by two more rows, cuts it below at zero, multiplies the block
  by a 128 × 128 matrix and writes the product block back; two 1 × 128 rows, zeroed at the first point, accumulate the
  blocks' column sums and column sums of squares and are written back after the last point.  After the run the product
  array is the whole activated matrix times the weights, and the two rows hold the sums and sums of squares of that
  product's columns.
-/
import proofs.«120853_j16423954940358_2_alg».proof.Proof.Gen.KernelIdeal.Frame
import proofs.«120853_j16423954940358_2_alg».proof.Proof.K4
import proofs.«120853_j16423954940358_2_alg».proof.Proof.K3v
import proofs.«120853_j16423954940358_2_alg».proof.Proof.Algebra
import proofs.«120853_j16423954940358_2_alg».proof.Proof.Spec
import proofs.«120853_j16423954940358_2_alg».proof.Proof.LibPlainDot
import Idealize.ShloMosaic.Lib.ValueIdx
import Idealize.ShloMosaic.Lib.ValueLayout
import Idealize.ShloMosaic.PureOps.Ideal.Laws
import Idealize.ShloMosaic.Lib.Pipeline.Value
import Idealize.ShloMosaic.Lib.StableHlo.Run
import Idealize.ShloMosaic.Lib.Tactic
set_option maxRecDepth 16384
noncomputable section
namespace Cert.KernelIdeal.Stats4
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx
open scoped BigOperators
variable {F : FTy → Type} [FloatOps F]

section AnyFloat
variable (V : (c : Dev nD) → (b : Ref sig .tc) → Buf (Elt F) ((c : Thread nD τ).loc b))

/-- The two running rows after point n: column sums and column sums of squares of the product blocks of points 0 … n. -/
def chain (c : Dev nD) : (n : ℕ) → n < cfg4.N → Vec F S1x128 .f32 × Vec F S1x128 .f32
  | 0, h => (k4_pay1 (k4_pay6 (k4_pay3 (F := F))) (k4_pay7 (iblk4 V c 0 ⟨0, h⟩) (iblk4 V c 4 ⟨0, h⟩) (iblk4 V c 5 ⟨0, h⟩) (iblk4 V c 2 ⟨0, h⟩) (iblk4 V c 3 ⟨0, h⟩) (iblk4 V c 1 ⟨0, h⟩)), k4_pay2 (k4_pay5 (iblk4 V c 0 ⟨0, h⟩) (iblk4 V c 4 ⟨0, h⟩) (iblk4 V c 5 ⟨0, h⟩) (iblk4 V c 2 ⟨0, h⟩) (iblk4 V c 3 ⟨0, h⟩) (iblk4 V c 1 ⟨0, h⟩)) (k4_pay4 (F := F)))
  | n + 1, h => (k4_pay1 (k4_pay6 (chain c n (Nat.lt_of_succ_lt h)).1) (k4_pay7 (iblk4 V c 0 ⟨n + 1, h⟩) (iblk4 V c 4 ⟨n + 1, h⟩) (iblk4 V c 5 ⟨n + 1, h⟩) (iblk4 V c 2 ⟨n + 1, h⟩) (iblk4 V c 3 ⟨n + 1, h⟩) (iblk4 V c 1 ⟨n + 1, h⟩)),
                 k4_pay2 (k4_pay5 (iblk4 V c 0 ⟨n + 1, h⟩) (iblk4 V c 4 ⟨n + 1, h⟩) (iblk4 V c 5 ⟨n + 1, h⟩) (iblk4 V c 2 ⟨n + 1, h⟩) (iblk4 V c 3 ⟨n + 1, h⟩) (iblk4 V c 1 ⟨n + 1, h⟩)) (chain c n (Nat.lt_of_succ_lt h)).2)

/-- What the three output buffers hold after point n. -/
theorem outsAt_eq (c : Dev nD) : ∀ (n : ℕ) (h : n < cfg4.N),
    outsAt4 V c n h = (k4_pay5 (iblk4 V c 0 ⟨n, h⟩) (iblk4 V c 4 ⟨n, h⟩) (iblk4 V c 5 ⟨n, h⟩) (iblk4 V c 2 ⟨n, h⟩) (iblk4 V c 3 ⟨n, h⟩) (iblk4 V c 1 ⟨n, h⟩), (chain V c n h).1, (chain V c n h).2)
  | 0, h => by
    rw [outsAt4_A V c ⟨0, h⟩ rfl, out_A_6, out_A_7, out_A_8]
    rfl
  | n + 1, h => by
    have hN : cfg4.N = 10 := N_4
    have hB : ¬(⟨n + 1, h⟩ : Fin cfg4.N).val % 10 = 0 := by dsimp only; omega
    rw [outsAt4_B V c ⟨n + 1, h⟩ hB, out_B_6, out_B_7, out_B_8]
    show (_, k4_pay1 (k4_pay6 (outsAt4 V c n _).2.1) _, k4_pay2 _ (outsAt4 V c n _).2.2) = _
    rw [outsAt_eq c n]
    rfl

end AnyFloat

/-! ## The body's arithmetic at an index, on the extended reals -/

/-- A 1 × 128 row repeated along the 5000 rows of a block, at (r, k). -/
theorem bcastRow_apply (v : FVec Ideal S1x128 .f32) (hb : S1x128.Broadcasts S5000x128) (r : Fin 5000) (k : Fin 128) :
    broadcastTo S5000x128 v hb (ix2 r k) = v (ix2 0 k) :=
  broadcastTo_apply v hb (ix2 r k) (ix2 0 k) (fun a => by
    match a with
    | ⟨0, _⟩ => exact (if_pos rfl).symm
    | ⟨1, _⟩ => show k.val = if (128 : ℕ) = 1 then 0 else k.val; simp)

/-- An entry normalised with its column's mean m and variance v, scaled by g, shifted by b, cut below at 0. -/
def actAt (x m v g b : EReal) : EReal := max ((x - m) * Ideal.rsqrt (v + Ideal.ofBits .f32 0x3727C5AC#32) * g + b) 0

/-- The product block at (r, c): the sum over k of the activated entry (r, k) times w(k, c). -/
theorem pay5_apply (x : FVec Ideal S5000x128 .f32) (m v g b : FVec Ideal S1x128 .f32) (w : FVec Ideal S128x128 .f32) (r : Fin 5000) (cc : Fin 128) :
    k4_pay5 (F := Ideal) x m v g b w (ix2 r cc)
      = ∑ k : Fin 128, actAt (x (ix2 r k)) (m (ix2 0 k)) (v (ix2 0 k)) (g (ix2 0 k)) (b (ix2 0 k)) * w (ix2 k cc) := by
  unfold k4_pay5
  refine (congrFun (Cert.Lib.PlainDot.matmul_truncf_zero_eq_dotGeneral _ none _ _ _ _) (ix2 r cc)).trans ?_
  refine (Cert.Lib.PlainDot.dotGeneral_apply_ix2 dot_S5000x128_S128x128_S5000x128_1_0_0_1_n_n rfl rfl (fun _ _ => rfl) (fun _ _ => rfl) (fun _ _ => rfl) (fun _ _ => rfl) none _ _ r cc).trans ?_
  refine Finset.sum_congr rfl fun k _ => congrArg (· * w (ix2 k cc)) ?_
  unfold actAt
  simp only [maximumf_apply, addf_apply, mulf_apply, subf_apply, bcastRow_apply, shapeCast_self, broadcast_apply]
  rw [show FloatOps.ofBits (F := Ideal) .f32 0x00000000#32 = (0 : EReal) from Cert.Gin.ofBits_zero]
  rfl

/-- The running column sums: what was there plus this block's column sums. -/
theorem pay1_apply (p : FVec Ideal S5000x128 .f32) (acc : FVec Ideal S1x128 .f32) (cc : Fin 128)
    (x : FVec Ideal S5000x128 .f32) (m v g b : FVec Ideal S1x128 .f32) (w : FVec Ideal S128x128 .f32) :
    k4_pay1 (F := Ideal) (k4_pay6 acc) (k4_pay7 x m v g b w) (ix2 0 cc)
      = acc (ix2 0 cc) + ∑ r : Fin 5000, k4_pay5 (F := Ideal) x m v g b w (ix2 r cc) := by
  unfold k4_pay1 k4_pay6 k4_pay7
  refine (addf_apply _ _ _).trans ?_
  refine congrArg₂ (· + ·) (congrFun (shapeCast_self acc _) _) ?_
  refine (Cert.KernelIdeal.Stats3.row_of_vec_apply _ _ cc).trans ?_
  exact Cert.KernelIdeal.Stats3.colsum_apply _ _ _ _ cc

/-- The running column sums of squares. -/
theorem pay2_apply (p : FVec Ideal S5000x128 .f32) (acc : FVec Ideal S1x128 .f32) (cc : Fin 128) :
    k4_pay2 (F := Ideal) p acc (ix2 0 cc) = acc (ix2 0 cc) + ∑ r : Fin 5000, p (ix2 r cc) * p (ix2 r cc) := by
  unfold k4_pay2
  refine (addf_apply _ _ _).trans ?_
  refine congrArg₂ (· + ·) (congrFun (shapeCast_self acc _) _) ?_
  refine (Cert.KernelIdeal.Stats3.row_of_vec_apply _ _ cc).trans ?_
  exact Cert.KernelIdeal.Stats3.colsum_apply _ _ _ _ cc

theorem pay3_apply (j : S1x128.Idx) : k4_pay3 (F := Ideal) j = 0 := Cert.Gin.ofBits_zero
theorem pay4_apply (j : S1x128.Idx) : k4_pay4 (F := Ideal) j = 0 := Cert.Gin.ofBits_zero

/-! ## The region's three output arrays after its run -/

section Arrays
variable (V : (c : Dev nD) → (b : Ref sig .tc) → Buf (Elt Ideal) ((c : Thread nD τ).loc b))

/-- The block indices of the nine windows at each point: the two row-blocked ones move with the point, the others stay. -/
theorem idx_facts : ∀ t : Fin cfg4.N,
    win4_0.index t (0 : Fin 2) = t.val ∧
    win4_0.index t (1 : Fin 2) = 0 ∧
    win4_1.index t (0 : Fin 2) = 0 ∧
    win4_1.index t (1 : Fin 2) = 0 ∧
    win4_2.index t (0 : Fin 2) = 0 ∧
    win4_2.index t (1 : Fin 2) = 0 ∧
    win4_3.index t (0 : Fin 2) = 0 ∧
    win4_3.index t (1 : Fin 2) = 0 ∧
    win4_4.index t (0 : Fin 2) = 0 ∧
    win4_4.index t (1 : Fin 2) = 0 ∧
    win4_5.index t (0 : Fin 2) = 0 ∧
    win4_5.index t (1 : Fin 2) = 0 ∧
    win4_6.index t (0 : Fin 2) = t.val ∧
    win4_6.index t (1 : Fin 2) = 0 ∧
    win4_7.index t (0 : Fin 2) = 0 ∧
    win4_7.index t (1 : Fin 2) = 0 ∧
    win4_8.index t (0 : Fin 2) = 0 ∧
    win4_8.index t (1 : Fin 2) = 0 :=
  (by decide +kernel : ∀ t : Fin grid4.N, _)

theorem iblk_0_apply (c : Dev nD) (t : Fin cfg4.N) (r : Fin 5000) (k : Fin 128) (R : Fin 50000) (hR : R.val = 5000 * t.val + r.val) :
    (iblk4 V c 0 t : Vec Ideal S5000x128 .f32) (ix2 r k) = (V c main_v39_0 : S50000x128.Idx → EReal) (ix2 R k) := by
  unfold iblk4
  rw [View.read_apply]
  show V c main_v39_0 _ = V c main_v39_0 _
  congr 1
  funext a
  apply Fin.ext
  match a with
  | ⟨0, _⟩ => show win4_0.index t 0 * 5000 + 1 * r.val = R.val; rw [(idx_facts t).1, hR]; omega
  | ⟨1, _⟩ => show win4_0.index t 1 * 128 + 1 * k.val = k.val; rw [(idx_facts t).2.1]; omega

theorem iblk_1_apply (c : Dev nD) (t : Fin cfg4.N) (r : Fin 128) (k : Fin 128) :
    (iblk4 V c 1 t : Vec Ideal S128x128 .f32) (ix2 r k) = (V c main_arg13 : S128x128.Idx → EReal) (ix2 r k) := by
  unfold iblk4
  rw [View.read_apply]
  show V c main_arg13 _ = V c main_arg13 _
  congr 1
  funext a
  apply Fin.ext
  match a with
  | ⟨0, _⟩ => show win4_1.index t 0 * 128 + 1 * r.val = r.val; rw [(idx_facts t).2.2.1]; omega
  | ⟨1, _⟩ => show win4_1.index t 1 * 128 + 1 * k.val = k.val; rw [(idx_facts t).2.2.2.1]; omega

theorem iblk_2_apply (c : Dev nD) (t : Fin cfg4.N) (r : Fin 1) (k : Fin 128) :
    (iblk4 V c 2 t : Vec Ideal S1x128 .f32) (ix2 r k) = (V c main_v46 : S1x128.Idx → EReal) (ix2 r k) := by
  unfold iblk4
  rw [View.read_apply]
  show V c main_v46 _ = V c main_v46 _
  congr 1
  funext a
  apply Fin.ext
  match a with
  | ⟨0, _⟩ => show win4_2.index t 0 * 1 + 1 * r.val = r.val; rw [(idx_facts t).2.2.2.2.1]; omega
  | ⟨1, _⟩ => show win4_2.index t 1 * 128 + 1 * k.val = k.val; rw [(idx_facts t).2.2.2.2.2.1]; omega

theorem iblk_3_apply (c : Dev nD) (t : Fin cfg4.N) (r : Fin 1) (k : Fin 128) :
    (iblk4 V c 3 t : Vec Ideal S1x128 .f32) (ix2 r k) = (V c main_v47 : S1x128.Idx → EReal) (ix2 r k) := by
  unfold iblk4
  rw [View.read_apply]
  show V c main_v47 _ = V c main_v47 _
  congr 1
  funext a
  apply Fin.ext
  match a with
  | ⟨0, _⟩ => show win4_3.index t 0 * 1 + 1 * r.val = r.val; rw [(idx_facts t).2.2.2.2.2.2.1]; omega
  | ⟨1, _⟩ => show win4_3.index t 1 * 128 + 1 * k.val = k.val; rw [(idx_facts t).2.2.2.2.2.2.2.1]; omega

theorem iblk_4_apply (c : Dev nD) (t : Fin cfg4.N) (r : Fin 1) (k : Fin 128) :
    (iblk4 V c 4 t : Vec Ideal S1x128 .f32) (ix2 r k) = (V c main_v41 : S1x128.Idx → EReal) (ix2 r k) := by
  unfold iblk4
  rw [View.read_apply]
  show V c main_v41 _ = V c main_v41 _
  congr 1
  funext a
  apply Fin.ext
  match a with
  | ⟨0, _⟩ => show win4_4.index t 0 * 1 + 1 * r.val = r.val; rw [(idx_facts t).2.2.2.2.2.2.2.2.1]; omega
  | ⟨1, _⟩ => show win4_4.index t 1 * 128 + 1 * k.val = k.val; rw [(idx_facts t).2.2.2.2.2.2.2.2.2.1]; omega

theorem iblk_5_apply (c : Dev nD) (t : Fin cfg4.N) (r : Fin 1) (k : Fin 128) :
    (iblk4 V c 5 t : Vec Ideal S1x128 .f32) (ix2 r k) = (V c main_v45 : S1x128.Idx → EReal) (ix2 r k) := by
  unfold iblk4
  rw [View.read_apply]
  show V c main_v45 _ = V c main_v45 _
  congr 1
  funext a
  apply Fin.ext
  match a with
  | ⟨0, _⟩ => show win4_5.index t 0 * 1 + 1 * r.val = r.val; rw [(idx_facts t).2.2.2.2.2.2.2.2.2.2.1]; omega
  | ⟨1, _⟩ => show win4_5.index t 1 * 128 + 1 * k.val = k.val; rw [(idx_facts t).2.2.2.2.2.2.2.2.2.2.2.1]; omega

/-- The activated matrix: every entry of the first array normalised with its column's mean and variance rows,
    scaled, shifted, cut below at zero. -/
def actAll (c : Dev nD) : S50000x128.Idx → EReal := fun i =>
  actAt ((V c main_v39_0 : S50000x128.Idx → EReal) i) ((V c main_v41 : S1x128.Idx → EReal) (ix2 0 (i 1)))
    ((V c main_v45 : S1x128.Idx → EReal) (ix2 0 (i 1))) ((V c main_v46 : S1x128.Idx → EReal) (ix2 0 (i 1)))
    ((V c main_v47 : S1x128.Idx → EReal) (ix2 0 (i 1)))

/-- The whole product: the activated matrix times the weights. -/
def prodAll (c : Dev nD) : S50000x128.Idx → EReal := Cert.Gin.lin (actAll V c) (V c main_arg13 : S128x128.Idx → EReal)

/-- The product block of point t at (r, c) is the whole product at (5000 t + r, c). -/
theorem prod_apply (c : Dev nD) (t : Fin cfg4.N) (r : Fin 5000) (cc : Fin 128) (R : Fin 50000) (hR : R.val = 5000 * t.val + r.val) :
    k4_pay5 (F := Ideal) (iblk4 V c 0 t) (iblk4 V c 4 t) (iblk4 V c 5 t) (iblk4 V c 2 t) (iblk4 V c 3 t) (iblk4 V c 1 t) (ix2 r cc) = prodAll V c (ix2 R cc) := by
  refine (pay5_apply _ _ _ _ _ _ r cc).trans ?_
  show _ = ∑ k : Fin 128, actAll V c (ix2 R k) * (V c main_arg13 : S128x128.Idx → EReal) (ix2 k cc)
  refine Finset.sum_congr rfl fun k _ => ?_
  rw [iblk_0_apply V c t r k R hR, iblk_4_apply V c t 0 k, iblk_5_apply V c t 0 k, iblk_2_apply V c t 0 k, iblk_3_apply V c t 0 k,
    iblk_1_apply V c t k cc]
  rfl

end Arrays

section Finals
variable (V : (c : Dev nD) → (b : Ref sig .tc) → Buf (Elt Ideal) ((c : Thread nD τ).loc b))

/-- What point t writes back of the product is block t of the whole product. -/
theorem flushed6_eq (c : Dev nD) (t : Fin cfg4.N) :
    (dat4 V c).flushed 6 t = ((cfg4.win 6).blk t).view.read (Elt Ideal) (prodAll V c) := by
  show (cfg4.win 6).cut (grid4.coords t) ((dat4 V c).after 6 t) = _
  rw [after4_6, outsAt_eq]
  funext j
  obtain ⟨r, cc, rfl⟩ : ∃ (r : Fin 5000) (cc : Fin 128), j = ix2 r cc := ⟨j 0, j 1, eq_ix2 j⟩
  have hN : t.val < 10 := lt_of_lt_of_eq t.isLt (show cfg4.N = 10 from N_4)
  have hR : 5000 * t.val + r.val < 50000 := by have := r.isLt; omega
  show k4_pay5 (F := Ideal) (iblk4 V c 0 t) (iblk4 V c 4 t) (iblk4 V c 5 t) (iblk4 V c 2 t) (iblk4 V c 3 t) (iblk4 V c 1 t) (ix2 r cc) = prodAll V c (((cfg4.win 6).blk t).view.emb (ix2 r cc))
  rw [prod_apply V c t r cc ⟨5000 * t.val + r.val, hR⟩ rfl]
  congr 1
  funext a
  apply Fin.ext
  match a with
  | ⟨0, _⟩ => show 5000 * t.val + r.val = win4_6.index t 0 * 5000 + 1 * r.val; rw [(idx_facts t).2.2.2.2.2.2.2.2.2.2.2.2.1]; omega
  | ⟨1, _⟩ => show cc.val = win4_6.index t 1 * 128 + 1 * cc.val; rw [(idx_facts t).2.2.2.2.2.2.2.2.2.2.2.2.2.1]; omega

theorem mem_blk6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v48_0).slice (win4_6.rect t)).set ↔ _
  rw [View.set_slice_whole, Rect.mem_set_unit]
  exact Iff.rfl

/-- The product array after the run is the whole product: row R is written by point R / 5000. -/
theorem final6 (c : Dev nD) : (dat4 V c).arrAt 6 cfg4.N = prodAll V c :=
  (dat4 V c).arrAt_eq_of_cover 6 (prodAll V c) (fun t _ => flushed6_eq V c t) fun i => by
    have hi0 : (i 0).val < 50000 := (i 0).isLt
    have hi1 : (i 1).val < 128 := (i 1).isLt
    have hN : cfg4.N = 10 := N_4
    refine ⟨⟨(i 0).val / 5000, by rw [hN]; omega⟩, flush4_6 _, ?_⟩
    rw [mem_blk6]
    intro a
    match a with
    | ⟨0, _⟩ =>
      show win4_6.index _ 0 * 5000 ≤ (i 0).val ∧ (i 0).val < win4_6.index _ 0 * 5000 + 5000
      rw [(idx_facts _).2.2.2.2.2.2.2.2.2.2.2.2.1]; dsimp only; omega
    | ⟨1, _⟩ =>
      show win4_6.index _ 1 * 128 ≤ (i 1).val ∧ (i 1).val < win4_6.index _ 1 * 128 + 128
      rw [(idx_facts _).2.2.2.2.2.2.2.2.2.2.2.2.2.1]; omega

/-- Column c of the whole product as a sequence, 0 past its 50000 rows. -/
def colAt (c : Dev nD) (cc : Fin 128) (n : ℕ) : EReal := if h : n < 50000 then prodAll V c (ix2 ⟨n, h⟩ cc) else 0

theorem block_sum (c : Dev nD) (t : Fin cfg4.N) (cc : Fin 128) (f : EReal → EReal) :
    ∑ r : Fin 5000, f (k4_pay5 (F := Ideal) (iblk4 V c 0 t) (iblk4 V c 4 t) (iblk4 V c 5 t) (iblk4 V c 2 t) (iblk4 V c 3 t) (iblk4 V c 1 t) (ix2 r cc)) = ∑ r ∈ Finset.range 5000, f (colAt V c cc (5000 * t.val + r)) := by
  rw [← Fin.sum_univ_eq_sum_range (fun r => f (colAt V c cc (5000 * t.val + r))) 5000]
  refine Finset.sum_congr rfl fun r _ => ?_
  have hN : t.val < 10 := lt_of_lt_of_eq t.isLt (show cfg4.N = 10 from N_4)
  have hR : 5000 * t.val + r.val < 50000 := by have := r.isLt; omega
  rw [prod_apply V c t r cc ⟨5000 * t.val + r.val, hR⟩ rfl]
  unfold colAt
  rw [dif_pos hR]

theorem chain1_apply (c : Dev nD) (cc : Fin 128) : ∀ (n : ℕ) (h : n < cfg4.N),
    (chain V c n h).1 (ix2 0 cc) = ∑ R ∈ Finset.range (5000 * (n + 1)), colAt V c cc R
  | 0, h => by
    show k4_pay1 (F := Ideal) (k4_pay6 (k4_pay3 (F := Ideal))) (k4_pay7 (iblk4 V c 0 ⟨0, h⟩) (iblk4 V c 4 ⟨0, h⟩) (iblk4 V c 5 ⟨0, h⟩) (iblk4 V c 2 ⟨0, h⟩) (iblk4 V c 3 ⟨0, h⟩) (iblk4 V c 1 ⟨0, h⟩)) (ix2 0 cc) = _
    rw [pay1_apply (k4_pay5 (iblk4 V c 0 ⟨0, h⟩) (iblk4 V c 4 ⟨0, h⟩) (iblk4 V c 5 ⟨0, h⟩) (iblk4 V c 2 ⟨0, h⟩) (iblk4 V c 3 ⟨0, h⟩) (iblk4 V c 1 ⟨0, h⟩)), pay3_apply, zero_add, block_sum V c ⟨0, h⟩ cc (fun z => z)]
    simp
  | n + 1, h => by
    show k4_pay1 (F := Ideal) (k4_pay6 (chain V c n _).1) (k4_pay7 (iblk4 V c 0 ⟨n + 1, h⟩) (iblk4 V c 4 ⟨n + 1, h⟩) (iblk4 V c 5 ⟨n + 1, h⟩) (iblk4 V c 2 ⟨n + 1, h⟩) (iblk4 V c 3 ⟨n + 1, h⟩) (iblk4 V c 1 ⟨n + 1, h⟩)) (ix2 0 cc) = _
    rw [pay1_apply (k4_pay5 (iblk4 V c 0 ⟨n + 1, h⟩) (iblk4 V c 4 ⟨n + 1, h⟩) (iblk4 V c 5 ⟨n + 1, h⟩) (iblk4 V c 2 ⟨n + 1, h⟩) (iblk4 V c 3 ⟨n + 1, h⟩) (iblk4 V c 1 ⟨n + 1, h⟩)), chain1_apply c cc n, block_sum V c ⟨n + 1, h⟩ cc (fun z => z),
      show 5000 * (n + 1 + 1) = 5000 * (n + 1) + 5000 by ring, Finset.sum_range_add]

theorem chain2_apply (c : Dev nD) (cc : Fin 128) : ∀ (n : ℕ) (h : n < cfg4.N),
    (chain V c n h).2 (ix2 0 cc) = ∑ R ∈ Finset.range (5000 * (n + 1)), colAt V c cc R * colAt V c cc R
  | 0, h => by
    show k4_pay2 (F := Ideal) (k4_pay5 (iblk4 V c 0 ⟨0, h⟩) (iblk4 V c 4 ⟨0, h⟩) (iblk4 V c 5 ⟨0, h⟩) (iblk4 V c 2 ⟨0, h⟩) (iblk4 V c 3 ⟨0, h⟩) (iblk4 V c 1 ⟨0, h⟩)) (k4_pay4 (F := Ideal)) (ix2 0 cc) = _
    rw [pay2_apply, pay4_apply, zero_add, block_sum V c ⟨0, h⟩ cc (fun z => z * z)]
    simp
  | n + 1, h => by
    show k4_pay2 (F := Ideal) (k4_pay5 (iblk4 V c 0 ⟨n + 1, h⟩) (iblk4 V c 4 ⟨n + 1, h⟩) (iblk4 V c 5 ⟨n + 1, h⟩) (iblk4 V c 2 ⟨n + 1, h⟩) (iblk4 V c 3 ⟨n + 1, h⟩) (iblk4 V c 1 ⟨n + 1, h⟩)) (chain V c n _).2 (ix2 0 cc) = _
    rw [pay2_apply, chain2_apply c cc n, block_sum V c ⟨n + 1, h⟩ cc (fun z => z * z),
      show 5000 * (n + 1 + 1) = 5000 * (n + 1) + 5000 by ring, Finset.sum_range_add]

theorem colAt_sum (c : Dev nD) (cc : Fin 128) (f : EReal → EReal) :
    ∑ R ∈ Finset.range 50000, f (colAt V c cc R) = ∑ R : Fin 50000, f (prodAll V c (ix2 R cc)) := by
  rw [← Fin.sum_univ_eq_sum_range (fun R => f (colAt V c cc R)) 50000]
  refine Finset.sum_congr rfl fun R _ => ?_
  unfold colAt
  rw [dif_pos R.isLt]

theorem nine_lt : 9 < cfg4.N := by rw [show cfg4.N = 10 from N_4]; decide

abbrev res7 (c : Dev nD) : Buf (Elt Ideal) ((c : Thread nD τ).loc main_v48_1) := (chain V c 9 nine_lt).1
abbrev res8 (c : Dev nD) : Buf (Elt Ideal) ((c : Thread nD τ).loc main_v48_2) := (chain V c 9 nine_lt).2

theorem flushed7_eq (c : Dev nD) (t : Fin cfg4.N) (hf : (cfg4.win 7).flush t = true) :
    (dat4 V c).flushed 7 t = ((cfg4.win 7).blk t).view.read (Elt Ideal) (res7 V c) := by
  have hN : cfg4.N = 10 := N_4
  have h9 : t.val = 9 := by have := (flush4_7 t).mp hf; have := t.isLt; omega
  obtain rfl : t = t4_9 := Fin.ext h9
  show (cfg4.win 7).cut (grid4.coords t4_9) ((dat4 V c).after 7 t4_9) = _
  rw [after4_7, outsAt_eq]
  have hz' : (fun a => win4_7.index t4_9 a * main_v48_1.ty.shape.size a) = fun _ => 0 := funext fun a => by fin_cases a <;> decide
  exact (Memref.read_access_unit_zero (Elt Ideal) main_v48_1 hz' (fun a => by rw [congrFun hz' a]; simp) (res7 V c)).symm

theorem final7 (c : Dev nD) : (dat4 V c).arrAt 7 cfg4.N = res7 V c :=
  (dat4 V c).arrAt_eq_of_cover 7 (res7 V c) (flushed7_eq V c) fun i =>
    ⟨t4_9, (flush4_7 t4_9).mpr rfl, by
      show i ∈ ((View.whole main_v48_1).slice (win4_7.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_7.index t4_9 0 * win4_7.size 0 ≤ (i 0 : Nat) ∧ (i 0 : Nat) < win4_7.index t4_9 0 * win4_7.size 0 + win4_7.xsize (grid4.coords t4_9) 0
                  rw [show win4_7.index t4_9 0 * win4_7.size 0 = 0 from by decide +kernel, show win4_7.xsize (grid4.coords t4_9) 0 = 1 from by decide +kernel]; omega
      | ⟨1, _⟩ => show win4_7.index t4_9 1 * win4_7.size 1 ≤ (i 1 : Nat) ∧ (i 1 : Nat) < win4_7.index t4_9 1 * win4_7.size 1 + win4_7.xsize (grid4.coords t4_9) 1
                  rw [show win4_7.index t4_9 1 * win4_7.size 1 = 0 from by decide +kernel, show win4_7.xsize (grid4.coords t4_9) 1 = 128 from by decide +kernel]; omega⟩

theorem flushed8_eq (c : Dev nD) (t : Fin cfg4.N) (hf : (cfg4.win 8).flush t = true) :
    (dat4 V c).flushed 8 t = ((cfg4.win 8).blk t).view.read (Elt Ideal) (res8 V c) := by
  have hN : cfg4.N = 10 := N_4
  have h9 : t.val = 9 := by have := (flush4_8 t).mp hf; have := t.isLt; omega
  obtain rfl : t = t4_9 := Fin.ext h9
  show (cfg4.win 8).cut (grid4.coords t4_9) ((dat4 V c).after 8 t4_9) = _
  rw [after4_8, outsAt_eq]
  have hz' : (fun a => win4_8.index t4_9 a * main_v48_2.ty.shape.size a) = fun _ => 0 := funext fun a => by fin_cases a <;> decide
  exact (Memref.read_access_unit_zero (Elt Ideal) main_v48_2 hz' (fun a => by rw [congrFun hz' a]; simp) (res8 V c)).symm

theorem final8 (c : Dev nD) : (dat4 V c).arrAt 8 cfg4.N = res8 V c :=
  (dat4 V c).arrAt_eq_of_cover 8 (res8 V c) (flushed8_eq V c) fun i =>
    ⟨t4_9, (flush4_8 t4_9).mpr rfl, by
      show i ∈ ((View.whole main_v48_2).slice (win4_8.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_8.index t4_9 0 * win4_8.size 0 ≤ (i 0 : Nat) ∧ (i 0 : Nat) < win4_8.index t4_9 0 * win4_8.size 0 + win4_8.xsize (grid4.coords t4_9) 0
                  rw [show win4_8.index t4_9 0 * win4_8.size 0 = 0 from by decide +kernel, show win4_8.xsize (grid4.coords t4_9) 0 = 1 from by decide +kernel]; omega
      | ⟨1, _⟩ => show win4_8.index t4_9 1 * win4_8.size 1 ≤ (i 1 : Nat) ∧ (i 1 : Nat) < win4_8.index t4_9 1 * win4_8.size 1 + win4_8.xsize (grid4.coords t4_9) 1
                  rw [show win4_8.index t4_9 1 * win4_8.size 1 = 0 from by decide +kernel, show win4_8.xsize (grid4.coords t4_9) 1 = 128 from by decide +kernel]; omega⟩

/-- The column-sums row after the run, at column c: the sum of the whole product's column c. -/
theorem final7_apply (c : Dev nD) (cc : Fin 128) :
    ((dat4 V c).arrAt 7 cfg4.N : S1x128.Idx → EReal) (ix2 0 cc) = ∑ R : Fin 50000, prodAll V c (ix2 R cc) := by
  rw [final7]
  exact (chain1_apply V c cc 9 nine_lt).trans (colAt_sum V c cc id)

/-- The column-sums-of-squares row after the run. -/
theorem final8_apply (c : Dev nD) (cc : Fin 128) :
    ((dat4 V c).arrAt 8 cfg4.N : S1x128.Idx → EReal) (ix2 0 cc) = ∑ R : Fin 50000, prodAll V c (ix2 R cc) * prodAll V c (ix2 R cc) := by
  rw [final8]
  exact (chain2_apply V c cc 9 nine_lt).trans (colAt_sum V c cc (fun z => z * z))

end Finals

end Cert.KernelIdeal.Stats4
end
-- ==== Proof.K5v.lean ====
/-
  The third kernel of the second relation, read as values on the extended reals: point t of its ten takes rows
  5000 t … 5000 t + 4999 of the second product, normalises every entry with its column's mean and variance rows, scales
  and shifts it by two more rows, cuts it below at zero and writes the block back; after the run the result array is the
  whole activated matrix.
-/
import proofs.«120853_j16423954940358_2_alg».proof.Proof.Gen.KernelIdeal.Frame
import proofs.«120853_j16423954940358_2_alg».proof.Proof.K4v
import proofs.«120853_j16423954940358_2_alg».proof.Proof.Algebra
import proofs.«120853_j16423954940358_2_alg».proof.Proof.Spec
import Idealize.ShloMosaic.Lib.ValueIdx
import Idealize.ShloMosaic.Lib.ValueLayout
import Idealize.ShloMosaic.PureOps.Ideal.Laws
import Idealize.ShloMosaic.Lib.Pipeline.Value
import Idealize.ShloMosaic.Lib.StableHlo.Run
import Idealize.ShloMosaic.Lib.Tactic
set_option maxRecDepth 16384
noncomputable section
namespace Cert.KernelIdeal.Norm5
open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx Cert.KernelIdeal.Stats4
open scoped BigOperators
variable {F : FTy → Type} [FloatOps F]

theorem hz : (![0, 0] : Fin 2 → Nat) = fun _ => 0 := funext fun a => by fin_cases a <;> rfl

/-- The body's arithmetic at (r, k): the entry normalised, scaled, shifted, cut. -/
theorem pay1_apply (x : FVec Ideal S5000x128 .f32) (m v g b : FVec Ideal S1x128 .f32) (r : Fin 5000) (k : Fin 128) :
    k5_pay1 (F := Ideal) x m v g b (ix2 r k) = actAt (x (ix2 r k)) (m (ix2 0 k)) (v (ix2 0 k)) (g (ix2 0 k)) (b (ix2 0 k)) := by
  unfold k5_pay1 actAt
  simp only [maximumf_apply, addf_apply, mulf_apply, subf_apply, bcastRow_apply, shapeCast_self, broadcast_apply]
  rw [show FloatOps.ofBits (F := Ideal) .f32 0x00000000#32 = (0 : EReal) from Cert.Gin.ofBits_zero]
  rfl

section Arrays
variable (V : (c : Dev nD) → (b : Ref sig .tc) → Buf (Elt Ideal) ((c : Thread nD τ).loc b))

theorem idx_facts : ∀ t : Fin cfg5.N,
    win5_0.index t (0 : Fin 2) = t.val ∧
    win5_0.index t (1 : Fin 2) = 0 ∧
    win5_1.index t (0 : Fin 2) = 0 ∧
    win5_1.index t (1 : Fin 2) = 0 ∧
    win5_2.index t (0 : Fin 2) = 0 ∧
    win5_2.index t (1 : Fin 2) = 0 ∧
    win5_3.index t (0 : Fin 2) = 0 ∧
    win5_3.index t (1 : Fin 2) = 0 ∧
    win5_4.index t (0 : Fin 2) = 0 ∧
    win5_4.index t (1 : Fin 2) = 0 ∧
    win5_5.index t (0 : Fin 2) = t.val ∧
    win5_5.index t (1 : Fin 2) = 0 :=
  (by decide +kernel : ∀ t : Fin grid5.N, _)

theorem iblk_0_apply (c : Dev nD) (t : Fin cfg5.N) (r : Fin 5000) (k : Fin 128) (R : Fin 50000) (hR : R.val = 5000 * t.val + r.val) :
    (iblk5 V c 0 t : Vec Ideal S5000x128 .f32) (ix2 r k) = (V c main_v48_0 : S50000x128.Idx → EReal) (ix2 R k) := by
  unfold iblk5
  rw [View.read_apply]
  show V c main_v48_0 _ = V c main_v48_0 _
  congr 1
  funext a
  apply Fin.ext
  match a with
  | ⟨0, _⟩ => show win5_0.index t 0 * 5000 + 1 * r.val = R.val; rw [(idx_facts t).1, hR]; omega
  | ⟨1, _⟩ => show win5_0.index t 1 * 128 + 1 * k.val = k.val; rw [(idx_facts t).2.1]; omega

theorem iblk_1_apply (c : Dev nD) (t : Fin cfg5.N) (r : Fin 1) (k : Fin 128) :
    (iblk5 V c 1 t : Vec Ideal S1x128 .f32) (ix2 r k) = (V c main_v55 : S1x128.Idx → EReal) (ix2 r k) := by
  unfold iblk5
  rw [View.read_apply]
  show V c main_v55 _ = V c main_v55 _
  congr 1
  funext a
  apply Fin.ext
  match a with
  | ⟨0, _⟩ => show win5_1.index t 0 * 1 + 1 * r.val = r.val; rw [(idx_facts t).2.2.1]; omega
  | ⟨1, _⟩ => show win5_1.index t 1 * 128 + 1 * k.val = k.val; rw [(idx_facts t).2.2.2.1]; omega

theorem iblk_2_apply (c : Dev nD) (t : Fin cfg5.N) (r : Fin 1) (k : Fin 128) :
    (iblk5 V c 2 t : Vec Ideal S1x128 .f32) (ix2 r k) = (V c main_v56 : S1x128.Idx → EReal) (ix2 r k) := by
  unfold iblk5
  rw [View.read_apply]
  show V c main_v56 _ = V c main_v56 _
  congr 1
  funext a
  apply Fin.ext
  match a with
  | ⟨0, _⟩ => show win5_2.index t 0 * 1 + 1 * r.val = r.val; rw [(idx_facts t).2.2.2.2.1]; omega
  | ⟨1, _⟩ => show win5_2.index t 1 * 128 + 1 * k.val = k.val; rw [(idx_facts t).2.2.2.2.2.1]; omega

theorem iblk_3_apply (c : Dev nD) (t : Fin cfg5.N) (r : Fin 1) (k : Fin 128) :
    (iblk5 V c 3 t : Vec Ideal S1x128 .f32) (ix2 r k) = (V c main_v50 : S1x128.Idx → EReal) (ix2 r k) := by
  unfold iblk5
  rw [View.read_apply]
  show V c main_v50 _ = V c main_v50 _
  congr 1
  funext a
  apply Fin.ext
  match a with
  | ⟨0, _⟩ => show win5_3.index t 0 * 1 + 1 * r.val = r.val; rw [(idx_facts t).2.2.2.2.2.2.1]; omega
  | ⟨1, _⟩ => show win5_3.index t 1 * 128 + 1 * k.val = k.val; rw [(idx_facts t).2.2.2.2.2.2.2.1]; omega

theorem iblk_4_apply (c : Dev nD) (t : Fin cfg5.N) (r : Fin 1) (k : Fin 128) :
    (iblk5 V c 4 t : Vec Ideal S1x128 .f32) (ix2 r k) = (V c main_v54 : S1x128.Idx → EReal) (ix2 r k) := by
  unfold iblk5
  rw [View.read_apply]
  show V c main_v54 _ = V c main_v54 _
  congr 1
  funext a
  apply Fin.ext
  match a with
  | ⟨0, _⟩ => show win5_4.index t 0 * 1 + 1 * r.val = r.val; rw [(idx_facts t).2.2.2.2.2.2.2.2.1]; omega
  | ⟨1, _⟩ => show win5_4.index t 1 * 128 + 1 * k.val = k.val; rw [(idx_facts t).2.2.2.2.2.2.2.2.2.1]; omega

/-- The whole result: every entry of the first array normalised, scaled, shifted, cut. -/
def outAll (c : Dev nD) : S50000x128.Idx → EReal := fun i =>
  actAt ((V c main_v48_0 : S50000x128.Idx → EReal) i) ((V c main_v50 : S1x128.Idx → EReal) (ix2 0 (i 1)))
    ((V c main_v54 : S1x128.Idx → EReal) (ix2 0 (i 1))) ((V c main_v55 : S1x128.Idx → EReal) (ix2 0 (i 1)))
    ((V c main_v56 : S1x128.Idx → EReal) (ix2 0 (i 1)))

/-- What point t writes back is block t of the whole result. -/
theorem flushed5_eq (c : Dev nD) (t : Fin cfg5.N) :
    (dat5 V c).flushed 5 t = ((cfg5.win 5).blk t).view.read (Elt Ideal) (outAll V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  funext j
  obtain ⟨r, k, rfl⟩ : ∃ (r : Fin 5000) (k : Fin 128), j = ix2 r k := ⟨j 0, j 1, eq_ix2 j⟩
  have hN : t.val < 10 := lt_of_lt_of_eq t.isLt (show cfg5.N = 10 from N_5)
  have hR : 5000 * t.val + r.val < 50000 := by have := r.isLt; omega
  show k5_pay1 (F := Ideal) (iblk5 V c 0 t) (iblk5 V c 3 t) (iblk5 V c 4 t) (iblk5 V c 1 t) (iblk5 V c 2 t) (ix2 r k) = outAll V c (((cfg5.win 5).blk t).view.emb (ix2 r k))
  have he : ((cfg5.win 5).blk t).view.emb (ix2 r k) = (ix2 (⟨5000 * t.val + r.val, hR⟩ : Fin 50000) k : S50000x128.Idx) := by
    funext a
    apply Fin.ext
    match a with
    | ⟨0, _⟩ => show win5_5.index t 0 * 5000 + 1 * r.val = 5000 * t.val + r.val; rw [(idx_facts t).2.2.2.2.2.2.2.2.2.2.1]; omega
    | ⟨1, _⟩ => show win5_5.index t 1 * 128 + 1 * k.val = k.val; rw [(idx_facts t).2.2.2.2.2.2.2.2.2.2.2]; omega
  rw [he, pay1_apply, iblk_0_apply V c t r k ⟨5000 * t.val + r.val, hR⟩ rfl, iblk_3_apply V c t 0 k, iblk_4_apply V c t 0 k,
    iblk_1_apply V c t 0 k, iblk_2_apply V c t 0 k]
  rfl

theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v57).slice (win5_5.rect t)).set ↔ _
  rw [View.set_slice_whole, Rect.mem_set_unit]
  exact Iff.rfl

/-- The result array after the run is the whole result: row R is written by point R / 5000. -/
theorem final5 (c : Dev nD) : (dat5 V c).arrAt 5 cfg5.N = outAll V c :=
  (dat5 V c).arrAt_eq_of_cover 5 (outAll V c) (fun t _ => flushed5_eq V c t) fun i => by
    have hi0 : (i 0).val < 50000 := (i 0).isLt
    have hi1 : (i 1).val < 128 := (i 1).isLt
    have hN : cfg5.N = 10 := N_5
    refine ⟨⟨(i 0).val / 5000, by rw [hN]; omega⟩, flush5_5 _, ?_⟩
    rw [mem_blk5]
    intro a
    match a with
    | ⟨0, _⟩ =>
      show win5_5.index _ 0 * 5000 ≤ (i 0).val ∧ (i 0).val < win5_5.index _ 0 * 5000 + 5000
      rw [(idx_facts _).2.2.2.2.2.2.2.2.2.2.1]; dsimp only; omega
    | ⟨1, _⟩ =>
      show win5_5.index _ 1 * 128 ≤ (i 1).val ∧ (i 1).val < win5_5.index _ 1 * 128 + 128
      rw [(idx_facts _).2.2.2.2.2.2.2.2.2.2.2]; omega

end Arrays

end Cert.KernelIdeal.Norm5
end
-- ==== Proof.KFold2.lean ====
/-
  The kernel program's result for relation 2, from the launch memory: the buffer contents are followed from the
  launch through the host operations and the three kernels of the relation — the aggregated rows, the first product
  and its column statistics, the mean and variance rows the host derives from them, the second product and its
  statistics, the final normalisation — and the result array is the two-layer network, with column variances taken as
  the mean of squares less the squared mean, of the launch arguments.
-/
import proofs.«120853_j16423954940358_2_alg».proof.Proof.Gen.KernelIdeal.Frame
import proofs.«120853_j16423954940358_2_alg».proof.Proof.K5v
import proofs.«120853_j16423954940358_2_alg».proof.Proof.KFoldBase
import proofs.«120853_j16423954940358_2_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Fold

open Idealize.ShloMosaic Idealize.ShloMosaic.TcCoe Idealize.ShloMosaic.Tactic Idealize.ShloMosaic.StableHlo
open Idealize.SL Idealize.SL.Sem
open Idealize.ShloMosaic.Pipeline (Dat Cfg Window)
open Cert.KernelIdeal Cert.KernelIdeal.Gen Idealize.ShloMosaic.ValueIdx Cert.Gin

variable (m : (ℓ : Loc nD τ sig) → Buf (Elt Ideal) ℓ) (ρ : Dev nD → PrngReg)

/-! ## Relation 2: from the launch memory to its result array -/

theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W7_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_arg12 (c : Dev nD) : W7 m ρ c (Proc.devRef .tc main_arg12) = m ((c : Thread nD τ).loc main_arg12) :=
  calc W7 m ρ c (Proc.devRef .tc main_arg12)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W8_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W8_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W9_arg13 (c : Dev nD) : W9 m ρ c (Proc.devRef .tc main_arg13) = m ((c : Thread nD τ).loc main_arg13) :=
  calc W9 m ρ c (Proc.devRef .tc main_arg13)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W10_arg16 (c : Dev nD) : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W10_arg17 (c : Dev nD) : W10 m ρ c (Proc.devRef .tc main_arg17) = m ((c : Thread nD τ).loc main_arg17) :=
  calc W10 m ρ c (Proc.devRef .tc main_arg17)
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W11_arg16 (c : Dev nD) : W11 m ρ c (Proc.devRef .tc main_arg16) = m ((c : Thread nD τ).loc main_arg16) :=
  calc W11 m ρ c (Proc.devRef .tc main_arg16)
    _ = W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W11_arg17 (c : Dev nD) : W11 m ρ c (Proc.devRef .tc main_arg17) = m ((c : Thread nD τ).loc main_arg17) :=
  calc W11 m ρ c (Proc.devRef .tc main_arg17)
    _ = W10 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-- The aggregated neighbour rows at the first kernel's entry. -/
theorem W7_agg (c : Dev nD) :
    W7 m ρ c (Proc.devRef .tc main_v38) = aggOf (a1 m c) (a4 m c) (a5 m c) := by
  have e : W7 m ρ c (Proc.devRef .tc main_v38) = aggOf (W6 m ρ c (Proc.devRef .tc main_arg1)) (W6 m ρ c (Proc.devRef .tc main_arg4)) (W6 m ρ c (Proc.devRef .tc main_arg5)) := by
    show StableHlo.after hostOps3 (W6 m ρ c) (Proc.devRef .tc main_v38) = _
    generalize W6 m ρ c = Wv
    after_results_simp
    all_goals rfl
  rw [e, W6_arg1, W6_arg4, W6_arg5]

/-- The features plus the aggregated neighbour rows. -/
def x2 (c : Dev nD) : SB.Idx → EReal := fun i =>
  (a0 m c) i + aggOf (a1 m c) (a4 m c) (a5 m c) i

/-- The first product. -/
def H1_2 (c : Dev nD) : SB.Idx → EReal := lin (x2 m c) (a12 m c)

/-- The first activated matrix. -/
def A1_2 (c : Dev nD) : SB.Idx → EReal :=
  Cert.Gin.norm (varS (H1_2 m c)) (H1_2 m c) (fun k => (a14 m c) (ix1 k)) (fun k => (a15 m c) (ix1 k))

/-- The second product. -/
def H2_2 (c : Dev nD) : SB.Idx → EReal := lin (A1_2 m c) (a13 m c)

/-- The relation's result. -/
def Out_2 (c : Dev nD) : SB.Idx → EReal :=
  Cert.Gin.norm (varS (H2_2 m c)) (H2_2 m c) (fun k => (a16 m c) (ix1 k)) (fun k => (a17 m c) (ix1 k))

/-- The first kernel's whole product is the first product of the launch arguments. -/
theorem prod0_2 (c : Dev nD) : Cert.KernelIdeal.Stats3.prodAll (V7 m ρ) c = H1_2 m c := by
  have e0 : Cert.KernelIdeal.Stats3.A0 (V7 m ρ) c = a0 m c := W7_arg0 m ρ c
  have e1 : Cert.KernelIdeal.Stats3.A1 (V7 m ρ) c = aggOf (a1 m c) (a4 m c) (a5 m c) := W7_agg m ρ c
  have e2 : Cert.KernelIdeal.Stats3.A2 (V7 m ρ) c = a12 m c := W7_arg12 m ρ c
  unfold Cert.KernelIdeal.Stats3.prodAll
  rw [e0, e1, e2]
  rfl

theorem W8_h1 (c : Dev nD) : (W8 m ρ c (Proc.devRef .tc main_v39_0) : S50000x128.Idx → EReal) = H1_2 m c :=
  (W8_arr m ρ c 3).trans ((Cert.KernelIdeal.Stats3.final3 (V7 m ρ) c).trans (prod0_2 m ρ c))

theorem W8_s1 (c : Dev nD) (k : Fin 128) :
    (W8 m ρ c (Proc.devRef .tc main_v39_1) : S1x128.Idx → EReal) (ix2 0 k) = ∑ R : Fin 50000, H1_2 m c (ix2 R k) := by
  rw [show (W8 m ρ c (Proc.devRef .tc main_v39_1) : S1x128.Idx → EReal) = (dat3 (V7 m ρ) c).arrAt 4 cfg3.N from W8_arr m ρ c 4,
    Cert.KernelIdeal.Stats3.final4_apply, prod0_2]

theorem W8_ss1 (c : Dev nD) (k : Fin 128) :
    (W8 m ρ c (Proc.devRef .tc main_v39_2) : S1x128.Idx → EReal) (ix2 0 k) = ∑ R : Fin 50000, H1_2 m c (ix2 R k) * H1_2 m c (ix2 R k) := by
  rw [show (W8 m ρ c (Proc.devRef .tc main_v39_2) : S1x128.Idx → EReal) = (dat3 (V7 m ρ) c).arrAt 5 cfg3.N from W8_arr m ρ c 5,
    Cert.KernelIdeal.Stats3.final5_apply, prod0_2]

/-- The mean row the host computes from the column sums of product 1. -/
theorem W9_mean1 (c : Dev nD) (k : Fin 128) :
    (W9 m ρ c (Proc.devRef .tc main_v41) : S1x128.Idx → EReal) (ix2 0 k) = mean (H1_2 m c) k := by
  have e : (W9 m ρ c (Proc.devRef .tc main_v41) : S1x128.Idx → EReal)
      = Host.divf (F := Ideal) (W8 m ρ c (Proc.devRef .tc main_v39_1)) (broadcastInDim S1x128 ![] bcast_S_S1x128 (constant (F := Ideal) S_ .f32 0x47435000#32)) := by
    show StableHlo.after hostOps4 (W8 m ρ c) (Proc.devRef .tc main_v41) = _
    generalize W8 m ρ c = Wv
    after_results_simp
    all_goals rfl
  rw [e]
  show Ideal.div ((W8 m ρ c (Proc.devRef .tc main_v39_1) : S1x128.Idx → EReal) (ix2 0 k)) (broadcastInDim S1x128 ![] bcast_S_S1x128 (constant (F := Ideal) S_ .f32 0x47435000#32) (ix2 0 k)) = _
  rw [W8_s1, splatRow_apply _ k k0]
  show Ideal.div _ (Ideal.ofBits .f32 0x47435000#32) = _
  rw [Cert.Gin.ofBits_N]
  rfl

/-- The variance row the host computes from the column sums and sums of squares of product 1. -/
theorem W9_var1 (c : Dev nD) (k : Fin 128) :
    (W9 m ρ c (Proc.devRef .tc main_v45) : S1x128.Idx → EReal) (ix2 0 k) = varS (H1_2 m c) k := by
  have e : (W9 m ρ c (Proc.devRef .tc main_v45) : S1x128.Idx → EReal)
      = subf (F := Ideal) (Host.divf (F := Ideal) (W8 m ρ c (Proc.devRef .tc main_v39_2)) (broadcastInDim S1x128 ![] bcast_S_S1x128 (constant (F := Ideal) S_ .f32 0x47435000#32)))
          (mulf (F := Ideal) (Host.divf (F := Ideal) (W8 m ρ c (Proc.devRef .tc main_v39_1)) (broadcastInDim S1x128 ![] bcast_S_S1x128 (constant (F := Ideal) S_ .f32 0x47435000#32)))
            (Host.divf (F := Ideal) (W8 m ρ c (Proc.devRef .tc main_v39_1)) (broadcastInDim S1x128 ![] bcast_S_S1x128 (constant (F := Ideal) S_ .f32 0x47435000#32)))) := by
    show StableHlo.after hostOps4 (W8 m ρ c) (Proc.devRef .tc main_v45) = _
    generalize W8 m ρ c = Wv
    after_results_simp
    all_goals rfl
  rw [e]
  show Ideal.div ((W8 m ρ c (Proc.devRef .tc main_v39_2) : S1x128.Idx → EReal) (ix2 0 k)) (broadcastInDim S1x128 ![] bcast_S_S1x128 (constant (F := Ideal) S_ .f32 0x47435000#32) (ix2 0 k))
      - Ideal.div ((W8 m ρ c (Proc.devRef .tc main_v39_1) : S1x128.Idx → EReal) (ix2 0 k)) (broadcastInDim S1x128 ![] bcast_S_S1x128 (constant (F := Ideal) S_ .f32 0x47435000#32) (ix2 0 k))
        * Ideal.div ((W8 m ρ c (Proc.devRef .tc main_v39_1) : S1x128.Idx → EReal) (ix2 0 k)) (broadcastInDim S1x128 ![] bcast_S_S1x128 (constant (F := Ideal) S_ .f32 0x47435000#32) (ix2 0 k)) = _
  rw [W8_s1, W8_ss1, splatRow_apply _ k k0]
  show Ideal.div _ (Ideal.ofBits .f32 0x47435000#32) - Ideal.div _ (Ideal.ofBits .f32 0x47435000#32) * Ideal.div _ (Ideal.ofBits .f32 0x47435000#32) = _
  rw [Cert.Gin.ofBits_N]
  rfl

/-- The scale row is the scale vector. -/
theorem W9_g1 (c : Dev nD) (k : Fin 128) :
    (W9 m ρ c (Proc.devRef .tc main_v46) : S1x128.Idx → EReal) (ix2 0 k) = (a14 m c) (ix1 k) := by
  have e : (W9 m ρ c (Proc.devRef .tc main_v46) : S1x128.Idx → EReal) = shapeCast S1x128 (W8 m ρ c (Proc.devRef .tc main_arg14) : S128.Idx → EReal) shapeCasts_S128_S1x128 := by
    show StableHlo.after hostOps4 (W8 m ρ c) (Proc.devRef .tc main_v46) = _
    generalize W8 m ρ c = Wv
    after_results_simp
    all_goals rfl
  rw [e, Cert.KernelIdeal.Stats3.row_of_vec_apply, W8_arg14]

/-- The shift row is the shift vector. -/
theorem W9_b1 (c : Dev nD) (k : Fin 128) :
    (W9 m ρ c (Proc.devRef .tc main_v47) : S1x128.Idx → EReal) (ix2 0 k) = (a15 m c) (ix1 k) := by
  have e : (W9 m ρ c (Proc.devRef .tc main_v47) : S1x128.Idx → EReal) = shapeCast S1x128 (W8 m ρ c (Proc.devRef .tc main_arg15) : S128.Idx → EReal) shapeCasts_S128_S1x128 := by
    show StableHlo.after hostOps4 (W8 m ρ c) (Proc.devRef .tc main_v47) = _
    generalize W8 m ρ c = Wv
    after_results_simp
    all_goals rfl
  rw [e, Cert.KernelIdeal.Stats3.row_of_vec_apply, W8_arg15]

theorem W9_h1_keep (c : Dev nD) : W9 m ρ c (Proc.devRef .tc main_v39_0) = W8 m ρ c (Proc.devRef .tc main_v39_0) :=
  calc W9 m ρ c (Proc.devRef .tc main_v39_0)
    _ = W8 m ρ c (Proc.devRef .tc main_v39_0) := StableHlo.after_of_forall_not_mem (b := Proc.devRef .tc main_v39_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second kernel's activated matrix is the first activated matrix of the launch arguments. -/
theorem act1_2 (c : Dev nD) : Cert.KernelIdeal.Stats4.actAll (V9 m ρ) c = A1_2 m c := by
  funext i
  obtain ⟨r, k, rfl⟩ : ∃ (r : Fin 50000) (k : Fin 128), i = ix2 r k := ⟨i 0, i 1, eq_ix2 i⟩
  have eh : (V9 m ρ c main_v39_0 : S50000x128.Idx → EReal) = H1_2 m c := (W9_h1_keep m ρ c).trans (W8_h1 m ρ c)
  show Cert.KernelIdeal.Stats4.actAt ((V9 m ρ c main_v39_0 : S50000x128.Idx → EReal) (ix2 r k)) ((W9 m ρ c (Proc.devRef .tc main_v41) : S1x128.Idx → EReal) (ix2 0 k))
      ((W9 m ρ c (Proc.devRef .tc main_v45) : S1x128.Idx → EReal) (ix2 0 k)) ((W9 m ρ c (Proc.devRef .tc main_v46) : S1x128.Idx → EReal) (ix2 0 k))
      ((W9 m ρ c (Proc.devRef .tc main_v47) : S1x128.Idx → EReal) (ix2 0 k)) = _
  rw [eh, W9_mean1, W9_var1, W9_g1, W9_b1]
  rfl

theorem prod1_2 (c : Dev nD) : Cert.KernelIdeal.Stats4.prodAll (V9 m ρ) c = H2_2 m c := by
  have e2 : (V9 m ρ c main_arg13 : S128x128.Idx → EReal) = (a13 m c) := W9_arg13 m ρ c
  show lin (Cert.KernelIdeal.Stats4.actAll (V9 m ρ) c) (V9 m ρ c main_arg13 : S128x128.Idx → EReal) = _
  rw [act1_2, e2]
  rfl

theorem W10_h2 (c : Dev nD) : (W10 m ρ c (Proc.devRef .tc main_v48_0) : S50000x128.Idx → EReal) = H2_2 m c :=
  (W10_arr m ρ c 6).trans ((Cert.KernelIdeal.Stats4.final6 (V9 m ρ) c).trans (prod1_2 m ρ c))

theorem W10_s2 (c : Dev nD) (k : Fin 128) :
    (W10 m ρ c (Proc.devRef .tc main_v48_1) : S1x128.Idx → EReal) (ix2 0 k) = ∑ R : Fin 50000, H2_2 m c (ix2 R k) := by
  rw [show (W10 m ρ c (Proc.devRef .tc main_v48_1) : S1x128.Idx → EReal) = (dat4 (V9 m ρ) c).arrAt 7 cfg4.N from W10_arr m ρ c 7,
    Cert.KernelIdeal.Stats4.final7_apply, prod1_2]

theorem W10_ss2 (c : Dev nD) (k : Fin 128) :
    (W10 m ρ c (Proc.devRef .tc main_v48_2) : S1x128.Idx → EReal) (ix2 0 k) = ∑ R : Fin 50000, H2_2 m c (ix2 R k) * H2_2 m c (ix2 R k) := by
  rw [show (W10 m ρ c (Proc.devRef .tc main_v48_2) : S1x128.Idx → EReal) = (dat4 (V9 m ρ) c).arrAt 8 cfg4.N from W10_arr m ρ c 8,
    Cert.KernelIdeal.Stats4.final8_apply, prod1_2]

/-- The mean row the host computes from the column sums of product 2. -/
theorem W11_mean2 (c : Dev nD) (k : Fin 128) :
    (W11 m ρ c (Proc.devRef .tc main_v50) : S1x128.Idx → EReal) (ix2 0 k) = mean (H2_2 m c) k := by
  have e : (W11 m ρ c (Proc.devRef .tc main_v50) : S1x128.Idx → EReal)
      = Host.divf (F := Ideal) (W10 m ρ c (Proc.devRef .tc main_v48_1)) (broadcastInDim S1x128 ![] bcast_S_S1x128 (constant (F := Ideal) S_ .f32 0x47435000#32)) := by
    show StableHlo.after hostOps5 (W10 m ρ c) (Proc.devRef .tc main_v50) = _
    generalize W10 m ρ c = Wv
    after_results_simp
    all_goals rfl
  rw [e]
  show Ideal.div ((W10 m ρ c (Proc.devRef .tc main_v48_1) : S1x128.Idx → EReal) (ix2 0 k)) (broadcastInDim S1x128 ![] bcast_S_S1x128 (constant (F := Ideal) S_ .f32 0x47435000#32) (ix2 0 k)) = _
  rw [W10_s2, splatRow_apply _ k k0]
  show Ideal.div _ (Ideal.ofBits .f32 0x47435000#32) = _
  rw [Cert.Gin.ofBits_N]
  rfl

/-- The variance row the host computes from the column sums and sums of squares of product 2. -/
theorem W11_var2 (c : Dev nD) (k : Fin 128) :
    (W11 m ρ c (Proc.devRef .tc main_v54) : S1x128.Idx → EReal) (ix2 0 k) = varS (H2_2 m c) k := by
  have e : (W11 m ρ c (Proc.devRef .tc main_v54) : S1x128.Idx → EReal)
      = subf (F := Ideal) (Host.divf (F := Ideal) (W10 m ρ c (Proc.devRef .tc main_v48_2)) (broadcastInDim S1x128 ![] bcast_S_S1x128 (constant (F := Ideal) S_ .f32 0x47435000#32)))
          (mulf (F := Ideal) (Host.divf (F := Ideal) (W10 m ρ c (Proc.devRef .tc main_v48_1)) (broadcastInDim S1x128 ![] bcast_S_S1x128 (constant (F := Ideal) S_ .f32 0x47435000#32)))
            (Host.divf (F := Ideal) (W10 m ρ c (Proc.devRef .tc main_v48_1)) (broadcastInDim S1x128 ![] bcast_S_S1x128 (constant (F := Ideal) S_ .f32 0x47435000#32)))) := by
    show StableHlo.after hostOps5 (W10 m ρ c) (Proc.devRef .tc main_v54) = _
    generalize W10 m ρ c = Wv
    after_results_simp
    all_goals rfl
  rw [e]
  show Ideal.div ((W10 m ρ c (Proc.devRef .tc main_v48_2) : S1x128.Idx → EReal) (ix2 0 k)) (broadcastInDim S1x128 ![] bcast_S_S1x128 (constant (F := Ideal) S_ .f32 0x47435000#32) (ix2 0 k))
      - Ideal.div ((W10 m ρ c (Proc.devRef .tc main_v48_1) : S1x128.Idx → EReal) (ix2 0 k)) (broadcastInDim S1x128 ![] bcast_S_S1x128 (constant (F := Ideal) S_ .f32 0x47435000#32) (ix2 0 k))
        * Ideal.div ((W10 m ρ c (Proc.devRef .tc main_v48_1) : S1x128.Idx → EReal) (ix2 0 k)) (broadcastInDim S1x128 ![] bcast_S_S1x128 (constant (F := Ideal) S_ .f32 0x47435000#32) (ix2 0 k)) = _
  rw [W10_s2, W10_ss2, splatRow_apply _ k k0]
  show Ideal.div _ (Ideal.ofBits .f32 0x47435000#32) - Ideal.div _ (Ideal.ofBits .f32 0x47435000#32) * Ideal.div _ (Ideal.ofBits .f32 0x47435000#32) = _
  rw [Cert.Gin.ofBits_N]
  rfl

/-- The scale row is the scale vector. -/
theorem W11_g2 (c : Dev nD) (k : Fin 128) :
    (W11 m ρ c (Proc.devRef .tc main_v55) : S1x128.Idx → EReal) (ix2 0 k) = (a16 m c) (ix1 k) := by
  have e : (W11 m ρ c (Proc.devRef .tc main_v55) : S1x128.Idx → EReal) = shapeCast S1x128 (W10 m ρ c (Proc.devRef .tc main_arg16) : S128.Idx → EReal) shapeCasts_S128_S1x128 := by
    show StableHlo.after hostOps5 (W10 m ρ c) (Proc.devRef .tc main_v55) = _
    generalize W10 m ρ c = Wv
    after_results_simp
    all_goals rfl
  rw [e, Cert.KernelIdeal.Stats3.row_of_vec_apply, W10_arg16]

/-- The shift row is the shift vector. -/
theorem W11_b2 (c : Dev nD) (k : Fin 128) :
    (W11 m ρ c (Proc.devRef .tc main_v56) : S1x128.Idx → EReal) (ix2 0 k) = (a17 m c) (ix1 k) := by
  have e : (W11 m ρ c (Proc.devRef .tc main_v56) : S1x128.Idx → EReal) = shapeCast S1x128 (W10 m ρ c (Proc.devRef .tc main_arg17) : S128.Idx → EReal) shapeCasts_S128_S1x128 := by
    show StableHlo.after hostOps5 (W10 m ρ c) (Proc.devRef .tc main_v56) = _
    generalize W10 m ρ c = Wv
    after_results_simp
    all_goals rfl
  rw [e, Cert.KernelIdeal.Stats3.row_of_vec_apply, W10_arg17]

theorem W11_h2_keep (c : Dev nD) : W11 m ρ c (Proc.devRef .tc main_v48_0) = W10 m ρ c (Proc.devRef .tc main_v48_0) :=
  calc W11 m ρ c (Proc.devRef .tc main_v48_0)
    _ = W10 m ρ c (Proc.devRef .tc main_v48_0) := StableHlo.after_of_forall_not_mem (b := Proc.devRef .tc main_v48_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The third kernel's whole result is the relation's result of the launch arguments. -/
theorem out2_2 (c : Dev nD) : Cert.KernelIdeal.Norm5.outAll (V11 m ρ) c = Out_2 m c := by
  funext i
  obtain ⟨r, k, rfl⟩ : ∃ (r : Fin 50000) (k : Fin 128), i = ix2 r k := ⟨i 0, i 1, eq_ix2 i⟩
  have eh : (V11 m ρ c main_v48_0 : S50000x128.Idx → EReal) = H2_2 m c := (W11_h2_keep m ρ c).trans (W10_h2 m ρ c)
  show Cert.KernelIdeal.Stats4.actAt ((V11 m ρ c main_v48_0 : S50000x128.Idx → EReal) (ix2 r k)) ((W11 m ρ c (Proc.devRef .tc main_v50) : S1x128.Idx → EReal) (ix2 0 k))
      ((W11 m ρ c (Proc.devRef .tc main_v54) : S1x128.Idx → EReal) (ix2 0 k)) ((W11 m ρ c (Proc.devRef .tc main_v55) : S1x128.Idx → EReal) (ix2 0 k))
      ((W11 m ρ c (Proc.devRef .tc main_v56) : S1x128.Idx → EReal) (ix2 0 k)) = _
  rw [eh, W11_mean2, W11_var2, W11_g2, W11_b2]
  rfl

theorem W12_out (c : Dev nD) : (W12 m ρ c (Proc.devRef .tc main_v57) : S50000x128.Idx → EReal) = Out_2 m c :=
  (W12_arr m ρ c 5).trans ((Cert.KernelIdeal.Norm5.final5 (V11 m ρ) c).trans (out2_2 m ρ c))

end Cert.KernelIdeal.Fold
end
-- ==== Proof.RefRun.lean ====
/-
  The reference program as one straight line of host operations, and its run.

  The reference's entry function calls three small functions (the variance of a matrix's columns, a selection
  between two vectors, the maximum with zero); written out at their call sites over each call's own buffers, the
  whole program is a list of 220 operations, and every weakly fair execution ends with each buffer at the value the
  list computes from the launch contents.
-/
import proofs.«120853_j16423954940358_2_alg».proof.ReferenceIdeal
import Idealize.ShloMosaic.Lib.StableHlo.Run

noncomputable section

namespace Cert.ReferenceIdeal.HandRun

open Idealize.ShloMosaic Idealize.ShloMosaic.TcCoe Idealize.SL.Sem Idealize.ShloMosaic.StableHlo Cert.ReferenceIdeal

variable {F : FTy → Type} [FloatOps F] [Cert.ReferenceIdeal.Facts]

open Cert.ReferenceIdeal.Facts₀ Cert.ReferenceIdeal.Facts

/-- The operations of the reference, the called functions' bodies in place of the calls. -/
abbrev ops : List (HloOp τ sig (Elt F)) :=
  [ StableHlo.nullary main_c (constantI S_ 32 0#32),
    StableHlo.unary main_c main_v0 (broadcastInDim S640000 ![] bcast_S_S640000 : (⟨S_, .i32⟩ : BufTy).Contents (Elt F) → (⟨S640000, .i32⟩ : BufTy).Contents (Elt F)),
    StableHlo.binary main_arg2 main_v0 main_v1 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v2 (broadcastInDim S640000 ![] bcast_S_S640000 : (⟨S_, .i32⟩ : BufTy).Contents (Elt F) → (⟨S640000, .i32⟩ : BufTy).Contents (Elt F)),
    StableHlo.binary main_arg2 main_v2 main_v3 (addi : (⟨S640000, .i32⟩ : BufTy).Contents (Elt F) → (⟨S640000, .i32⟩ : BufTy).Contents (Elt F) → (⟨S640000, .i32⟩ : BufTy).Contents (Elt F)),
    StableHlo.ternary main_v1 main_v3 main_arg2 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v4 main_v5 (broadcastInDim S640000x1 ![0] bcast_S640000_S640000x1_0 : (⟨S640000, .i32⟩ : BufTy).Contents (Elt F) → (⟨S640000x1, .i32⟩ : BufTy).Contents (Elt F)),
    StableHlo.binary main_arg0 main_v5 main_v6 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg3 main_v8 (broadcastInDim S640000x1 ![0] bcast_S640000_S640000x1_0 : (⟨S640000, .i32⟩ : BufTy).Contents (Elt F) → (⟨S640000x1, .i32⟩ : BufTy).Contents (Elt F)),
    StableHlo.ternary main_v7 main_v8 main_v6 main_v9 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_arg1 main_v9 main_v10 (addf : (⟨S50000x128, .f32⟩ : BufTy).Contents (Elt F) → (⟨S50000x128, .f32⟩ : BufTy).Contents (Elt F) → (⟨S50000x128, .f32⟩ : BufTy).Contents (Elt F)),
    StableHlo.binary main_v10 main_arg6 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_1 (constant S_ .f32 0x00000000#32),
    StableHlo.binary main_v11 main_cst_1 main_v12 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v13 (broadcastInDim S128 ![] bcast_S_S128 : (⟨S_, .f32⟩ : BufTy).Contents (Elt F) → (⟨S128, .f32⟩ : BufTy).Contents (Elt F)),
    StableHlo.binary main_v12 main_v13 main_v14 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v11) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v11) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v14 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v11 main_v17 main_v18 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v19 (broadcastInDim S128 ![] bcast_S_S128 : (⟨S_, .f32⟩ : BufTy).Contents (Elt F) → (⟨S128, .f32⟩ : BufTy).Contents (Elt F)),
    StableHlo.binary main_v15 main_v19 main_v20 (addf : (⟨S128, .f32⟩ : BufTy).Contents (Elt F) → (⟨S128, .f32⟩ : BufTy).Contents (Elt F) → (⟨S128, .f32⟩ : BufTy).Contents (Elt F)),
    StableHlo.unary main_v20 main_v21 (Host.rsqrt : (⟨S128, .f32⟩ : BufTy).Contents (Elt F) → (⟨S128, .f32⟩ : BufTy).Contents (Elt F)),
    StableHlo.unary main_v21 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v23 main_v24 (mulf : (⟨S50000x128, .f32⟩ : BufTy).Contents (Elt F) → (⟨S50000x128, .f32⟩ : BufTy).Contents (Elt F) → (⟨S50000x128, .f32⟩ : BufTy).Contents (Elt F)),
    StableHlo.unary main_arg8 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v26 main_v27 (mulf : (⟨S50000x128, .f32⟩ : BufTy).Contents (Elt F) → (⟨S50000x128, .f32⟩ : BufTy).Contents (Elt F) → (⟨S50000x128, .f32⟩ : BufTy).Contents (Elt F)),
    StableHlo.unary main_arg9 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v30) main_call1.v0 main_call1.v1 maximumf,
    StableHlo.binary main_v31 main_arg7 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_5 (constant S_ .f32 0x00000000#32),
    StableHlo.binary main_v32 main_cst_5 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v32) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v32) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v38 main_v39 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_arg10 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (mulf : (⟨S50000x128, .f32⟩ : BufTy).Contents (Elt F) → (⟨S50000x128, .f32⟩ : BufTy).Contents (Elt F) → (⟨S50000x128, .f32⟩ : BufTy).Contents (Elt F)),
    StableHlo.unary main_arg11 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v51) main_call3.v0 main_call3.v1 maximumf,
    StableHlo.nullary main_c_9 (constantI S_ 32 0#32),
    StableHlo.unary main_c_9 main_v53 (broadcastInDim S640000 ![] bcast_S_S640000 : (⟨S_, .i32⟩ : BufTy).Contents (Elt F) → (⟨S640000, .i32⟩ : BufTy).Contents (Elt F)),
    StableHlo.binary main_arg4 main_v53 main_v54 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 50000#32),
    StableHlo.unary main_c_10 main_v55 (broadcastInDim S640000 ![] bcast_S_S640000 : (⟨S_, .i32⟩ : BufTy).Contents (Elt F) → (⟨S640000, .i32⟩ : BufTy).Contents (Elt F)),
    StableHlo.binary main_arg4 main_v55 main_v56 (addi : (⟨S640000, .i32⟩ : BufTy).Contents (Elt F) → (⟨S640000, .i32⟩ : BufTy).Contents (Elt F) → (⟨S640000, .i32⟩ : BufTy).Contents (Elt F)),
    StableHlo.ternary main_v54 main_v56 main_arg4 main_v57 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v57 main_v58 (broadcastInDim S640000x1 ![0] bcast_S640000_S640000x1_0 : (⟨S640000, .i32⟩ : BufTy).Contents (Elt F) → (⟨S640000x1, .i32⟩ : BufTy).Contents (Elt F)),
    StableHlo.binary main_arg1 main_v58 main_v59 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst_11 (constant S_ .f32 0x00000000#32),
    StableHlo.unary main_cst_11 main_v60 (broadcastInDim S50000x128 ![] bcast_S_S50000x128 : (⟨S_, .f32⟩ : BufTy).Contents (Elt F) → (⟨S50000x128, .f32⟩ : BufTy).Contents (Elt F)),
    StableHlo.unary main_arg5 main_v61 (broadcastInDim S640000x1 ![0] bcast_S640000_S640000x1_0 : (⟨S640000, .i32⟩ : BufTy).Contents (Elt F) → (⟨S640000x1, .i32⟩ : BufTy).Contents (Elt F)),
    StableHlo.ternary main_v60 main_v61 main_v59 main_v62 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_arg0 main_v62 main_v63 (addf : (⟨S50000x128, .f32⟩ : BufTy).Contents (Elt F) → (⟨S50000x128, .f32⟩ : BufTy).Contents (Elt F) → (⟨S50000x128, .f32⟩ : BufTy).Contents (Elt F)),
    StableHlo.binary main_v63 main_arg12 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_12 (constant S_ .f32 0x00000000#32),
    StableHlo.binary main_v64 main_cst_12 main_v65 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v66 (broadcastInDim S128 ![] bcast_S_S128 : (⟨S_, .f32⟩ : BufTy).Contents (Elt F) → (⟨S128, .f32⟩ : BufTy).Contents (Elt F)),
    StableHlo.binary main_v65 main_v66 main_v67 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call4.cst (constant S_ .f32 0x00000000#32),
    StableHlo.TRef.binary (.of main_v64) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v64) main_call4.v4 main_call4.v5 subf,
    StableHlo.TRef.binary main_call4.v5 main_call4.v5 main_call4.v6 mulf,
    StableHlo.TRef.unary (.of main_c_14) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v67 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v70 main_v71 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v72 (broadcastInDim S128 ![] bcast_S_S128 : (⟨S_, .f32⟩ : BufTy).Contents (Elt F) → (⟨S128, .f32⟩ : BufTy).Contents (Elt F)),
    StableHlo.binary main_v68 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v76 main_v77 (mulf : (⟨S50000x128, .f32⟩ : BufTy).Contents (Elt F) → (⟨S50000x128, .f32⟩ : BufTy).Contents (Elt F) → (⟨S50000x128, .f32⟩ : BufTy).Contents (Elt F)),
    StableHlo.unary main_arg14 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (mulf : (⟨S50000x128, .f32⟩ : BufTy).Contents (Elt F) → (⟨S50000x128, .f32⟩ : BufTy).Contents (Elt F) → (⟨S50000x128, .f32⟩ : BufTy).Contents (Elt F)),
    StableHlo.unary main_arg15 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v83) main_call5.v0 main_call5.v1 maximumf,
    StableHlo.binary main_v84 main_arg13 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_16 (constant S_ .f32 0x00000000#32),
    StableHlo.binary main_v85 main_cst_16 main_v86 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v87 (broadcastInDim S128 ![] bcast_S_S128 : (⟨S_, .f32⟩ : BufTy).Contents (Elt F) → (⟨S128, .f32⟩ : BufTy).Contents (Elt F)),
    StableHlo.binary main_v86 main_v87 main_v88 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v85) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v85) main_call6.v4 main_call6.v5 subf,
    StableHlo.TRef.binary main_call6.v5 main_call6.v5 main_call6.v6 mulf,
    StableHlo.TRef.unary (.of main_c_18) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v88 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v91 main_v92 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v93 (broadcastInDim S128 ![] bcast_S_S128 : (⟨S_, .f32⟩ : BufTy).Contents (Elt F) → (⟨S128, .f32⟩ : BufTy).Contents (Elt F)),
    StableHlo.binary main_v89 main_v93 main_v94 (addf : (⟨S128, .f32⟩ : BufTy).Contents (Elt F) → (⟨S128, .f32⟩ : BufTy).Contents (Elt F) → (⟨S128, .f32⟩ : BufTy).Contents (Elt F)),
    StableHlo.unary main_v94 main_v95 (Host.rsqrt : (⟨S128, .f32⟩ : BufTy).Contents (Elt F) → (⟨S128, .f32⟩ : BufTy).Contents (Elt F)),
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v97 main_v98 (mulf : (⟨S50000x128, .f32⟩ : BufTy).Contents (Elt F) → (⟨S50000x128, .f32⟩ : BufTy).Contents (Elt F) → (⟨S50000x128, .f32⟩ : BufTy).Contents (Elt F)),
    StableHlo.unary main_arg16 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v100 main_v101 (mulf : (⟨S50000x128, .f32⟩ : BufTy).Contents (Elt F) → (⟨S50000x128, .f32⟩ : BufTy).Contents (Elt F) → (⟨S50000x128, .f32⟩ : BufTy).Contents (Elt F)),
    StableHlo.unary main_arg17 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v103 main_v104 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v104) main_call7.v0 main_call7.v1 maximumf ]

set_option maxRecDepth 16384 in
set_option maxHeartbeats 4000000 in
/-- The entry function is that straight line. -/
theorem main_eq (c : Dev nD) : main (F := F) c = seq ops := by
  simp only [main, main_part0, main_part1, main_part2, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub ..⟩

set_option maxRecDepth 16384 in
set_option maxHeartbeats 4000000 in
/-- Every weakly fair execution of the reference terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  What the reference computes, as one term of its argument arrays.

  For one relation: the gathered source rows are summed into their destination rows and added to the destination
  features; the result is multiplied by the first weight matrix; each column is normalised by its mean and its
  variance (the mean of the squared deviations), scaled, shifted and cut below at zero; the same again with the second
  weight matrix.  The two results of the program are this term at the two relations' arguments.
-/
import proofs.«120853_j16423954940358_2_alg».proof.Proof.RefRun

noncomputable section

namespace Cert.ReferenceIdeal.HandRun

open Idealize.ShloMosaic Idealize.ShloMosaic.TcCoe Idealize.SL.Sem Idealize.ShloMosaic.StableHlo Cert.ReferenceIdeal

variable {F : FTy → Type} [FloatOps F] [Cert.ReferenceIdeal.Facts]

open Cert.ReferenceIdeal.Facts₀ Cert.ReferenceIdeal.Facts

/-- The source rows gathered along the edges (a negative index counted from the end) and summed into the
    destination rows, from the zero matrix. -/
def aggOf (hsrc : FVec F S50000x128 .f32) (src dst : IVec S640000 32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (Host.gather gather_S50000x128_S640000x1_S640000x128_1_0_n_n_0_1_1128 hsrc
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 50000#32))) src)))

/-- The column sums. -/
def colSum (h : FVec F S50000x128 .f32) : FVec F S128 .f32 :=
  Host.reduceAdd h (constant S_ .f32 0x00000000#32) reducesTo_S50000x128_S128_d0 h_S_

/-- The column means. -/
def meanV (h : FVec F S50000x128 .f32) : FVec F S128 .f32 :=
  Host.divf (colSum h) (broadcastInDim S128 ![] bcast_S_S128 (constant S_ .f32 0x47435000#32))

/-- The number of rows less the (zero) correction. -/
def cnt : FVec F S_ .f32 := subf (constant S_ .f32 0x47435000#32) (sitofp .f32 (constantI S_ 32 0#32))

/-- The deviations from the column means. -/
def devs (h : FVec F S50000x128 .f32) : FVec F S50000x128 .f32 :=
  subf h (broadcastInDim S50000x128 ![0, 1] bcast_S1x128_S50000x128_0_1
    (Host.divf (broadcastInDim S1x128 ![1] bcast_S128_S1x128_1 (colSum h))
      (broadcastInDim S1x128 ![] bcast_S_S1x128 (constant S_ .f32 0x47435000#32))))

/-- The column variances: the mean of the squared deviations (selected, as the count is positive). -/
def varV (h : FVec F S50000x128 .f32) : FVec F S128 .f32 :=
  select (broadcastInDim S128 ![] bcast_S_S128 (cmpf .ogt (cnt (F := F)) (constant S_ .f32 0x00000000#32)))
    (Host.divf (colSum (mulf (devs h) (devs h))) (broadcastInDim S128 ![] bcast_S_S128 (cnt (F := F))))
    (broadcastInDim S128 ![] bcast_S_S128 (id (constant S_ .f32 0x7FC00000#32)))

/-- A vector of 128 entries repeated along 50000 rows. -/
def rows (v : FVec F S128 .f32) : FVec F S50000x128 .f32 :=
  broadcastInDim S50000x128 ![0, 1] bcast_S1x128_S50000x128_0_1 (broadcastInDim S1x128 ![1] bcast_S128_S1x128_1 v)

/-- Normalise, scale, shift, cut below at zero. -/
def layer (h : FVec F S50000x128 .f32) (g b : FVec F S128 .f32) : FVec F S50000x128 .f32 :=
  maximumf
    (addf (mulf (mulf (subf h (rows (meanV h)))
      (rows (Host.rsqrt (addf (varV h) (broadcastInDim S128 ![] bcast_S_S128 (constant S_ .f32 0x3727C5AC#32)))))) (rows g)) (rows b))
    (broadcastInDim S50000x128 ![] bcast_S_S50000x128 (constant S_ .f32 0x00000000#32))

/-- The product with a weight matrix. -/
def dotW (x : FVec F S50000x128 .f32) (W : FVec F S128x128 .f32) : FVec F S50000x128 .f32 :=
  Host.dotGeneral dot_S50000x128_S128x128_S50000x128_1_0_0_1_n_n none x W

/-- One relation's network. -/
def net (hdst hsrc : FVec F S50000x128 .f32) (src dst : IVec S640000 32) (W1 W2 : FVec F S128x128 .f32)
    (g1 b1 g2 b2 : FVec F S128 .f32) : FVec F S50000x128 .f32 :=
  layer (dotW (layer (dotW (addf hdst (aggOf hsrc src dst)) W1) g1 b1) W2) g2 b2

set_option maxRecDepth 65536 in
set_option maxHeartbeats 4000000 in
/-- The second result is the first relation's network. -/
theorem out_v52 (V : Valuation τ sig (Elt F)) :
    after ops V (main_v52 : DevRef τ sig)
      = net (V (main_arg1 : DevRef τ sig)) (V (main_arg0 : DevRef τ sig)) (V (main_arg2 : DevRef τ sig)) (V (main_arg3 : DevRef τ sig))
          (V (main_arg6 : DevRef τ sig)) (V (main_arg7 : DevRef τ sig)) (V (main_arg8 : DevRef τ sig)) (V (main_arg9 : DevRef τ sig))
          (V (main_arg10 : DevRef τ sig)) (V (main_arg11 : DevRef τ sig)) := by
  after_results_simp
  rfl

set_option maxRecDepth 65536 in
set_option maxHeartbeats 4000000 in
/-- The first result is the second relation's network. -/
theorem out_v105 (V : Valuation τ sig (Elt F)) :
    after ops V (main_v105 : DevRef τ sig)
      = net (V (main_arg0 : DevRef τ sig)) (V (main_arg1 : DevRef τ sig)) (V (main_arg4 : DevRef τ sig)) (V (main_arg5 : DevRef τ sig))
          (V (main_arg12 : DevRef τ sig)) (V (main_arg13 : DevRef τ sig)) (V (main_arg14 : DevRef τ sig)) (V (main_arg15 : DevRef τ sig))
          (V (main_arg16 : DevRef τ sig)) (V (main_arg17 : DevRef τ sig)) := by
  after_results_simp
  rfl

set_option maxRecDepth 65536 in
set_option maxHeartbeats 4000000 in
theorem keep_arg0 (V : Valuation τ sig (Elt F)) : after ops V (main_arg0 : DevRef τ sig) = V (main_arg0 : DevRef τ sig) := by
  after_results_simp

set_option maxRecDepth 65536 in
set_option maxHeartbeats 4000000 in
theorem keep_arg1 (V : Valuation τ sig (Elt F)) : after ops V (main_arg1 : DevRef τ sig) = V (main_arg1 : DevRef τ sig) := by
  after_results_simp

set_option maxRecDepth 65536 in
set_option maxHeartbeats 4000000 in
theorem keep_arg2 (V : Valuation τ sig (Elt F)) : after ops V (main_arg2 : DevRef τ sig) = V (main_arg2 : DevRef τ sig) := by
  after_results_simp

set_option maxRecDepth 65536 in
set_option maxHeartbeats 4000000 in
theorem keep_arg3 (V : Valuation τ sig (Elt F)) : after ops V (main_arg3 : DevRef τ sig) = V (main_arg3 : DevRef τ sig) := by
  after_results_simp

set_option maxRecDepth 65536 in
set_option maxHeartbeats 4000000 in
theorem keep_arg4 (V : Valuation τ sig (Elt F)) : after ops V (main_arg4 : DevRef τ sig) = V (main_arg4 : DevRef τ sig) := by
  after_results_simp

set_option maxRecDepth 65536 in
set_option maxHeartbeats 4000000 in
theorem keep_arg5 (V : Valuation τ sig (Elt F)) : after ops V (main_arg5 : DevRef τ sig) = V (main_arg5 : DevRef τ sig) := by
  after_results_simp

set_option maxRecDepth 65536 in
set_option maxHeartbeats 4000000 in
theorem keep_arg6 (V : Valuation τ sig (Elt F)) : after ops V (main_arg6 : DevRef τ sig) = V (main_arg6 : DevRef τ sig) := by
  after_results_simp

set_option maxRecDepth 65536 in
set_option maxHeartbeats 4000000 in
theorem keep_arg7 (V : Valuation τ sig (Elt F)) : after ops V (main_arg7 : DevRef τ sig) = V (main_arg7 : DevRef τ sig) := by
  after_results_simp

set_option maxRecDepth 65536 in
set_option maxHeartbeats 4000000 in
theorem keep_arg8 (V : Valuation τ sig (Elt F)) : after ops V (main_arg8 : DevRef τ sig) = V (main_arg8 : DevRef τ sig) := by
  after_results_simp

set_option maxRecDepth 65536 in
set_option maxHeartbeats 4000000 in
theorem keep_arg9 (V : Valuation τ sig (Elt F)) : after ops V (main_arg9 : DevRef τ sig) = V (main_arg9 : DevRef τ sig) := by
  after_results_simp

set_option maxRecDepth 65536 in
set_option maxHeartbeats 4000000 in
theorem keep_arg10 (V : Valuation τ sig (Elt F)) : after ops V (main_arg10 : DevRef τ sig) = V (main_arg10 : DevRef τ sig) := by
  after_results_simp

set_option maxRecDepth 65536 in
set_option maxHeartbeats 4000000 in
theorem keep_arg11 (V : Valuation τ sig (Elt F)) : after ops V (main_arg11 : DevRef τ sig) = V (main_arg11 : DevRef τ sig) := by
  after_results_simp

set_option maxRecDepth 65536 in
set_option maxHeartbeats 4000000 in
theorem keep_arg12 (V : Valuation τ sig (Elt F)) : after ops V (main_arg12 : DevRef τ sig) = V (main_arg12 : DevRef τ sig) := by
  after_results_simp

set_option maxRecDepth 65536 in
set_option maxHeartbeats 4000000 in
theorem keep_arg13 (V : Valuation τ sig (Elt F)) : after ops V (main_arg13 : DevRef τ sig) = V (main_arg13 : DevRef τ sig) := by
  after_results_simp

set_option maxRecDepth 65536 in
set_option maxHeartbeats 4000000 in
theorem keep_arg14 (V : Valuation τ sig (Elt F)) : after ops V (main_arg14 : DevRef τ sig) = V (main_arg14 : DevRef τ sig) := by
  after_results_simp

set_option maxRecDepth 65536 in
set_option maxHeartbeats 4000000 in
theorem keep_arg15 (V : Valuation τ sig (Elt F)) : after ops V (main_arg15 : DevRef τ sig) = V (main_arg15 : DevRef τ sig) := by
  after_results_simp

set_option maxRecDepth 65536 in
set_option maxHeartbeats 4000000 in
theorem keep_arg16 (V : Valuation τ sig (Elt F)) : after ops V (main_arg16 : DevRef τ sig) = V (main_arg16 : DevRef τ sig) := by
  after_results_simp

set_option maxRecDepth 65536 in
set_option maxHeartbeats 4000000 in
theorem keep_arg17 (V : Valuation τ sig (Elt F)) : after ops V (main_arg17 : DevRef τ sig) = V (main_arg17 : DevRef τ sig) := by
  after_results_simp

end Cert.ReferenceIdeal.HandRun

end
-- ==== Proof.RefApply.lean ====
/-
  The reference's term read index by index on the extended reals: it is the two-layer network with column
  variances taken as the mean of the squared deviations.
-/
import proofs.«120853_j16423954940358_2_alg».proof.Proof.RefValue
import proofs.«120853_j16423954940358_2_alg».proof.Proof.Spec
import proofs.«120853_j16423954940358_2_alg».proof.Proof.LibPlainDot
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.HandRun

open Idealize.ShloMosaic Idealize.ShloMosaic.ValueIdx Cert.ReferenceIdeal Cert.Gin

variable [Cert.ReferenceIdeal.Facts]

open Cert.ReferenceIdeal.Facts₀ Cert.ReferenceIdeal.Facts

/-- The one index of a scalar. -/
abbrev k0 : S_.Idx := fun a => a.elim0

theorem hred : S50000x128.Reduces [0] S128 := by decide

/-- The product with a weight matrix, entry by entry. -/
theorem dotW_eq (x : FVec Ideal S50000x128 .f32) (W : FVec Ideal S128x128 .f32) : dotW (F := Ideal) x W = lin x W := by
  funext i
  obtain ⟨a, b, rfl⟩ : ∃ (a : Fin 50000) (b : Fin 128), i = ix2 a b := ⟨i 0, i 1, eq_ix2 i⟩
  exact Cert.Lib.PlainDot.dotGeneral_apply_ix2 dot_S50000x128_S128x128_S50000x128_1_0_0_1_n_n rfl rfl (fun _ _ => rfl) (fun _ _ => rfl) (fun _ _ => rfl) (fun _ _ => rfl) none x W a b

/-- A column's sum. -/
theorem colSum_apply (h : FVec Ideal S50000x128 .f32) (c : Fin 128) :
    colSum (F := Ideal) h (ix1 c) = ∑ r : Fin 50000, h (ix2 r c) := by
  unfold colSum
  refine (Ideal.hostReduceAdd_single reducesTo_S50000x128_S128_d0 hred h _ (ix1 c)).trans ?_
  show Ideal.ofBits .f32 0x00000000#32 + _ = _
  rw [Cert.Gin.ofBits_zero, zero_add]
  refine Finset.sum_congr rfl fun r _ => congrArg h ?_
  funext a
  match a with
  | ⟨0, _⟩ => rfl
  | ⟨1, _⟩ => rfl

/-- A column's mean. -/
theorem meanV_apply (h : FVec Ideal S50000x128 .f32) (c : Fin 128) : meanV (F := Ideal) h (ix1 c) = mean h c := by
  unfold meanV mean
  show Ideal.div (colSum (F := Ideal) h (ix1 c)) (Ideal.ofBits .f32 0x47435000#32) = _
  rw [colSum_apply, Cert.Gin.ofBits_N]

/-- The count of rows is 50000. -/
theorem cnt_apply (j : S_.Idx) : cnt (F := Ideal) j = nN := by
  unfold cnt
  show Ideal.ofBits .f32 0x47435000#32 - (((0#32 : BitVec 32).toInt : ℝ) : EReal) = _
  rw [Cert.Gin.ofBits_N]
  simp

/-- A row vector's entry c, however it was made from a vector of 128 entries. -/
theorem row_apply (v : FVec Ideal S128 .f32) (c : Fin 128) :
    broadcastInDim S1x128 ![1] bcast_S128_S1x128_1 v (ix2 0 c) = v (ix1 c) :=
  broadcastInDim_apply ![1] bcast_S128_S1x128_1 v (ix2 0 c) (ix1 c) (fun a => by
    match a with
    | ⟨0, _⟩ => rfl)

/-- A row repeated along 50000 rows, at (r, c). -/
theorem tall_apply (v : FVec Ideal S1x128 .f32) (r : Fin 50000) (c : Fin 128) :
    broadcastInDim S50000x128 ![0, 1] bcast_S1x128_S50000x128_0_1 v (ix2 r c) = v (ix2 0 c) :=
  broadcastInDim_apply ![0, 1] bcast_S1x128_S50000x128_0_1 v (ix2 r c) (ix2 0 c) (fun a => by
    match a with
    | ⟨0, _⟩ => rfl
    | ⟨1, _⟩ => rfl)

theorem rows_apply (v : FVec Ideal S128 .f32) (r : Fin 50000) (c : Fin 128) : rows (F := Ideal) v (ix2 r c) = v (ix1 c) := by
  unfold rows
  rw [tall_apply, row_apply]

/-- A scalar repeated along 128 entries. -/
theorem splat128_apply (x : FVec Ideal S_ .f32) (c : Fin 128) (k : S_.Idx) :
    broadcastInDim S128 ![] bcast_S_S128 x (ix1 c) = x k :=
  broadcastInDim_apply ![] bcast_S_S128 x (ix1 c) k (fun a => a.elim0)

theorem splatRow_apply (x : FVec Ideal S_ .f32) (c : Fin 128) (k : S_.Idx) :
    broadcastInDim S1x128 ![] bcast_S_S1x128 x (ix2 0 c) = x k :=
  broadcastInDim_apply ![] bcast_S_S1x128 x (ix2 0 c) k (fun a => a.elim0)

theorem splatTall_apply (x : FVec Ideal S_ .f32) (r : Fin 50000) (c : Fin 128) (k : S_.Idx) :
    broadcastInDim S50000x128 ![] bcast_S_S50000x128 x (ix2 r c) = x k :=
  broadcastInDim_apply ![] bcast_S_S50000x128 x (ix2 r c) k (fun a => a.elim0)

/-- The deviation of an entry from its column's mean. -/
theorem devs_apply (h : FVec Ideal S50000x128 .f32) (r : Fin 50000) (c : Fin 128) :
    devs (F := Ideal) h (ix2 r c) = h (ix2 r c) - mean h c := by
  unfold devs mean
  refine (subf_apply _ _ _).trans (congrArg (h (ix2 r c) - ·) ?_)
  refine (tall_apply _ r c).trans ?_
  show Ideal.div (broadcastInDim S1x128 ![1] bcast_S128_S1x128_1 (colSum (F := Ideal) h) (ix2 0 c))
      (broadcastInDim S1x128 ![] bcast_S_S1x128 (constant (F := Ideal) S_ .f32 0x47435000#32) (ix2 0 c)) = _
  rw [row_apply, splatRow_apply _ c k0, colSum_apply]
  show Ideal.div _ (Ideal.ofBits .f32 0x47435000#32) = _
  rw [Cert.Gin.ofBits_N]

/-- A column's variance: the count being positive, the mean of the squared deviations. -/
theorem varV_apply (h : FVec Ideal S50000x128 .f32) (c : Fin 128) : varV (F := Ideal) h (ix1 c) = varD h c := by
  unfold varV varD
  have hc : broadcastInDim S128 ![] bcast_S_S128 (cmpf .ogt (cnt (F := Ideal)) (constant (F := Ideal) S_ .f32 0x00000000#32)) (ix1 c) = 1#1 := by
    refine (broadcastInDim_apply ![] bcast_S_S128 _ (ix1 c) k0 (fun a => a.elim0)).trans ?_
    show Ideal.cmp .ogt (cnt (F := Ideal) _) (Ideal.ofBits .f32 0x00000000#32) = 1#1
    rw [cnt_apply, Cert.Gin.ofBits_zero]
    simp [Ideal.cmp]
  show Scalar.select (broadcastInDim S128 ![] bcast_S_S128 (cmpf .ogt (cnt (F := Ideal)) (constant (F := Ideal) S_ .f32 0x00000000#32)) (ix1 c))
      (Ideal.div (colSum (F := Ideal) (mulf (devs h) (devs h)) (ix1 c)) (broadcastInDim S128 ![] bcast_S_S128 (cnt (F := Ideal)) (ix1 c))) _ = _
  rw [hc, splat128_apply _ c k0, cnt_apply, colSum_apply]
  show Ideal.div (∑ r : Fin 50000, devs (F := Ideal) h (ix2 r c) * devs (F := Ideal) h (ix2 r c)) nN = _
  simp only [devs_apply]

/-- The normalised, scaled, shifted, cut matrix, entry by entry. -/
theorem layer_eq (h : FVec Ideal S50000x128 .f32) (g b : FVec Ideal S128 .f32) :
    layer (F := Ideal) h g b = Cert.Gin.norm (varD h) h (fun c => g (ix1 c)) (fun c => b (ix1 c)) := by
  funext i
  obtain ⟨r, c, rfl⟩ : ∃ (r : Fin 50000) (c : Fin 128), i = ix2 r c := ⟨i 0, i 1, eq_ix2 i⟩
  unfold layer Cert.Gin.norm
  show max ((h (ix2 r c) - rows (F := Ideal) (meanV h) (ix2 r c))
        * rows (F := Ideal) (Host.rsqrt (addf (varV h) (broadcastInDim S128 ![] bcast_S_S128 (constant (F := Ideal) S_ .f32 0x3727C5AC#32)))) (ix2 r c)
        * rows (F := Ideal) g (ix2 r c) + rows (F := Ideal) b (ix2 r c))
      (broadcastInDim S50000x128 ![] bcast_S_S50000x128 (constant (F := Ideal) S_ .f32 0x00000000#32) (ix2 r c)) = _
  rw [rows_apply, rows_apply, rows_apply, rows_apply, meanV_apply, splatTall_apply _ r c k0]
  show max ((h (ix2 r c) - mean h c) * Ideal.rsqrt (varV (F := Ideal) h (ix1 c)
        + broadcastInDim S128 ![] bcast_S_S128 (constant (F := Ideal) S_ .f32 0x3727C5AC#32) (ix1 c)) * g (ix1 c) + b (ix1 c))
      (Ideal.ofBits .f32 0x00000000#32) = _
  rw [varV_apply, splat128_apply _ c k0, Cert.Gin.ofBits_zero]
  rfl

/-- One relation's reference term is the network with variances by squared deviations. -/
theorem net_eq (hdst hsrc : FVec Ideal S50000x128 .f32) (src dst : IVec S640000 32) (W1 W2 : FVec Ideal S128x128 .f32)
    (g1 b1 g2 b2 : FVec Ideal S128 .f32) :
    net (F := Ideal) hdst hsrc src dst W1 W2 g1 b1 g2 b2
      = netD (fun i => hdst i + aggOf (F := Ideal) hsrc src dst i) W1 (fun c => g1 (ix1 c)) (fun c => b1 (ix1 c)) W2
          (fun c => g2 (ix1 c)) (fun c => b2 (ix1 c)) := by
  unfold net netD
  rw [dotW_eq, layer_eq, dotW_eq, layer_eq]
  rfl

end Cert.ReferenceIdeal.HandRun

end
-- ==== Proof.Finite.lean ====
/-
  The precondition read on the extended reals: it tests, array by array, that every entry of a float argument has
  absolute value below +infinity; an extended real with that property is neither infinity, so a real number.
-/
import proofs.«120853_j16423954940358_2_alg».proof.Pre_finite_inputs
import proofs.«120853_j16423954940358_2_alg».proof.Proof.Algebra
import Idealize.ShloMosaic.Lib.ReduceAll
import Idealize.ShloMosaic.Lib.ValueIdx
import Idealize.ShloMosaic.Lib.Pipeline.Value

set_option maxRecDepth 16384

noncomputable section

namespace Cert.Gin.Finite

open Idealize.ShloMosaic Cert.Pre_finite_inputs Cert.Gin

variable [Cert.Pre_finite_inputs.Facts]

open Cert.Pre_finite_inputs.Facts

instance : Subsingleton S_.Idx := ⟨fun a b => funext fun d => d.elim0⟩

/-- The pattern of +infinity denotes the top element. -/
theorem ofBits_inf : Ideal.ofBits .f32 0x7F800000#32 = ⊤ := by
  simp [Ideal.ofBits, Ideal.ieee]

/-- An extended real whose absolute value is below +infinity is a real number. -/
theorem real_of_abs_lt (x : EReal) (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- If every entry of an array has absolute value below +infinity (the printed test, reduced by "and" over all
    axes, is 1) then every entry is a real number. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : IsReal (x i) := by
  have h := Host.reduce_andi_all _ _ hr hu j e i
  refine real_of_abs_lt (x i) ?_
  have hbc : broadcastInDim s ![] hb (constant (F := Ideal) S_ .f32 0x7F800000#32) i = Ideal.ofBits .f32 0x7F800000#32 :=
    (broadcastInDim_apply ![] hb (constant (F := Ideal) S_ .f32 0x7F800000#32) i (fun a => a.elim0) (fun a => a.elim0)).trans rfl
  rw [← hbc]
  exact h

theorem vandi_eq_one (a b : IVec S_ 1) (k : S_.Idx) : andi a b k = 1#1 ↔ a k = 1#1 ∧ b k = 1#1 := IntOp.andi_eq_one

/-- The precondition gives: every entry of every float argument is a real number. -/
theorem pre_real (a0 a1 : FVec Ideal S50000x128 .f32) (a2 a3 a4 a5 : IVec S640000 32) (a6 a7 : FVec Ideal S128x128 .f32)
    (a8 a9 a10 a11 : FVec Ideal S128 .f32) (a12 a13 : FVec Ideal S128x128 .f32) (a14 a15 a16 a17 : FVec Ideal S128 .f32)
    (h : fn (F := Ideal) a0 a1 a2 a3 a4 a5 a6 a7 a8 a9 a10 a11 a12 a13 a14 a15 a16 a17 = fun _ => 1#1) :
    (∀ i, IsReal (a0 i)) ∧ (∀ i, IsReal (a1 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) := by
  have h0 := congrFun h (fun a => a.elim0)
  unfold fn fn_part1 fn_part2 fn_part3 fn_part4 at h0
  dsimp only at h0
  obtain ⟨h0, h17⟩ := (vandi_eq_one _ _ _).1 h0
  obtain ⟨h0, h16⟩ := (vandi_eq_one _ _ _).1 h0
  obtain ⟨h0, h15⟩ := (vandi_eq_one _ _ _).1 h0
  obtain ⟨h0, h14⟩ := (vandi_eq_one _ _ _).1 h0
  obtain ⟨h0, h13⟩ := (vandi_eq_one _ _ _).1 h0
  obtain ⟨h0, h12⟩ := (vandi_eq_one _ _ _).1 h0
  obtain ⟨h0, h11⟩ := (vandi_eq_one _ _ _).1 h0
  obtain ⟨h0, h10⟩ := (vandi_eq_one _ _ _).1 h0
  obtain ⟨h0, h9⟩ := (vandi_eq_one _ _ _).1 h0
  obtain ⟨h0, h8⟩ := (vandi_eq_one _ _ _).1 h0
  obtain ⟨h0, h7⟩ := (vandi_eq_one _ _ _).1 h0
  obtain ⟨h0, h6⟩ := (vandi_eq_one _ _ _).1 h0
  obtain ⟨h0, h1⟩ := (vandi_eq_one _ _ _).1 h0
  exact ⟨all_real a0 _ _ _ _ h0, all_real a1 _ _ _ _ h1, all_real a6 _ _ _ _ h6, all_real a7 _ _ _ _ h7, all_real a8 _ _ _ _ h8, all_real a9 _ _ _ _ h9, all_real a10 _ _ _ _ h10, all_real a11 _ _ _ _ h11, all_real a12 _ _ _ _ h12, all_real a13 _ _ _ _ h13, all_real a14 _ _ _ _ h14, all_real a15 _ _ _ _ h15, all_real a16 _ _ _ _ h16, all_real a17 _ _ _ _ h17⟩

end Cert.Gin.Finite

end
-- ==== Proof.lean ====
/-
  The certificate's claim: the kernel program and the reference compute the same two arrays on the extended reals.

  Each relation of the graph layer is a two-layer network applied to the features plus the aggregated neighbour rows:
  product with a weight matrix, column-wise normalisation, scale, shift, cut at zero, twice.  The kernel program takes
  each column's variance as the mean of the squares less the squared mean, from running sums its first two kernels
  accumulate over ten blocks of 5000 rows; the reference takes it as the mean of the squared deviations.  The float
  arguments being finite, every entry of the aggregated rows, of both products and of the activated matrix is a real
  number, the two variances agree, and the two programs' results are one function of the arguments.  The three frame
  claims are the generated frames of the two kernel programs and the reference's run read at its arguments; the
  idealisation rewrote nothing, so the preservation claim is trivial.
-/
import proofs.«120853_j16423954940358_2_alg».proof.Defs
import proofs.«120853_j16423954940358_2_alg».proof.Proof.Gen.Kernel
import proofs.«120853_j16423954940358_2_alg».proof.Proof.Gen.Kernel.Frame
import proofs.«120853_j16423954940358_2_alg».proof.Proof.Gen.KernelIdeal
import proofs.«120853_j16423954940358_2_alg».proof.Proof.Gen.KernelIdeal.Frame
import proofs.«120853_j16423954940358_2_alg».proof.Proof.Gen.ReferenceIdeal
import proofs.«120853_j16423954940358_2_alg».proof.Proof.Gen.Pre_finite_inputs
import proofs.«120853_j16423954940358_2_alg».proof.Proof.KRun
import proofs.«120853_j16423954940358_2_alg».proof.Proof.KFold1
import proofs.«120853_j16423954940358_2_alg».proof.Proof.KFold2
import proofs.«120853_j16423954940358_2_alg».proof.Proof.RefApply
import proofs.«120853_j16423954940358_2_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx Cert.Gin

/-- The aggregation of neighbour rows is one term in the two programs. -/
theorem agg_eq (h : FVec Ideal Cert.KernelIdeal.S50000x128 .f32) (s d : IVec Cert.KernelIdeal.S640000 32) :
    Cert.KernelIdeal.Fold.aggOf h s d = Cert.ReferenceIdeal.HandRun.aggOf (F := Ideal) h s d := rfl

/-- The aggregated rows of a real matrix are real: each entry is zero plus a finite sum of gathered entries. -/
theorem agg_real (h : FVec Ideal Cert.ReferenceIdeal.S50000x128 .f32) (s d : IVec Cert.ReferenceIdeal.S640000 32)
    (hr : ∀ i, IsReal (h i)) (i : Cert.ReferenceIdeal.S50000x128.Idx) :
    IsReal (Cert.ReferenceIdeal.HandRun.aggOf (F := Ideal) h s d i) := by
  unfold Cert.ReferenceIdeal.HandRun.aggOf
  show IsReal (Ideal.hostScatterAdd _ _ _ _ i)
  unfold Ideal.hostScatterAdd
  refine IsReal.add ?_ (IsReal.sum _ _ fun j _ => hr _)
  exact ⟨0, ((broadcastInDim_apply _ _ _ i (fun a => a.elim0) (fun a => a.elim0)).trans Cert.Gin.ofBits_zero)⟩

/-- Relation 1: the reference's network at the reference's arguments is the kernel program's result at the kernel
    program's arguments, the arguments agreeing and every float argument being real. -/
theorem rel1_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (Cert.KernelIdeal.Fold.a0 m c) (Cert.KernelIdeal.Fold.a1 m c) (Cert.KernelIdeal.Fold.a2 m c) (Cert.KernelIdeal.Fold.a3 m c) (Cert.KernelIdeal.Fold.a4 m c) (Cert.KernelIdeal.Fold.a5 m c) (Cert.KernelIdeal.Fold.a6 m c) (Cert.KernelIdeal.Fold.a7 m c) (Cert.KernelIdeal.Fold.a8 m c) (Cert.KernelIdeal.Fold.a9 m c) (Cert.KernelIdeal.Fold.a10 m c) (Cert.KernelIdeal.Fold.a11 m c) (Cert.KernelIdeal.Fold.a12 m c) (Cert.KernelIdeal.Fold.a13 m c) (Cert.KernelIdeal.Fold.a14 m c) (Cert.KernelIdeal.Fold.a15 m c) (Cert.KernelIdeal.Fold.a16 m c) (Cert.KernelIdeal.Fold.a17 m c) = fun _ => 1#1) :
    Cert.ReferenceIdeal.HandRun.net (F := Ideal) (Cert.KernelIdeal.Fold.a1 m c) (Cert.KernelIdeal.Fold.a0 m c) (Cert.KernelIdeal.Fold.a2 m c) (Cert.KernelIdeal.Fold.a3 m c)
      (Cert.KernelIdeal.Fold.a6 m c) (Cert.KernelIdeal.Fold.a7 m c) (Cert.KernelIdeal.Fold.a8 m c) (Cert.KernelIdeal.Fold.a9 m c) (Cert.KernelIdeal.Fold.a10 m c) (Cert.KernelIdeal.Fold.a11 m c)
      = Cert.KernelIdeal.Fold.Out_1 m c := by
  have hr := Cert.Gin.Finite.pre_real _ _ _ _ _ _ _ _ _ _ _ _ _ _ _ _ _ _ hpre
  rw [Cert.ReferenceIdeal.HandRun.net_eq]
  have hx : ∀ i, IsReal (Cert.KernelIdeal.Fold.a1 m c i + Cert.ReferenceIdeal.HandRun.aggOf (F := Ideal) (Cert.KernelIdeal.Fold.a0 m c) (Cert.KernelIdeal.Fold.a2 m c) (Cert.KernelIdeal.Fold.a3 m c) i) :=
    fun i => (hr.2.1 i).add (agg_real _ _ _ hr.1 i)
  rw [← netS_eq_netD hx hr.2.2.1 hr.2.2.2.1 (fun k => hr.2.2.2.2.1 _) (fun k => hr.2.2.2.2.2.1 _)]
  rfl

/-- Relation 2: the reference's network at the reference's arguments is the kernel program's result at the kernel
    program's arguments, the arguments agreeing and every float argument being real. -/
theorem rel2_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (Cert.KernelIdeal.Fold.a0 m c) (Cert.KernelIdeal.Fold.a1 m c) (Cert.KernelIdeal.Fold.a2 m c) (Cert.KernelIdeal.Fold.a3 m c) (Cert.KernelIdeal.Fold.a4 m c) (Cert.KernelIdeal.Fold.a5 m c) (Cert.KernelIdeal.Fold.a6 m c) (Cert.KernelIdeal.Fold.a7 m c) (Cert.KernelIdeal.Fold.a8 m c) (Cert.KernelIdeal.Fold.a9 m c) (Cert.KernelIdeal.Fold.a10 m c) (Cert.KernelIdeal.Fold.a11 m c) (Cert.KernelIdeal.Fold.a12 m c) (Cert.KernelIdeal.Fold.a13 m c) (Cert.KernelIdeal.Fold.a14 m c) (Cert.KernelIdeal.Fold.a15 m c) (Cert.KernelIdeal.Fold.a16 m c) (Cert.KernelIdeal.Fold.a17 m c) = fun _ => 1#1) :
    Cert.ReferenceIdeal.HandRun.net (F := Ideal) (Cert.KernelIdeal.Fold.a0 m c) (Cert.KernelIdeal.Fold.a1 m c) (Cert.KernelIdeal.Fold.a4 m c) (Cert.KernelIdeal.Fold.a5 m c)
      (Cert.KernelIdeal.Fold.a12 m c) (Cert.KernelIdeal.Fold.a13 m c) (Cert.KernelIdeal.Fold.a14 m c) (Cert.KernelIdeal.Fold.a15 m c) (Cert.KernelIdeal.Fold.a16 m c) (Cert.KernelIdeal.Fold.a17 m c)
      = Cert.KernelIdeal.Fold.Out_2 m c := by
  have hr := Cert.Gin.Finite.pre_real _ _ _ _ _ _ _ _ _ _ _ _ _ _ _ _ _ _ hpre
  rw [Cert.ReferenceIdeal.HandRun.net_eq]
  have hx : ∀ i, IsReal (Cert.KernelIdeal.Fold.a0 m c i + Cert.ReferenceIdeal.HandRun.aggOf (F := Ideal) (Cert.KernelIdeal.Fold.a1 m c) (Cert.KernelIdeal.Fold.a4 m c) (Cert.KernelIdeal.Fold.a5 m c) i) :=
    fun i => (hr.1 i).add (agg_real _ _ _ hr.2.1 i)
  rw [← netS_eq_netD hx hr.2.2.2.2.2.2.2.2.1 hr.2.2.2.2.2.2.2.2.2.1 (fun k => hr.2.2.2.2.2.2.2.2.2.2.1 _) (fun k => hr.2.2.2.2.2.2.2.2.2.2.2.1 _)]
  rfl

theorem frame_k : Cert.frame_Kernel := fun m ρ _ => Cert.Kernel.Gen.frame m ρ

theorem frame_ki : Cert.frame_KernelIdeal := fun m ρ _ => Cert.KernelIdeal.Gen.frame m ρ

/-- The reference runs, and its run leaves every argument array as launched. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.HandRun.keep_arg0 _),
        (h c Cert.ReferenceIdeal.main_arg1).trans (Cert.ReferenceIdeal.HandRun.keep_arg1 _),
        (h c Cert.ReferenceIdeal.main_arg2).trans (Cert.ReferenceIdeal.HandRun.keep_arg2 _),
        (h c Cert.ReferenceIdeal.main_arg3).trans (Cert.ReferenceIdeal.HandRun.keep_arg3 _),
        (h c Cert.ReferenceIdeal.main_arg4).trans (Cert.ReferenceIdeal.HandRun.keep_arg4 _),
        (h c Cert.ReferenceIdeal.main_arg5).trans (Cert.ReferenceIdeal.HandRun.keep_arg5 _),
        (h c Cert.ReferenceIdeal.main_arg6).trans (Cert.ReferenceIdeal.HandRun.keep_arg6 _),
        (h c Cert.ReferenceIdeal.main_arg7).trans (Cert.ReferenceIdeal.HandRun.keep_arg7 _),
        (h c Cert.ReferenceIdeal.main_arg8).trans (Cert.ReferenceIdeal.HandRun.keep_arg8 _),
        (h c Cert.ReferenceIdeal.main_arg9).trans (Cert.ReferenceIdeal.HandRun.keep_arg9 _),
        (h c Cert.ReferenceIdeal.main_arg10).trans (Cert.ReferenceIdeal.HandRun.keep_arg10 _),
        (h c Cert.ReferenceIdeal.main_arg11).trans (Cert.ReferenceIdeal.HandRun.keep_arg11 _),
        (h c Cert.ReferenceIdeal.main_arg12).trans (Cert.ReferenceIdeal.HandRun.keep_arg12 _),
        (h c Cert.ReferenceIdeal.main_arg13).trans (Cert.ReferenceIdeal.HandRun.keep_arg13 _),
        (h c Cert.ReferenceIdeal.main_arg14).trans (Cert.ReferenceIdeal.HandRun.keep_arg14 _),
        (h c Cert.ReferenceIdeal.main_arg15).trans (Cert.ReferenceIdeal.HandRun.keep_arg15 _),
        (h c Cert.ReferenceIdeal.main_arg16).trans (Cert.ReferenceIdeal.HandRun.keep_arg16 _),
        (h c Cert.ReferenceIdeal.main_arg17).trans (Cert.ReferenceIdeal.HandRun.keep_arg17 _)⟩)
    (Cert.ReferenceIdeal.HandRun.run_main (F := Ideal) m ρ)

theorem preserves : Cert.preserves_Kernel_KernelIdeal := trivial

/-- The two programs, run from memories agreeing on the arguments, end with equal results. -/
theorem algebraic : Cert.algebraic_KernelIdeal_ReferenceIdeal := by
  intro m ρ m' ρ' hpre hagree
  refine ⟨fun c => Cert.KernelIdeal.Fold.Out_2 m c, fun c => Cert.KernelIdeal.Fold.Out_1 m c, ?_, ?_⟩
  · exact (θ_run Cert.KernelIdeal.defs _ _).mono
      (fun _ h c => ⟨(h c).1.trans (Cert.KernelIdeal.Fold.W12_out m ρ c), (h c).2.1.trans (Cert.KernelIdeal.Fold.W12_out1 m ρ c), (h c).2.2⟩)
      (Cert.KernelIdeal.Named.run_named m ρ)
  · refine (θ_run Cert.ReferenceIdeal.defs _ _).mono
      (fun _ h c => ⟨((h c Cert.ReferenceIdeal.main_v105).trans (Cert.ReferenceIdeal.HandRun.out_v105 _)).trans ?_,
        ((h c Cert.ReferenceIdeal.main_v52).trans (Cert.ReferenceIdeal.HandRun.out_v52 _)).trans ?_,
        (h c Cert.ReferenceIdeal.main_arg0).trans (Cert.ReferenceIdeal.HandRun.keep_arg0 _),
        (h c Cert.ReferenceIdeal.main_arg1).trans (Cert.ReferenceIdeal.HandRun.keep_arg1 _),
        (h c Cert.ReferenceIdeal.main_arg2).trans (Cert.ReferenceIdeal.HandRun.keep_arg2 _),
        (h c Cert.ReferenceIdeal.main_arg3).trans (Cert.ReferenceIdeal.HandRun.keep_arg3 _),
        (h c Cert.ReferenceIdeal.main_arg4).trans (Cert.ReferenceIdeal.HandRun.keep_arg4 _),
        (h c Cert.ReferenceIdeal.main_arg5).trans (Cert.ReferenceIdeal.HandRun.keep_arg5 _),
        (h c Cert.ReferenceIdeal.main_arg6).trans (Cert.ReferenceIdeal.HandRun.keep_arg6 _),
        (h c Cert.ReferenceIdeal.main_arg7).trans (Cert.ReferenceIdeal.HandRun.keep_arg7 _),
        (h c Cert.ReferenceIdeal.main_arg8).trans (Cert.ReferenceIdeal.HandRun.keep_arg8 _),
        (h c Cert.ReferenceIdeal.main_arg9).trans (Cert.ReferenceIdeal.HandRun.keep_arg9 _),
        (h c Cert.ReferenceIdeal.main_arg10).trans (Cert.ReferenceIdeal.HandRun.keep_arg10 _),
        (h c Cert.ReferenceIdeal.main_arg11).trans (Cert.ReferenceIdeal.HandRun.keep_arg11 _),
        (h c Cert.ReferenceIdeal.main_arg12).trans (Cert.ReferenceIdeal.HandRun.keep_arg12 _),
        (h c Cert.ReferenceIdeal.main_arg13).trans (Cert.ReferenceIdeal.HandRun.keep_arg13 _),
        (h c Cert.ReferenceIdeal.main_arg14).trans (Cert.ReferenceIdeal.HandRun.keep_arg14 _),
        (h c Cert.ReferenceIdeal.main_arg15).trans (Cert.ReferenceIdeal.HandRun.keep_arg15 _),
        (h c Cert.ReferenceIdeal.main_arg16).trans (Cert.ReferenceIdeal.HandRun.keep_arg16 _),
        (h c Cert.ReferenceIdeal.main_arg17).trans (Cert.ReferenceIdeal.HandRun.keep_arg17 _)⟩)
      (Cert.ReferenceIdeal.HandRun.run_main (F := Ideal) m' ρ')
    · show Cert.ReferenceIdeal.HandRun.net (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
      rw [(hagree c).1, (hagree c).2.1, (hagree c).2.2.2.2.1, (hagree c).2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
      exact rel2_eq m c (hpre c)
    · show Cert.ReferenceIdeal.HandRun.net (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
      rw [(hagree c).2.1, (hagree c).1, (hagree c).2.2.1, (hagree c).2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
      exact rel1_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
